-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v113)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v113) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v131) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S256x256 : Shape := ⟨2, ![256, 256]⟩
abbrev S1 : Shape := ⟨1, ![1]⟩
abbrev S256 : Shape := ⟨1, ![256]⟩
abbrev S400000 : Shape := ⟨1, ![400000]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S1 : S_.BroadcastsInDim S1 (![] : Fin 0 → Fin S1.rank)
  reducesTo_S1_S_d0 : S1.ReducesTo [0] S_
  bcast_S_S256 : S_.BroadcastsInDim S256 (![] : Fin 0 → Fin S256.rank)
  reducesTo_S256_S_d0 : S256.ReducesTo [0] S_

variable [Facts]

def fn_part2 {F : FTy → Type} [FloatOps F] (main_arg7 : FVec F S256 .f32) (main_arg8 : FVec F S256 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  main_v43

def fn_part1 {F : FTy → Type} [FloatOps F] (main_arg4 : FVec F S1 .f32) (main_arg5 : FVec F S1 .f32) (main_arg6 : FVec F S1 .f32) (main_arg7 : FVec F S256 .f32) (main_arg8 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg7 main_arg8 main_v33

def fn {F : FTy → Type} [FloatOps F] (main_arg0 : FVec F S50000x256 .f32) (main_arg1 : FVec F S256x256 .f32) (main_arg2 : FVec F S256x256 .f32) (main_arg3 : FVec F S256x256 .f32) (main_arg4 : FVec F S1 .f32) (main_arg5 : FVec F S1 .f32) (main_arg6 : FVec F S1 .f32) (main_arg7 : FVec F S256 .f32) (main_arg8 : FVec F S256 .f32) (main_arg9 : IVec S400000 32) (main_arg10 : IVec S400000 32) (main_arg11 : IVec S400000 32) (main_arg12 : IVec S400000 32) (main_arg13 : IVec S400000 32) (main_arg14 : IVec S400000 32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_arg8 main_v13 main_v16
-- ==== Kernel.lean ====
abbrev S50000x256 : Shape := ⟨2, ![50000, 256]⟩
abbrev S256x256 : Shape := ⟨2, ![256, 256]⟩
abbrev S1 : Shape := ⟨1, ![1]⟩
abbrev S256 : Shape := ⟨1, ![256]⟩
abbrev S400000 : Shape := ⟨1, ![400000]⟩
abbrev S_ : Shape := ⟨0, ![]⟩
abbrev S3 : Shape := ⟨1, ![3]⟩
abbrev S5000x256 : Shape := ⟨2, ![5000, 256]⟩
abbrev S400000x1 : Shape := ⟨2, ![400000, 1]⟩
abbrev S400000x256 : Shape := ⟨2, ![400000, 256]⟩
abbrev S50000 : Shape := ⟨1, ![50000]⟩
abbrev S50000x1 : Shape := ⟨2, ![50000, 1]⟩
abbrev S1x256 : Shape := ⟨2, ![1, 256]⟩
abbrev S2000x256 : Shape := ⟨2, ![2000, 256]⟩
abbrev S2000 : Shape := ⟨1, ![2000]⟩
abbrev S2000x1 : Shape := ⟨2, ![2000, 1]⟩

abbrev nBuf : Space → Nat
  | .hbm => 160
  | .vmem => 11
  | .smem => 0
  | _ => 0

abbrev hbmTy0_0 (i : Nat) : BufTy := match i % 128 with
  | 0 => ⟨S50000x256, .f32⟩
  | 1 => ⟨S256x256, .f32⟩
  | 2 => ⟨S256x256, .f32⟩
  | 3 => ⟨S256x256, .f32⟩
  | 4 => ⟨S1, .f32⟩
  | 5 => ⟨S1, .f32⟩
  | 6 => ⟨S1, .f32⟩
  | 7 => ⟨S256, .f32⟩
  | 8 => ⟨S256, .f32⟩
  | 9 => ⟨S400000, .i32⟩
  | 10 => ⟨S400000, .i32⟩
  | 11 => ⟨S400000, .i32⟩
  | 12 => ⟨S400000, .i32⟩
  | 13 => ⟨S400000, .i32⟩
  | 14 => ⟨S400000, .i32⟩
  | 15 => ⟨S_, .f32⟩
  | 16 => ⟨S_, .f32⟩
  | 17 => ⟨S_, .f32⟩
  | 18 => ⟨S_, .f32⟩
  | 19 => ⟨S1, .f32⟩
  | 20 => ⟨S1, .f32⟩
  | 21 => ⟨S1, .f32⟩
  | 22 => ⟨S_, .f32⟩
  | 23 => ⟨S_, .f32⟩
  | 24 => ⟨S1, .f32⟩
  | 25 => ⟨S1, .f32⟩
  | 26 => ⟨S_, .f32⟩
  | 27 => ⟨S_, .f32⟩
  | 28 => ⟨S_, .f32⟩
  | 29 => ⟨S_, .f32⟩
  | 30 => ⟨S1, .f32⟩
  | 31 => ⟨S1, .f32⟩
  | 32 => ⟨S1, .f32⟩
  | 33 => ⟨S_, .f32⟩
  | 34 => ⟨S_, .f32⟩
  | 35 => ⟨S1, .f32⟩
  | 36 => ⟨S1, .f32⟩
  | 37 => ⟨S_, .f32⟩
  | 38 => ⟨S_, .f32⟩
  | 39 => ⟨S_, .f32⟩
  | 40 => ⟨S_, .f32⟩
  | 41 => ⟨S1, .f32⟩
  | 42 => ⟨S1, .f32⟩
  | 43 => ⟨S1, .f32⟩
  | 44 => ⟨S_, .f32⟩
  | 45 => ⟨S_, .f32⟩
  | 46 => ⟨S1, .f32⟩
  | 47 => ⟨S1, .f32⟩
  | 48 => ⟨S3, .f32⟩
  | 49 => ⟨S_, .f32⟩
  | 50 => ⟨S_, .f32⟩
  | 51 => ⟨S_, .f32⟩
  | 52 => ⟨S_, .f32⟩
  | 53 => ⟨S1, .f32⟩
  | 54 => ⟨S3, .f32⟩
  | 55 => ⟨S3, .f32⟩
  | 56 => ⟨S3, .f32⟩
  | 57 => ⟨S_, .f32⟩
  | 58 => ⟨S_, .f32⟩
  | 59 => ⟨S1, .f32⟩
  | 60 => ⟨S3, .f32⟩
  | 61 => ⟨S3, .f32⟩
  | 62 => ⟨S1, .f32⟩
  | 63 => ⟨S_, .f32⟩
  | 64 => ⟨S256x256, .f32⟩
  | 65 => ⟨S256x256, .f32⟩
  | 66 => ⟨S1, .f32⟩
  | 67 => ⟨S_, .f32⟩
  | 68 => ⟨S256x256, .f32⟩
  | 69 => ⟨S256x256, .f32⟩
  | 70 => ⟨S256x256, .f32⟩
  | 71 => ⟨S1, .f32⟩
  | 72 => ⟨S_, .f32⟩
  | 73 => ⟨S256x256, .f32⟩
  | 74 => ⟨S256x256, .f32⟩
  | 75 => ⟨S256x256, .f32⟩
  | 76 => ⟨S50000x256, .f32⟩
  | 77 => ⟨S_, .i32⟩
  | 78 => ⟨S400000, .i32⟩
  | 79 => ⟨S400000, .i1⟩
  | 80 => ⟨S_, .i32⟩
  | 81 => ⟨S400000, .i32⟩
  | 82 => ⟨S400000, .i32⟩
  | 83 => ⟨S400000, .i32⟩
  | 84 => ⟨S400000x1, .i32⟩
  | 85 => ⟨S400000x256, .f32⟩
  | 86 => ⟨S_, .f32⟩
  | 87 => ⟨S50000x256, .f32⟩
  | 88 => ⟨S400000x1, .i32⟩
  | 89 => ⟨S50000x256, .f32⟩
  | 90 => ⟨S_, .f32⟩
  | 91 => ⟨S400000, .f32⟩
  | 92 => ⟨S_, .f32⟩
  | 93 => ⟨S50000, .f32⟩
  | 94 => ⟨S400000x1, .i32⟩
  | 95 => ⟨S50000, .f32⟩
  | 96 => ⟨S_, .f32⟩
  | 97 => ⟨S50000, .f32⟩
  | 98 => ⟨S50000, .f32⟩
  | 99 => ⟨S50000x1, .f32⟩
  | 100 => ⟨S50000x256, .f32⟩
  | 101 => ⟨S50000x256, .f32⟩
  | 102 => ⟨S_, .i32⟩
  | 103 => ⟨S400000, .i32⟩
  | 104 => ⟨S400000, .i1⟩
  | 105 => ⟨S_, .i32⟩
  | 106 => ⟨S400000, .i32⟩
  | 107 => ⟨S400000, .i32⟩
  | 108 => ⟨S400000, .i32⟩
  | 109 => ⟨S400000x1, .i32⟩
  | 110 => ⟨S400000x256, .f32⟩
  | 111 => ⟨S_, .f32⟩
  | 112 => ⟨S50000x256, .f32⟩
  | 113 => ⟨S400000x1, .i32⟩
  | 114 => ⟨S50000x256, .f32⟩
  | 115 => ⟨S_, .f32⟩
  | 116 => ⟨S400000, .f32⟩
  | 117 => ⟨S_, .f32⟩
  | 118 => ⟨S50000, .f32⟩
  | 119 => ⟨S400000x1, .i32⟩
  | 120 => ⟨S50000, .f32⟩
  | 121 => ⟨S_, .f32⟩
  | 122 => ⟨S50000, .f32⟩
  | 123 => ⟨S50000, .f32⟩
  | 124 => ⟨S50000x1, .f32⟩
  | 125 => ⟨S50000x256, .f32⟩
  | 126 => ⟨S50000x256, .f32⟩
  | 127 => ⟨S50000x256, .f32⟩
  | _ => ⟨S50000x256, .f32⟩

abbrev hbmTy0_1 (i : Nat) : BufTy := match i % 128 with
  | 0 => ⟨S_, .i32⟩
  | 1 => ⟨S400000, .i32⟩
  | 2 => ⟨S400000, .i1⟩
  | 3 => ⟨S_, .i32⟩
  | 4 => ⟨S400000, .i32⟩
  | 5 => ⟨S400000, .i32⟩
  | 6 => ⟨S400000, .i32⟩
  | 7 => ⟨S400000x1, .i32⟩
  | 8 => ⟨S400000x256, .f32⟩
  | 9 => ⟨S_, .f32⟩
  | 10 => ⟨S50000x256, .f32⟩
  | 11 => ⟨S400000x1, .i32⟩
  | 12 => ⟨S50000x256, .f32⟩
  | 13 => ⟨S_, .f32⟩
  | 14 => ⟨S400000, .f32⟩
  | 15 => ⟨S_, .f32⟩
  | 16 => ⟨S50000, .f32⟩
  | 17 => ⟨S400000x1, .i32⟩
  | 18 => ⟨S50000, .f32⟩
  | 19 => ⟨S_, .f32⟩
  | 20 => ⟨S50000, .f32⟩
  | 21 => ⟨S50000, .f32⟩
  | 22 => ⟨S50000x1, .f32⟩
  | 23 => ⟨S50000x256, .f32⟩
  | 24 => ⟨S50000x256, .f32⟩
  | 25 => ⟨S50000x256, .f32⟩
  | 26 => ⟨S_, .f32⟩
  | 27 => ⟨S50000x256, .f32⟩
  | 28 => ⟨S50000x256, .f32⟩
  | 29 => ⟨S1x256, .f32⟩
  | 30 => ⟨S1x256, .f32⟩
  | 31 => ⟨S50000x256, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | .local _ .vmem, ⟨0, _⟩ => ⟨S5000x256, .f32⟩
  | .local _ .vmem, ⟨1, _⟩ => ⟨S5000x256, .f32⟩
  | .local _ .vmem, ⟨2, _⟩ => ⟨S256x256, .f32⟩
  | .local _ .vmem, ⟨3, _⟩ => ⟨S5000x256, .f32⟩
  | .local _ .vmem, ⟨4, _⟩ => ⟨S5000x256, .f32⟩
  | .local _ .vmem, ⟨5, _⟩ => ⟨S2000x256, .f32⟩
  | .local _ .vmem, ⟨6, _⟩ => ⟨S2000x256, .f32⟩
  | .local _ .vmem, ⟨7, _⟩ => ⟨S1x256, .f32⟩
  | .local _ .vmem, ⟨8, _⟩ => ⟨S1x256, .f32⟩
  | .local _ .vmem, ⟨9, _⟩ => ⟨S2000x256, .f32⟩
  | .local _ .vmem, ⟨10, _⟩ => ⟨S2000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_cst_0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_cst_1 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst_2 : Ref sig .tc := ⟨.hbm, 26, rfl⟩
abbrev main_v8 : Ref sig .tc := ⟨.hbm, 27, rfl⟩
abbrev main_cst_3 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_cst_4 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_cst_5 : Ref sig .tc := ⟨.hbm, 37, rfl⟩
abbrev main_v16 : Ref sig .tc := ⟨.hbm, 38, rfl⟩
abbrev main_cst_6 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_cst_7 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_cst_8 : Ref sig .tc := ⟨.hbm, 49, rfl⟩
abbrev main_v25 : Ref sig .tc := ⟨.hbm, 50, rfl⟩
abbrev main_cst_9 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_cst_10 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_c : Ref sig .tc := ⟨.hbm, 77, rfl⟩
abbrev main_v50 : Ref sig .tc := ⟨.hbm, 78, rfl⟩
abbrev main_v51 : Ref sig .tc := ⟨.hbm, 79, rfl⟩
abbrev main_c_11 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_12 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_cst_13 : Ref sig .tc := ⟨.hbm, 90, rfl⟩
abbrev main_v60 : Ref sig .tc := ⟨.hbm, 91, rfl⟩
abbrev main_cst_14 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_cst_15 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_c_16 : Ref sig .tc := ⟨.hbm, 102, rfl⟩
abbrev main_v69 : Ref sig .tc := ⟨.hbm, 103, rfl⟩
abbrev main_v70 : Ref sig .tc := ⟨.hbm, 104, rfl⟩
abbrev main_c_17 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_cst_18 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_cst_19 : Ref sig .tc := ⟨.hbm, 115, rfl⟩
abbrev main_v79 : Ref sig .tc := ⟨.hbm, 116, rfl⟩
abbrev main_cst_20 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_cst_21 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_c_22 : Ref sig .tc := ⟨.hbm, 128, rfl⟩
abbrev main_v89 : Ref sig .tc := ⟨.hbm, 129, rfl⟩
abbrev main_v90 : Ref sig .tc := ⟨.hbm, 130, rfl⟩
abbrev main_c_23 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_cst_24 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_cst_25 : Ref sig .tc := ⟨.hbm, 141, rfl⟩
abbrev main_v99 : Ref sig .tc := ⟨.hbm, 142, rfl⟩
abbrev main_cst_26 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_cst_27 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_cst_28 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  reducesTo_S1_S_d0 : S1.ReducesTo [0] S_
  h_S_ : 0 < S_.numel
  bcast_S_S1 : S_.BroadcastsInDim S1 (![] : Fin 0 → Fin S1.rank)
  concatenates_S1_S1_S1_S3_d0 : Shape.Concatenates [S1, S1, S1] S3 0
  reducesTo_S3_S_d0 : S3.ReducesTo [0] S_
  bcast_S1_S3_0 : S1.BroadcastsInDim S3 (![0] : Fin 1 → Fin S3.rank)
  slices_S3_S1_0 : S3.Slices ![0] S1
  shapeCasts_S1_S_ : S1.ShapeCasts S_
  bcast_S_S256x256 : S_.BroadcastsInDim S256x256 (![] : Fin 0 → Fin S256x256.rank)
  slices_S3_S1_1 : S3.Slices ![1] S1
  slices_S3_S1_2 : S3.Slices ![2] S1
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  bcast_S_S400000 : S_.BroadcastsInDim S400000 (![] : Fin 0 → Fin S400000.rank)
  bcast_S400000_S400000x1_0 : S400000.BroadcastsInDim S400000x1 (![0] : Fin 1 → Fin S400000x1.rank)
  bcast_S_S50000x256 : S_.BroadcastsInDim S50000x256 (![] : Fin 0 → Fin S50000x256.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  shapeCasts_S256_S1x256 : S256.ShapeCasts S1x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  reduces_S2000x256_S2000 : S2000x256.Reduces [1] S2000
  shapeCasts_S2000_S2000x1 : S2000.ShapeCasts S2000x1
  broadcasts_S2000x1_S2000x256 : S2000x1.Broadcasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  dot_S5000x256_S256x256_S5000x256_1_0_0_1_n_n_wf : DotDims.WF S5000x256 S256x256 S5000x256 [1] [0] [0] [1] [] []
  gather_S50000x256_S400000x1_S400000x256_1_0_n_n_0_1_1256_wf : GatherDims.WF S50000x256 S400000x1 S400000x256 [1] [0] [] [0] [] 1 ![1, 256]
  scatter_S50000x256_S400000x1_S400000x256_1_0_0_1_wf : ScatterDims.WF S50000x256 S400000x1 S400000x256 [1] [0] [0] 1
  scatter_S50000_S400000x1_S400000_n_0_0_1_wf : ScatterDims.WF S50000 S400000x1 S400000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S50000x256.size a
  hwx0_2 : ∀ i : grid0.Coords, EltTy.bits .f32 = 32 ∨ (Rect.block (s := S50000x256) S5000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x256.size a ≤ S50000x256.size a
  hwx1_3 : ∀ i : grid1.Coords, EltTy.bits .f32 = 32 ∨ (Rect.block (s := S50000x256) S2000x256.size (cc1_transform_3 i) (hinb1_3 i)).WholeWords (EltTy.packing .f32)

variable [Facts₀]

def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def gather_S50000x256_S400000x1_S400000x256_1_0_n_n_0_1_1256 : GatherDims S50000x256 S400000x1 S400000x256 where
  offsetDims := [1]
  collapsedSliceDims := [0]
  operandBatchingDims := []
  startIndicesBatchingDims := []
  startIndexMap := [0]
  indexVectorDim := 1
  sliceSizes := ![1, 256]
  wf := gather_S50000x256_S400000x1_S400000x256_1_0_n_n_0_1_1256_wf
def scatter_S50000x256_S400000x1_S400000x256_1_0_0_1 : ScatterDims S50000x256 S400000x1 S400000x256 where
  updateWindowDims := [1]
  insertedWindowDims := [0]
  scatterDimsToOperandDims := [0]
  indexVectorDim := 1
  wf := scatter_S50000x256_S400000x1_S400000x256_1_0_0_1_wf
def scatter_S50000_S400000x1_S400000_n_0_0_1 : ScatterDims S50000 S400000x1 S400000 where
  updateWindowDims := []
  insertedWindowDims := [0]
  scatterDimsToOperandDims := [0]
  indexVectorDim := 1
  wf := scatter_S50000_S400000x1_S400000_n_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v48) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v49) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v110) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v111) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v112) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v113) S2000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x256 : Shape := ⟨2, ![50000, 256]⟩
abbrev S256x256 : Shape := ⟨2, ![256, 256]⟩
abbrev S1 : Shape := ⟨1, ![1]⟩
abbrev S256 : Shape := ⟨1, ![256]⟩
abbrev S400000 : Shape := ⟨1, ![400000]⟩
abbrev S_ : Shape := ⟨0, ![]⟩
abbrev S3 : Shape := ⟨1, ![3]⟩
abbrev S400000x1 : Shape := ⟨2, ![400000, 1]⟩
abbrev S400000x256 : Shape := ⟨2, ![400000, 256]⟩
abbrev S50000 : Shape := ⟨1, ![50000]⟩
abbrev S50000x1 : Shape := ⟨2, ![50000, 1]⟩
abbrev S1x256 : Shape := ⟨2, ![1, 256]⟩

abbrev nBuf : Space → Nat
  | .hbm => 206
  | .vmem => 0
  | .smem => 0
  | _ => 0

abbrev hbmTy0_0 (i : Nat) : BufTy := match i % 128 with
  | 0 => ⟨S50000x256, .f32⟩
  | 1 => ⟨S256x256, .f32⟩
  | 2 => ⟨S256x256, .f32⟩
  | 3 => ⟨S256x256, .f32⟩
  | 4 => ⟨S1, .f32⟩
  | 5 => ⟨S1, .f32⟩
  | 6 => ⟨S1, .f32⟩
  | 7 => ⟨S256, .f32⟩
  | 8 => ⟨S256, .f32⟩
  | 9 => ⟨S400000, .i32⟩
  | 10 => ⟨S400000, .i32⟩
  | 11 => ⟨S400000, .i32⟩
  | 12 => ⟨S400000, .i32⟩
  | 13 => ⟨S400000, .i32⟩
  | 14 => ⟨S400000, .i32⟩
  | 15 => ⟨S_, .f32⟩
  | 16 => ⟨S_, .f32⟩
  | 17 => ⟨S_, .f32⟩
  | 18 => ⟨S_, .f32⟩
  | 19 => ⟨S1, .f32⟩
  | 20 => ⟨S1, .f32⟩
  | 21 => ⟨S1, .f32⟩
  | 22 => ⟨S_, .f32⟩
  | 23 => ⟨S_, .f32⟩
  | 24 => ⟨S1, .f32⟩
  | 25 => ⟨S1, .f32⟩
  | 26 => ⟨S_, .f32⟩
  | 27 => ⟨S_, .f32⟩
  | 28 => ⟨S_, .f32⟩
  | 29 => ⟨S_, .f32⟩
  | 30 => ⟨S1, .f32⟩
  | 31 => ⟨S1, .f32⟩
  | 32 => ⟨S1, .f32⟩
  | 33 => ⟨S_, .f32⟩
  | 34 => ⟨S_, .f32⟩
  | 35 => ⟨S1, .f32⟩
  | 36 => ⟨S1, .f32⟩
  | 37 => ⟨S_, .f32⟩
  | 38 => ⟨S_, .f32⟩
  | 39 => ⟨S_, .f32⟩
  | 40 => ⟨S_, .f32⟩
  | 41 => ⟨S1, .f32⟩
  | 42 => ⟨S1, .f32⟩
  | 43 => ⟨S1, .f32⟩
  | 44 => ⟨S_, .f32⟩
  | 45 => ⟨S_, .f32⟩
  | 46 => ⟨S1, .f32⟩
  | 47 => ⟨S1, .f32⟩
  | 48 => ⟨S3, .f32⟩
  | 49 => ⟨S_, .f32⟩
  | 50 => ⟨S_, .f32⟩
  | 51 => ⟨S_, .f32⟩
  | 52 => ⟨S_, .f32⟩
  | 53 => ⟨S1, .f32⟩
  | 54 => ⟨S3, .f32⟩
  | 55 => ⟨S3, .f32⟩
  | 56 => ⟨S3, .f32⟩
  | 57 => ⟨S_, .f32⟩
  | 58 => ⟨S_, .f32⟩
  | 59 => ⟨S1, .f32⟩
  | 60 => ⟨S3, .f32⟩
  | 61 => ⟨S3, .f32⟩
  | 62 => ⟨S1, .f32⟩
  | 63 => ⟨S_, .f32⟩
  | 64 => ⟨S50000x256, .f32⟩
  | 65 => ⟨S50000x256, .f32⟩
  | 66 => ⟨S50000x256, .f32⟩
  | 67 => ⟨S1, .f32⟩
  | 68 => ⟨S_, .f32⟩
  | 69 => ⟨S50000x256, .f32⟩
  | 70 => ⟨S50000x256, .f32⟩
  | 71 => ⟨S50000x256, .f32⟩
  | 72 => ⟨S50000x256, .f32⟩
  | 73 => ⟨S1, .f32⟩
  | 74 => ⟨S_, .f32⟩
  | 75 => ⟨S50000x256, .f32⟩
  | 76 => ⟨S50000x256, .f32⟩
  | 77 => ⟨S50000x256, .f32⟩
  | 78 => ⟨S50000x256, .f32⟩
  | 79 => ⟨S_, .i32⟩
  | 80 => ⟨S400000, .i32⟩
  | 81 => ⟨S400000, .i1⟩
  | 82 => ⟨S_, .i32⟩
  | 83 => ⟨S400000, .i32⟩
  | 84 => ⟨S400000, .i32⟩
  | 85 => ⟨S400000, .i32⟩
  | 86 => ⟨S400000x1, .i32⟩
  | 87 => ⟨S400000x256, .f32⟩
  | 88 => ⟨S_, .f32⟩
  | 89 => ⟨S50000x256, .f32⟩
  | 90 => ⟨S400000x1, .i32⟩
  | 91 => ⟨S50000x256, .f32⟩
  | 92 => ⟨S_, .f32⟩
  | 93 => ⟨S400000, .f32⟩
  | 94 => ⟨S_, .f32⟩
  | 95 => ⟨S50000, .f32⟩
  | 96 => ⟨S400000x1, .i32⟩
  | 97 => ⟨S50000, .f32⟩
  | 98 => ⟨S_, .f32⟩
  | 99 => ⟨S50000, .f32⟩
  | 100 => ⟨S50000, .f32⟩
  | 101 => ⟨S50000x1, .f32⟩
  | 102 => ⟨S50000x256, .f32⟩
  | 103 => ⟨S50000x256, .f32⟩
  | 104 => ⟨S_, .i32⟩
  | 105 => ⟨S400000, .i32⟩
  | 106 => ⟨S400000, .i1⟩
  | 107 => ⟨S_, .i32⟩
  | 108 => ⟨S400000, .i32⟩
  | 109 => ⟨S400000, .i32⟩
  | 110 => ⟨S400000, .i32⟩
  | 111 => ⟨S400000x1, .i32⟩
  | 112 => ⟨S400000x256, .f32⟩
  | 113 => ⟨S_, .f32⟩
  | 114 => ⟨S50000x256, .f32⟩
  | 115 => ⟨S400000x1, .i32⟩
  | 116 => ⟨S50000x256, .f32⟩
  | 117 => ⟨S_, .f32⟩
  | 118 => ⟨S400000, .f32⟩
  | 119 => ⟨S_, .f32⟩
  | 120 => ⟨S50000, .f32⟩
  | 121 => ⟨S400000x1, .i32⟩
  | 122 => ⟨S50000, .f32⟩
  | 123 => ⟨S_, .f32⟩
  | 124 => ⟨S50000, .f32⟩
  | 125 => ⟨S50000, .f32⟩
  | 126 => ⟨S50000x1, .f32⟩
  | 127 => ⟨S50000x256, .f32⟩
  | _ => ⟨S50000x256, .f32⟩

abbrev hbmTy0_1 (i : Nat) : BufTy := match i % 128 with
  | 0 => ⟨S50000x256, .f32⟩
  | 1 => ⟨S50000x256, .f32⟩
  | 2 => ⟨S_, .i32⟩
  | 3 => ⟨S400000, .i32⟩
  | 4 => ⟨S400000, .i1⟩
  | 5 => ⟨S_, .i32⟩
  | 6 => ⟨S400000, .i32⟩
  | 7 => ⟨S400000, .i32⟩
  | 8 => ⟨S400000, .i32⟩
  | 9 => ⟨S400000x1, .i32⟩
  | 10 => ⟨S400000x256, .f32⟩
  | 11 => ⟨S_, .f32⟩
  | 12 => ⟨S50000x256, .f32⟩
  | 13 => ⟨S400000x1, .i32⟩
  | 14 => ⟨S50000x256, .f32⟩
  | 15 => ⟨S_, .f32⟩
  | 16 => ⟨S400000, .f32⟩
  | 17 => ⟨S_, .f32⟩
  | 18 => ⟨S50000, .f32⟩
  | 19 => ⟨S400000x1, .i32⟩
  | 20 => ⟨S50000, .f32⟩
  | 21 => ⟨S_, .f32⟩
  | 22 => ⟨S50000, .f32⟩
  | 23 => ⟨S50000, .f32⟩
  | 24 => ⟨S50000x1, .f32⟩
  | 25 => ⟨S50000x256, .f32⟩
  | 26 => ⟨S50000x256, .f32⟩
  | 27 => ⟨S50000x256, .f32⟩
  | 28 => ⟨S_, .f32⟩
  | 29 => ⟨S50000x256, .f32⟩
  | 30 => ⟨S50000x256, .f32⟩
  | 31 => ⟨S_, .f32⟩
  | 32 => ⟨S50000x256, .f32⟩
  | 33 => ⟨S50000x256, .f32⟩
  | 34 => ⟨S_, .f32⟩
  | 35 => ⟨S50000, .f32⟩
  | 36 => ⟨S50000x1, .f32⟩
  | 37 => ⟨S_, .f32⟩
  | 38 => ⟨S50000x1, .f32⟩
  | 39 => ⟨S50000x1, .f32⟩
  | 40 => ⟨S_, .i32⟩
  | 41 => ⟨S_, .f32⟩
  | 42 => ⟨S50000, .f32⟩
  | 43 => ⟨S50000x1, .f32⟩
  | 44 => ⟨S_, .f32⟩
  | 45 => ⟨S50000x1, .f32⟩
  | 46 => ⟨S50000x1, .f32⟩
  | 47 => ⟨S50000x256, .f32⟩
  | 48 => ⟨S50000x256, .f32⟩
  | 49 => ⟨S50000x256, .f32⟩
  | 50 => ⟨S_, .f32⟩
  | 51 => ⟨S_, .f32⟩
  | 52 => ⟨S_, .f32⟩
  | 53 => ⟨S_, .f32⟩
  | 54 => ⟨S50000, .f32⟩
  | 55 => ⟨S50000x1, .f32⟩
  | 56 => ⟨S50000x1, .f32⟩
  | 57 => ⟨S50000x1, .f32⟩
  | 58 => ⟨S_, .f32⟩
  | 59 => ⟨S_, .i1⟩
  | 60 => ⟨S_, .f32⟩
  | 61 => ⟨S_, .f32⟩
  | 62 => ⟨S50000x1, .f32⟩
  | 63 => ⟨S50000x1, .f32⟩
  | 64 => ⟨S50000x256, .f32⟩
  | 65 => ⟨S50000x256, .f32⟩
  | 66 => ⟨S_, .f32⟩
  | 67 => ⟨S50000x1, .f32⟩
  | 68 => ⟨S50000x1, .f32⟩
  | 69 => ⟨S50000x1, .f32⟩
  | 70 => ⟨S50000x256, .f32⟩
  | 71 => ⟨S50000x256, .f32⟩
  | 72 => ⟨S1x256, .f32⟩
  | 73 => ⟨S50000x256, .f32⟩
  | 74 => ⟨S50000x256, .f32⟩
  | 75 => ⟨S1x256, .f32⟩
  | 76 => ⟨S50000x256, .f32⟩
  | 77 => ⟨S50000x256, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_cst_0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_cst_1 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst_2 : Ref sig .tc := ⟨.hbm, 26, rfl⟩
abbrev main_v8 : Ref sig .tc := ⟨.hbm, 27, rfl⟩
abbrev main_cst_3 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_cst_4 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_cst_5 : Ref sig .tc := ⟨.hbm, 37, rfl⟩
abbrev main_v16 : Ref sig .tc := ⟨.hbm, 38, rfl⟩
abbrev main_cst_6 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_cst_7 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_cst_8 : Ref sig .tc := ⟨.hbm, 49, rfl⟩
abbrev main_v25 : Ref sig .tc := ⟨.hbm, 50, rfl⟩
abbrev main_cst_9 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_cst_10 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_c : Ref sig .tc := ⟨.hbm, 79, rfl⟩
abbrev main_v52 : Ref sig .tc := ⟨.hbm, 80, rfl⟩
abbrev main_v53 : Ref sig .tc := ⟨.hbm, 81, rfl⟩
abbrev main_c_11 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_12 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_cst_13 : Ref sig .tc := ⟨.hbm, 92, rfl⟩
abbrev main_v62 : Ref sig .tc := ⟨.hbm, 93, rfl⟩
abbrev main_cst_14 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_cst_15 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_c_16 : Ref sig .tc := ⟨.hbm, 104, rfl⟩
abbrev main_v71 : Ref sig .tc := ⟨.hbm, 105, rfl⟩
abbrev main_v72 : Ref sig .tc := ⟨.hbm, 106, rfl⟩
abbrev main_c_17 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_cst_18 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_cst_19 : Ref sig .tc := ⟨.hbm, 117, rfl⟩
abbrev main_v81 : Ref sig .tc := ⟨.hbm, 118, rfl⟩
abbrev main_cst_20 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_cst_21 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_c_22 : Ref sig .tc := ⟨.hbm, 130, rfl⟩
abbrev main_v91 : Ref sig .tc := ⟨.hbm, 131, rfl⟩
abbrev main_v92 : Ref sig .tc := ⟨.hbm, 132, rfl⟩
abbrev main_c_23 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_cst_24 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_cst_25 : Ref sig .tc := ⟨.hbm, 143, rfl⟩
abbrev main_v101 : Ref sig .tc := ⟨.hbm, 144, rfl⟩
abbrev main_cst_26 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_cst_27 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_cst_28 : Ref sig .tc := ⟨.hbm, 156, rfl⟩
abbrev main_v111 : Ref sig .tc := ⟨.hbm, 157, rfl⟩
abbrev main_v112 : Ref sig .tc := ⟨.hbm, 158, rfl⟩
abbrev main_call0_cst : Ref sig .tc := ⟨.hbm, 159, rfl⟩
abbrev main_call0_v0 : Ref sig .tc := ⟨.hbm, 160, rfl⟩
abbrev main_v113 : Ref sig .tc := ⟨.hbm, 161, rfl⟩
abbrev main_cst_29 : Ref sig .tc := ⟨.hbm, 162, rfl⟩
abbrev main_v114 : Ref sig .tc := ⟨.hbm, 163, rfl⟩
abbrev main_v115 : Ref sig .tc := ⟨.hbm, 164, rfl⟩
abbrev main_cst_30 : Ref sig .tc := ⟨.hbm, 165, rfl⟩
abbrev main_v116 : Ref sig .tc := ⟨.hbm, 166, rfl⟩
abbrev main_v117 : Ref sig .tc := ⟨.hbm, 167, rfl⟩
abbrev main_c_31 : Ref sig .tc := ⟨.hbm, 168, rfl⟩
abbrev main_call1_cst : Ref sig .tc := ⟨.hbm, 169, rfl⟩
abbrev main_call1_v0 : Ref sig .tc := ⟨.hbm, 170, rfl⟩
abbrev main_call1_v1 : Ref sig .tc := ⟨.hbm, 171, rfl⟩
abbrev main_call1_cst_0 : Ref sig .tc := ⟨.hbm, 172, rfl⟩
abbrev main_call1_v2 : Ref sig .tc := ⟨.hbm, 173, rfl⟩
abbrev main_call1_v3 : Ref sig .tc := ⟨.hbm, 174, rfl⟩
abbrev main_call1_v4 : Ref sig .tc := ⟨.hbm, 175, rfl⟩
abbrev main_call1_v5 : Ref sig .tc := ⟨.hbm, 176, rfl⟩
abbrev main_call1_v6 : Ref sig .tc := ⟨.hbm, 177, rfl⟩
abbrev main_call1_v7 : Ref sig .tc := ⟨.hbm, 178, rfl⟩
abbrev main_call1_cst_1 : Ref sig .tc := ⟨.hbm, 179, rfl⟩
abbrev main_call1_v8 : Ref sig .tc := ⟨.hbm, 180, rfl⟩
abbrev main_call1_cst_2 : Ref sig .tc := ⟨.hbm, 181, rfl⟩
abbrev main_call1_v9 : Ref sig .tc := ⟨.hbm, 182, rfl⟩
abbrev main_call1_v10 : Ref sig .tc := ⟨.hbm, 183, rfl⟩
abbrev main_call1_v11 : Ref sig .tc := ⟨.hbm, 184, rfl⟩
abbrev main_call1_v12 : Ref sig .tc := ⟨.hbm, 185, rfl⟩
abbrev main_call1_cst_3 : Ref sig .tc := ⟨.hbm, 186, rfl⟩
abbrev main_call1_v13 : Ref sig .tc := ⟨.hbm, 187, rfl⟩
abbrev main_call1_cst_4 : Ref sig .tc := ⟨.hbm, 188, rfl⟩
abbrev main_call1_call0_v0 : Ref sig .tc := ⟨.hbm, 189, rfl⟩
abbrev main_call1_call0_v1 : Ref sig .tc := ⟨.hbm, 190, rfl⟩
abbrev main_v118 : Ref sig .tc := ⟨.hbm, 191, rfl⟩
abbrev main_v119 : Ref sig .tc := ⟨.hbm, 192, rfl⟩
abbrev main_v120 : Ref sig .tc := ⟨.hbm, 193, rfl⟩
abbrev main_cst_32 : Ref sig .tc := ⟨.hbm, 194, rfl⟩
abbrev main_v121 : Ref sig .tc := ⟨.hbm, 195, rfl⟩
abbrev main_v122 : Ref sig .tc := ⟨.hbm, 196, rfl⟩
abbrev main_v123 : Ref sig .tc := ⟨.hbm, 197, rfl⟩
abbrev main_v124 : Ref sig .tc := ⟨.hbm, 198, rfl⟩
abbrev main_v125 : Ref sig .tc := ⟨.hbm, 199, rfl⟩
abbrev main_v126 : Ref sig .tc := ⟨.hbm, 200, rfl⟩
abbrev main_v127 : Ref sig .tc := ⟨.hbm, 201, rfl⟩
abbrev main_v128 : Ref sig .tc := ⟨.hbm, 202, rfl⟩
abbrev main_v129 : Ref sig .tc := ⟨.hbm, 203, rfl⟩
abbrev main_v130 : Ref sig .tc := ⟨.hbm, 204, rfl⟩
abbrev main_v131 : Ref sig .tc := ⟨.hbm, 205, rfl⟩

abbrev nD : Nat := 1
abbrev τ : Topo := Topo.v7x

variable {F : FTy → Type} [FloatOps F]

class Facts₀ : Prop where
  reducesTo_S1_S_d0 : S1.ReducesTo [0] S_
  h_S_ : 0 < S_.numel
  bcast_S_S1 : S_.BroadcastsInDim S1 (![] : Fin 0 → Fin S1.rank)
  concatenates_S1_S1_S1_S3_d0 : Shape.Concatenates [S1, S1, S1] S3 0
  reducesTo_S3_S_d0 : S3.ReducesTo [0] S_
  bcast_S1_S3_0 : S1.BroadcastsInDim S3 (![0] : Fin 1 → Fin S3.rank)
  slices_S3_S1_0 : S3.Slices ![0] S1
  shapeCasts_S1_S_ : S1.ShapeCasts S_
  bcast_S_S50000x256 : S_.BroadcastsInDim S50000x256 (![] : Fin 0 → Fin S50000x256.rank)
  slices_S3_S1_1 : S3.Slices ![1] S1
  slices_S3_S1_2 : S3.Slices ![2] S1
  bcast_S_S400000 : S_.BroadcastsInDim S400000 (![] : Fin 0 → Fin S400000.rank)
  bcast_S400000_S400000x1_0 : S400000.BroadcastsInDim S400000x1 (![0] : Fin 1 → Fin S400000x1.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  reducesTo_S50000x256_S50000_d1 : S50000x256.ReducesTo [1] S50000
  bcast_S_S50000x1 : S_.BroadcastsInDim S50000x1 (![] : Fin 0 → Fin S50000x1.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  dot_S50000x256_S256x256_S50000x256_1_0_0_1_n_n_wf : DotDims.WF S50000x256 S256x256 S50000x256 [1] [0] [0] [1] [] []
  gather_S50000x256_S400000x1_S400000x256_1_0_n_n_0_1_1256_wf : GatherDims.WF S50000x256 S400000x1 S400000x256 [1] [0] [] [0] [] 1 ![1, 256]
  scatter_S50000x256_S400000x1_S400000x256_1_0_0_1_wf : ScatterDims.WF S50000x256 S400000x1 S400000x256 [1] [0] [0] 1
  scatter_S50000_S400000x1_S400000_n_0_0_1_wf : ScatterDims.WF S50000 S400000x1 S400000 [] [0] [0] 1

variable [Facts₀]

def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S400000x1_S400000x256_1_0_n_n_0_1_1256 : GatherDims S50000x256 S400000x1 S400000x256 where
  offsetDims := [1]
  collapsedSliceDims := [0]
  operandBatchingDims := []
  startIndicesBatchingDims := []
  startIndexMap := [0]
  indexVectorDim := 1
  sliceSizes := ![1, 256]
  wf := gather_S50000x256_S400000x1_S400000x256_1_0_n_n_0_1_1256_wf
def scatter_S50000x256_S400000x1_S400000x256_1_0_0_1 : ScatterDims S50000x256 S400000x1 S400000x256 where
  updateWindowDims := [1]
  insertedWindowDims := [0]
  scatterDimsToOperandDims := [0]
  indexVectorDim := 1
  wf := scatter_S50000x256_S400000x1_S400000x256_1_0_0_1_wf
def scatter_S50000_S400000x1_S400000_n_0_0_1 : ScatterDims S50000 S400000x1 S400000 where
  updateWindowDims := []
  insertedWindowDims := [0]
  scatterDimsToOperandDims := [0]
  indexVectorDim := 1
  wf := scatter_S50000_S400000x1_S400000_n_0_0_1_wf

class Facts : Prop extends Facts₀ where

variable [Facts]
-- ==== Proof.BRegion0.lean ====
/-
  The first pallas_call of the program, read at the contents `V` the TensorCore's buffers hold when it is entered.
  Each of its 10 grid points takes a block of 5000 rows of the 50000 x 256 feature matrix and the whole 256 x 256
  mixed weight matrix, multiplies them (into a zero accumulator) and stores the 5000 x 256 product as its block of
  the result. This file states what a point leaves in the result's staging buffer — the product of the two input
  blocks — proves the body's triple by symbolic execution, and packs the proof data the launch theorems take.
-/
import proofs.«125390_j86715389706549_1_alg».proof.Proof.Gen.Kernel.Launch
import proofs.«125390_j86715389706549_1_alg».proof.Proof.Gen.Kernel.Skeleton
import proofs.«125390_j86715389706549_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block `t` of window `w`, read off the window's array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block of the features is in its staging buffer at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight matrix, fetched once, is still in its staging buffer at every later point: its block never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole 5000 x 256 block and the whole 256 x 256 matrix: the two rectangles the body reads and writes through. -/
abbrev rRows : Rect S5000x256 := Rect.unit (s := S5000x256) ![0, 0] S5000x256.size inb_S5000x256_S5000x256_0_0
abbrev rMat : Rect S256x256 := Rect.unit (s := S256x256) ![0, 0] S256x256.size inb_S256x256_S256x256_0_0

/-- What a point leaves in the result's staging buffer: the one store, of the product of the two blocks read. -/
def prod0 (x0 : Vec F S5000x256 .f32) (x1 : Vec F S256x256 .f32) : Vec F S5000x256 .f32 :=
  View.canon [⟨rRows, k0_pay1 (View.ld x0 rRows) (View.ld x1 rMat)⟩]

/-- The one store covers the buffer. -/
theorem cover0 (p0 : Vec F S5000x256 .f32) (y : S5000x256.Idx) :
    ∃ pc ∈ ([⟨rRows, p0⟩] : List (View.Piece (Elt F) S5000x256 .f32)), y ∈ pc.1.set :=
  View.cover_of_tiled [⟨rRows, p0⟩] S5000x256.size (by rfl) y

set_option maxHeartbeats 1000000 in
/-- The body on whole staging buffers: the two inputs are read and kept, the result's buffer ends at the product. -/
theorem sound_kernel0 (c : Dev nD) (E : Set ℕ) (i : grid0.Coords) (arg1 : Memref sig .tc .vmem S5000x256 .f32) (harg1 : arg1.IsWhole) (arg2 : Memref sig .tc .vmem S256x256 .f32) (harg2 : arg2.IsWhole) (arg3 : Memref sig .tc .vmem S5000x256 .f32) (harg3 : arg3.IsWhole)
    (x0 : Vec F S5000x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (prod0 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0 _)

/-- The proof data of the call on core `c`: the arrays as found; after the body each input's buffer at its block and
    the result's at the product of the two blocks; nothing else held, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => prod0 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = prod0 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is handed at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it gives back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The launch theorems' body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Run

end
-- ==== Proof.BRegion1.lean ====
/-
  The second pallas_call of the program, read at the contents `V` the TensorCore's buffers hold when it is entered.
  Each of its 25 grid points takes a block of 2000 rows of the 50000 x 256 aggregated features and the 1 x 256 scale
  and shift rows, and stores, row by row, the layer norm of the rows' positive parts: with x = max(a, 0), the mean
  mu of a row, its centred second moment var, the result is (x - mu) * rsqrt(var + eps) * scale + shift. This file
  states what a point leaves in the result's staging buffer, proves the body's triple by symbolic execution, and
  packs the proof data the launch theorems take.
-/
import proofs.«125390_j86715389706549_1_alg».proof.Proof.Gen.Kernel.Launch
import proofs.«125390_j86715389706549_1_alg».proof.Proof.Gen.Kernel.Skeleton
import proofs.«125390_j86715389706549_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block `t` of window `w`, read off the window's array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row block is in its staging buffer at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The scale row, fetched once, stays in its staging buffer: its block never moves. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The shift row likewise. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole 2000 x 256 block and the whole 1 x 256 row: the rectangles the body reads and writes through. -/
abbrev rBlock : Rect S2000x256 := Rect.unit (s := S2000x256) ![0, 0] S2000x256.size inb_S2000x256_S2000x256_0_0
abbrev rRow : Rect S1x256 := Rect.unit (s := S1x256) ![0, 0] S1x256.size inb_S1x256_S1x256_0_0

/-- What a point leaves in the result's staging buffer: the one store, of the normalised block. -/
def norm1 (x0 : Vec F S2000x256 .f32) (x1 : Vec F S1x256 .f32) (x2 : Vec F S1x256 .f32) : Vec F S2000x256 .f32 :=
  View.canon [⟨rBlock, k1_pay1 (View.ld x0 rBlock) (View.ld x1 rRow) (View.ld x2 rRow)⟩]

/-- The one store covers the buffer. -/
theorem cover1 (p0 : Vec F S2000x256 .f32) (y : S2000x256.Idx) :
    ∃ pc ∈ ([⟨rBlock, p0⟩] : List (View.Piece (Elt F) S2000x256 .f32)), y ∈ pc.1.set :=
  View.cover_of_tiled [⟨rBlock, p0⟩] S2000x256.size (by rfl) y

set_option maxHeartbeats 1000000 in
/-- The body on whole staging buffers: the three inputs are read and kept, the result's buffer ends at the normalised block. -/
theorem sound_kernel1 (c : Dev nD) (E : Set ℕ) (i : grid1.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S2000x256 .f32) (harg4 : arg4.IsWhole)
    (x0 : Vec F S2000x256 .f32) (x1 : Vec F S1x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (norm1 x0 x1 x2)) -∗ K ⟨⟩))
      ⊢ wp frame (wpE (defs₀ (F := F)) Variants.none c none) E (cc1__relu_ln_kernel i arg1 harg1 arg2 harg2 arg3 harg3 arg4 harg4) K := by
  simp only [cc1__relu_ln_kernel_eq_skeleton]; unfold cc1__relu_ln_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1 _)

/-- The proof data of the call on core `c`: the arrays as found; after the body each input's buffer at its block and
    the result's at the normalised block; nothing else held, nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => norm1 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = norm1 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is handed at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it gives back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The launch theorems' body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Run

end
-- ==== Proof.BRun.lean ====
/-
  The run of the whole program: host operations, the first pallas_call (the 50000 x 256 by 256 x 256 product, ten row
  blocks), host operations (the three segment means and their average), the second pallas_call (ReLU and layer norm,
  twenty-five row blocks). The contents of the TensorCore's buffers are followed from the launch through the four
  stretches — a host stretch applies its operations, a call replaces its arrays by what its write-backs leave — and
  the run ends with every unscoped buffer at the last of these contents. No host operation and no call writes an
  argument array, so each argument reads back to its launch contents.
-/
import proofs.«125390_j86715389706549_1_alg».proof.Proof.BRegion0
import proofs.«125390_j86715389706549_1_alg».proof.Proof.BRegion1

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at the boundaries of the four stretches -/

/-- At launch. -/
abbrev W0 : Dev nD → Valuation τ sig (Elt F) := fun c b => (s₀ m ρ).mem ((c : Dev nD), b)
/-- After the first host stretch: what the first call finds. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first call: its arrays at what the write-backs leave, everything else as found. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch: what the second call finds. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the second call. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## No stretch writes an argument -/

/-- Every reference an operation of the stretch writes. -/
abbrev written0 : List (Ref sig .tc) := [main_cst, main_v0, main_cst_0, main_v1, main_v2, main_v3, main_v4, main_cst_1, main_v5, main_v6, main_v7, main_cst_2, main_v8, main_cst_3, main_v9, main_v10, main_v11, main_v12, main_cst_4, main_v13, main_v14, main_v15, main_cst_5, main_v16, main_cst_6, main_v17, main_v18, main_v19, main_v20, main_cst_7, main_v21, main_v22, main_v23, main_v24, main_cst_8, main_v25, main_cst_9, main_v26, main_v27, main_v28, main_v29, main_v30, main_cst_10, main_v31, main_v32, main_v33, main_v34, main_v35, main_v36, main_v37, main_v38, main_v39, main_v40, main_v41, main_v42, main_v43, main_v44, main_v45, main_v46, main_v47, main_v48]
set_option maxHeartbeats 4000000 in
theorem writes0_sub : (hostOps0 : List (HloOp τ sig (Elt F))).Forall fun op => op.writes ⊆ ((written0).map (Proc.devRef (τ := τ) .tc)).toFinset := by
  simp only [hostOps0, List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)

/-- Every reference an operation of the stretch writes. -/
abbrev written1 : List (Ref sig .tc) := [main_c, main_v50, main_v51, main_c_11, main_v52, main_v53, main_v54, main_v55, main_v56, main_cst_12, main_v57, main_v58, main_v59, main_cst_13, main_v60, main_cst_14, main_v61, main_v62, main_v63, main_cst_15, main_v64, main_v65, main_v66, main_v67, main_v68, main_c_16, main_v69, main_v70, main_c_17, main_v71, main_v72, main_v73, main_v74, main_v75, main_cst_18, main_v76, main_v77, main_v78, main_cst_19, main_v79, main_cst_20, main_v80, main_v81, main_v82, main_cst_21, main_v83, main_v84, main_v85, main_v86, main_v87, main_v88, main_c_22, main_v89, main_v90, main_c_23, main_v91, main_v92, main_v93, main_v94, main_v95, main_cst_24, main_v96, main_v97, main_v98, main_cst_25, main_v99, main_cst_26, main_v100, main_v101, main_v102, main_cst_27, main_v103, main_v104, main_v105, main_v106, main_v107, main_v108, main_cst_28, main_v109, main_v110, main_v111, main_v112]
set_option maxHeartbeats 4000000 in
theorem writes1_sub : (hostOps1 : List (HloOp τ sig (Elt F))).Forall fun op => op.writes ⊆ ((written1).map (Proc.devRef (τ := τ) .tc)).toFinset := by
  simp only [hostOps1, List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)

/-- A buffer the first host stretch does not write is as before it. -/
theorem keep0 (W : Valuation τ sig (Elt F)) (r : Ref sig .tc) (hr : r ∉ written0) :
    StableHlo.after hostOps0 W (Proc.devRef .tc r) = W (Proc.devRef .tc r) :=
  StableHlo.after_of_writes_sub hostOps0 W writes0_sub hr
/-- A buffer the second host stretch does not write is as before it. -/
theorem keep1 (W : Valuation τ sig (Elt F)) (r : Ref sig .tc) (hr : r ∉ written1) :
    StableHlo.after hostOps1 W (Proc.devRef .tc r) = W (Proc.devRef .tc r) :=
  StableHlo.after_of_writes_sub hostOps1 W writes1_sub hr

/-- An array the first call only reads (or does not touch) is as the call found it. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hw _).trans (A_eq0 (V1 m ρ) c w))
theorem W4_in (c : Dev nD) (w : Fin cfg1.W) (hw : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hw _).trans (A_eq1 (V3 m ρ) c w))

/-- The feature matrix is the first call's first window: read, never written. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := keep1 _ main_arg0 (by decide)
    _ = W1 m ρ c (Proc.devRef .tc main_arg0) := W2_in m ρ c 0 rfl
    _ = W0 m ρ c (Proc.devRef .tc main_arg0) := keep0 _ main_arg0 (by decide)
    _ = m ((c : Thread nD τ).loc main_arg0) := rfl
/-- `main_arg1` is no window of either call and no host operation writes it. -/
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := keep1 _ main_arg1 (by decide)
    _ = W1 m ρ c (Proc.devRef .tc main_arg1) := W2_of_ne m ρ c main_arg1 (by decide)
    _ = W0 m ρ c (Proc.devRef .tc main_arg1) := keep0 _ main_arg1 (by decide)
    _ = m ((c : Thread nD τ).loc main_arg1) := rfl
/-- `main_arg2` is no window of either call and no host operation writes it. -/
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := keep1 _ main_arg2 (by decide)
    _ = W1 m ρ c (Proc.devRef .tc main_arg2) := W2_of_ne m ρ c main_arg2 (by decide)
    _ = W0 m ρ c (Proc.devRef .tc main_arg2) := keep0 _ main_arg2 (by decide)
    _ = m ((c : Thread nD τ).loc main_arg2) := rfl
/-- `main_arg3` is no window of either call and no host operation writes it. -/
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := keep1 _ main_arg3 (by decide)
    _ = W1 m ρ c (Proc.devRef .tc main_arg3) := W2_of_ne m ρ c main_arg3 (by decide)
    _ = W0 m ρ c (Proc.devRef .tc main_arg3) := keep0 _ main_arg3 (by decide)
    _ = m ((c : Thread nD τ).loc main_arg3) := rfl
/-- `main_arg4` is no window of either call and no host operation writes it. -/
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := keep1 _ main_arg4 (by decide)
    _ = W1 m ρ c (Proc.devRef .tc main_arg4) := W2_of_ne m ρ c main_arg4 (by decide)
    _ = W0 m ρ c (Proc.devRef .tc main_arg4) := keep0 _ main_arg4 (by decide)
    _ = m ((c : Thread nD τ).loc main_arg4) := rfl
/-- `main_arg5` is no window of either call and no host operation writes it. -/
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := keep1 _ main_arg5 (by decide)
    _ = W1 m ρ c (Proc.devRef .tc main_arg5) := W2_of_ne m ρ c main_arg5 (by decide)
    _ = W0 m ρ c (Proc.devRef .tc main_arg5) := keep0 _ main_arg5 (by decide)
    _ = m ((c : Thread nD τ).loc main_arg5) := rfl
/-- `main_arg6` is no window of either call and no host operation writes it. -/
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := keep1 _ main_arg6 (by decide)
    _ = W1 m ρ c (Proc.devRef .tc main_arg6) := W2_of_ne m ρ c main_arg6 (by decide)
    _ = W0 m ρ c (Proc.devRef .tc main_arg6) := keep0 _ main_arg6 (by decide)
    _ = m ((c : Thread nD τ).loc main_arg6) := rfl
/-- `main_arg7` is no window of either call and no host operation writes it. -/
theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := keep1 _ main_arg7 (by decide)
    _ = W1 m ρ c (Proc.devRef .tc main_arg7) := W2_of_ne m ρ c main_arg7 (by decide)
    _ = W0 m ρ c (Proc.devRef .tc main_arg7) := keep0 _ main_arg7 (by decide)
    _ = m ((c : Thread nD τ).loc main_arg7) := rfl
/-- `main_arg8` is no window of either call and no host operation writes it. -/
theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := keep1 _ main_arg8 (by decide)
    _ = W1 m ρ c (Proc.devRef .tc main_arg8) := W2_of_ne m ρ c main_arg8 (by decide)
    _ = W0 m ρ c (Proc.devRef .tc main_arg8) := keep0 _ main_arg8 (by decide)
    _ = m ((c : Thread nD τ).loc main_arg8) := rfl
/-- `main_arg9` is no window of either call and no host operation writes it. -/
theorem W4_main_arg9 (c : Dev nD) : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := keep1 _ main_arg9 (by decide)
    _ = W1 m ρ c (Proc.devRef .tc main_arg9) := W2_of_ne m ρ c main_arg9 (by decide)
    _ = W0 m ρ c (Proc.devRef .tc main_arg9) := keep0 _ main_arg9 (by decide)
    _ = m ((c : Thread nD τ).loc main_arg9) := rfl
/-- `main_arg10` is no window of either call and no host operation writes it. -/
theorem W4_main_arg10 (c : Dev nD) : W4 m ρ c (Proc.devRef .tc main_arg10) = m ((c : Thread nD τ).loc main_arg10) :=
  calc W4 m ρ c (Proc.devRef .tc main_arg10)
    _ = W3 m ρ c (Proc.devRef .tc main_arg10) := W4_of_ne m ρ c main_arg10 (by decide)
    _ = W2 m ρ c (Proc.devRef .tc main_arg10) := keep1 _ main_arg10 (by decide)
    _ = W1 m ρ c (Proc.devRef .tc main_arg10) := W2_of_ne m ρ c main_arg10 (by decide)
    _ = W0 m ρ c (Proc.devRef .tc main_arg10) := keep0 _ main_arg10 (by decide)
    _ = m ((c : Thread nD τ).loc main_arg10) := rfl
/-- `main_arg11` is no window of either call and no host operation writes it. -/
theorem W4_main_arg11 (c : Dev nD) : W4 m ρ c (Proc.devRef .tc main_arg11) = m ((c : Thread nD τ).loc main_arg11) :=
  calc W4 m ρ c (Proc.devRef .tc main_arg11)
    _ = W3 m ρ c (Proc.devRef .tc main_arg11) := W4_of_ne m ρ c main_arg11 (by decide)
    _ = W2 m ρ c (Proc.devRef .tc main_arg11) := keep1 _ main_arg11 (by decide)
    _ = W1 m ρ c (Proc.devRef .tc main_arg11) := W2_of_ne m ρ c main_arg11 (by decide)
    _ = W0 m ρ c (Proc.devRef .tc main_arg11) := keep0 _ main_arg11 (by decide)
    _ = m ((c : Thread nD τ).loc main_arg11) := rfl
/-- `main_arg12` is no window of either call and no host operation writes it. -/
theorem W4_main_arg12 (c : Dev nD) : W4 m ρ c (Proc.devRef .tc main_arg12) = m ((c : Thread nD τ).loc main_arg12) :=
  calc W4 m ρ c (Proc.devRef .tc main_arg12)
    _ = W3 m ρ c (Proc.devRef .tc main_arg12) := W4_of_ne m ρ c main_arg12 (by decide)
    _ = W2 m ρ c (Proc.devRef .tc main_arg12) := keep1 _ main_arg12 (by decide)
    _ = W1 m ρ c (Proc.devRef .tc main_arg12) := W2_of_ne m ρ c main_arg12 (by decide)
    _ = W0 m ρ c (Proc.devRef .tc main_arg12) := keep0 _ main_arg12 (by decide)
    _ = m ((c : Thread nD τ).loc main_arg12) := rfl
/-- `main_arg13` is no window of either call and no host operation writes it. -/
theorem W4_main_arg13 (c : Dev nD) : W4 m ρ c (Proc.devRef .tc main_arg13) = m ((c : Thread nD τ).loc main_arg13) :=
  calc W4 m ρ c (Proc.devRef .tc main_arg13)
    _ = W3 m ρ c (Proc.devRef .tc main_arg13) := W4_of_ne m ρ c main_arg13 (by decide)
    _ = W2 m ρ c (Proc.devRef .tc main_arg13) := keep1 _ main_arg13 (by decide)
    _ = W1 m ρ c (Proc.devRef .tc main_arg13) := W2_of_ne m ρ c main_arg13 (by decide)
    _ = W0 m ρ c (Proc.devRef .tc main_arg13) := keep0 _ main_arg13 (by decide)
    _ = m ((c : Thread nD τ).loc main_arg13) := rfl
/-- `main_arg14` is no window of either call and no host operation writes it. -/
theorem W4_main_arg14 (c : Dev nD) : W4 m ρ c (Proc.devRef .tc main_arg14) = m ((c : Thread nD τ).loc main_arg14) :=
  calc W4 m ρ c (Proc.devRef .tc main_arg14)
    _ = W3 m ρ c (Proc.devRef .tc main_arg14) := W4_of_ne m ρ c main_arg14 (by decide)
    _ = W2 m ρ c (Proc.devRef .tc main_arg14) := keep1 _ main_arg14 (by decide)
    _ = W1 m ρ c (Proc.devRef .tc main_arg14) := W2_of_ne m ρ c main_arg14 (by decide)
    _ = W0 m ρ c (Proc.devRef .tc main_arg14) := keep0 _ main_arg14 (by decide)
    _ = m ((c : Thread nD τ).loc main_arg14) := rfl

/-! ## The proof data family and the thread state -/

abbrev adm : (p : Fin 2) → (pcfgs (F := F) p).Adm := fun p => (cfgs p).toPCfg_adm
/-- Each call's proof data at the contents it is entered with. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

set_option maxHeartbeats 4000000 in
theorem hostOps0_fresh : (hostOps0 : List (HloOp τ sig (Elt F))).Forall fun op => op.fresh = ∅ := by
  simp only [List.Forall]; repeat' constructor
set_option maxHeartbeats 4000000 in
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at the last contents, the generator register at some state. -/
abbrev Tₙ (c : Dev nD) : sProp 𝕄 := iprop(StableHlo.held (c : Thread nD τ) (Pipeline.ucRefs τ sig) (W4 m ρ c) ∗ ∃ r, prngReg c r)

/-! ## The two calls as segments -/

set_option backward.isDefEq.respectTransparency.types false in
/-- The first call: entered with every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call: entered with every unscoped buffer at `W3`, left at `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as four segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- Every weakly fair execution of the program ends, nothing faulting, with every unscoped TensorCore buffer at the
    last boundary's contents `W4`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: the program runs to the end, faults nowhere, and its fifteen argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c),
     (h c _ (mem_uc main_arg9 (by decide))).trans (W4_main_arg9 m ρ c),
     (h c _ (mem_uc main_arg10 (by decide))).trans (W4_main_arg10 m ρ c),
     (h c _ (mem_uc main_arg11 (by decide))).trans (W4_main_arg11 m ρ c),
     (h c _ (mem_uc main_arg12 (by decide))).trans (W4_main_arg12 m ρ c),
     (h c _ (mem_uc main_arg13 (by decide))).trans (W4_main_arg13 m ρ c),
     (h c _ (mem_uc main_arg14 (by decide))).trans (W4_main_arg14 m ρ c)⟩) (run m ρ)

end Cert.Kernel.Run

end
-- ==== Proof.KRegion0.lean ====
/-
  The first pallas_call of the program, read at the contents `V` the TensorCore's buffers hold when it is entered.
  Each of its 10 grid points takes a block of 5000 rows of the 50000 x 256 feature matrix and the whole 256 x 256
  mixed weight matrix, multiplies them (into a zero accumulator) and stores the 5000 x 256 product as its block of
  the result. This file states what a point leaves in the result's staging buffer — the product of the two input
  blocks — proves the body's triple by symbolic execution, and packs the proof data the launch theorems take.
-/
import proofs.«125390_j86715389706549_1_alg».proof.Proof.Gen.KernelIdeal.Launch
import proofs.«125390_j86715389706549_1_alg».proof.Proof.Gen.KernelIdeal.Skeleton
import proofs.«125390_j86715389706549_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block `t` of window `w`, read off the window's array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block of the features is in its staging buffer at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight matrix, fetched once, is still in its staging buffer at every later point: its block never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole 5000 x 256 block and the whole 256 x 256 matrix: the two rectangles the body reads and writes through. -/
abbrev rRows : Rect S5000x256 := Rect.unit (s := S5000x256) ![0, 0] S5000x256.size inb_S5000x256_S5000x256_0_0
abbrev rMat : Rect S256x256 := Rect.unit (s := S256x256) ![0, 0] S256x256.size inb_S256x256_S256x256_0_0

/-- What a point leaves in the result's staging buffer: the one store, of the product of the two blocks read. -/
def prod0 (x0 : Vec F S5000x256 .f32) (x1 : Vec F S256x256 .f32) : Vec F S5000x256 .f32 :=
  View.canon [⟨rRows, k0_pay1 (View.ld x0 rRows) (View.ld x1 rMat)⟩]

/-- The one store covers the buffer. -/
theorem cover0 (p0 : Vec F S5000x256 .f32) (y : S5000x256.Idx) :
    ∃ pc ∈ ([⟨rRows, p0⟩] : List (View.Piece (Elt F) S5000x256 .f32)), y ∈ pc.1.set :=
  View.cover_of_tiled [⟨rRows, p0⟩] S5000x256.size (by rfl) y

set_option maxHeartbeats 1000000 in
/-- The body on whole staging buffers: the two inputs are read and kept, the result's buffer ends at the product. -/
theorem sound_kernel0 (c : Dev nD) (E : Set ℕ) (i : grid0.Coords) (arg1 : Memref sig .tc .vmem S5000x256 .f32) (harg1 : arg1.IsWhole) (arg2 : Memref sig .tc .vmem S256x256 .f32) (harg2 : arg2.IsWhole) (arg3 : Memref sig .tc .vmem S5000x256 .f32) (harg3 : arg3.IsWhole)
    (x0 : Vec F S5000x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (prod0 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0 _)

/-- The proof data of the call on core `c`: the arrays as found; after the body each input's buffer at its block and
    the result's at the product of the two blocks; nothing else held, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => prod0 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = prod0 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is handed at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it gives back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The launch theorems' body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Run

end
-- ==== Proof.KRegion1.lean ====
/-
  The second pallas_call of the program, read at the contents `V` the TensorCore's buffers hold when it is entered.
  Each of its 25 grid points takes a block of 2000 rows of the 50000 x 256 aggregated features and the 1 x 256 scale
  and shift rows, and stores, row by row, the layer norm of the rows' positive parts: with x = max(a, 0), the mean
  mu of a row, its centred second moment var, the result is (x - mu) * rsqrt(var + eps) * scale + shift. This file
  states what a point leaves in the result's staging buffer, proves the body's triple by symbolic execution, and
  packs the proof data the launch theorems take.
-/
import proofs.«125390_j86715389706549_1_alg».proof.Proof.Gen.KernelIdeal.Launch
import proofs.«125390_j86715389706549_1_alg».proof.Proof.Gen.KernelIdeal.Skeleton
import proofs.«125390_j86715389706549_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block `t` of window `w`, read off the window's array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row block is in its staging buffer at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The scale row, fetched once, stays in its staging buffer: its block never moves. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The shift row likewise. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole 2000 x 256 block and the whole 1 x 256 row: the rectangles the body reads and writes through. -/
abbrev rBlock : Rect S2000x256 := Rect.unit (s := S2000x256) ![0, 0] S2000x256.size inb_S2000x256_S2000x256_0_0
abbrev rRow : Rect S1x256 := Rect.unit (s := S1x256) ![0, 0] S1x256.size inb_S1x256_S1x256_0_0

/-- What a point leaves in the result's staging buffer: the one store, of the normalised block. -/
def norm1 (x0 : Vec F S2000x256 .f32) (x1 : Vec F S1x256 .f32) (x2 : Vec F S1x256 .f32) : Vec F S2000x256 .f32 :=
  View.canon [⟨rBlock, k1_pay1 (View.ld x0 rBlock) (View.ld x1 rRow) (View.ld x2 rRow)⟩]

/-- The one store covers the buffer. -/
theorem cover1 (p0 : Vec F S2000x256 .f32) (y : S2000x256.Idx) :
    ∃ pc ∈ ([⟨rBlock, p0⟩] : List (View.Piece (Elt F) S2000x256 .f32)), y ∈ pc.1.set :=
  View.cover_of_tiled [⟨rBlock, p0⟩] S2000x256.size (by rfl) y

set_option maxHeartbeats 1000000 in
/-- The body on whole staging buffers: the three inputs are read and kept, the result's buffer ends at the normalised block. -/
theorem sound_kernel1 (c : Dev nD) (E : Set ℕ) (i : grid1.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S2000x256 .f32) (harg4 : arg4.IsWhole)
    (x0 : Vec F S2000x256 .f32) (x1 : Vec F S1x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (norm1 x0 x1 x2)) -∗ K ⟨⟩))
      ⊢ wp frame (wpE (defs₀ (F := F)) Variants.none c none) E (cc1__relu_ln_kernel i arg1 harg1 arg2 harg2 arg3 harg3 arg4 harg4) K := by
  simp only [cc1__relu_ln_kernel_eq_skeleton]; unfold cc1__relu_ln_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1 _)

/-- The proof data of the call on core `c`: the arrays as found; after the body each input's buffer at its block and
    the result's at the normalised block; nothing else held, nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => norm1 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = norm1 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is handed at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it gives back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The launch theorems' body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Run

end
-- ==== Proof.KRun.lean ====
/-
  The run of the whole program: host operations, the first pallas_call (the 50000 x 256 by 256 x 256 product, ten row
  blocks), host operations (the three segment means and their average), the second pallas_call (ReLU and layer norm,
  twenty-five row blocks). The contents of the TensorCore's buffers are followed from the launch through the four
  stretches — a host stretch applies its operations, a call replaces its arrays by what its write-backs leave — and
  the run ends with every unscoped buffer at the last of these contents. No host operation and no call writes an
  argument array, so each argument reads back to its launch contents.
-/
import proofs.«125390_j86715389706549_1_alg».proof.Proof.KRegion0
import proofs.«125390_j86715389706549_1_alg».proof.Proof.KRegion1

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at the boundaries of the four stretches -/

/-- At launch. -/
abbrev W0 : Dev nD → Valuation τ sig (Elt F) := fun c b => (s₀ m ρ).mem ((c : Dev nD), b)
/-- After the first host stretch: what the first call finds. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first call: its arrays at what the write-backs leave, everything else as found. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch: what the second call finds. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the second call. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## No stretch writes an argument -/

/-- Every reference an operation of the stretch writes. -/
abbrev written0 : List (Ref sig .tc) := [main_cst, main_v0, main_cst_0, main_v1, main_v2, main_v3, main_v4, main_cst_1, main_v5, main_v6, main_v7, main_cst_2, main_v8, main_cst_3, main_v9, main_v10, main_v11, main_v12, main_cst_4, main_v13, main_v14, main_v15, main_cst_5, main_v16, main_cst_6, main_v17, main_v18, main_v19, main_v20, main_cst_7, main_v21, main_v22, main_v23, main_v24, main_cst_8, main_v25, main_cst_9, main_v26, main_v27, main_v28, main_v29, main_v30, main_cst_10, main_v31, main_v32, main_v33, main_v34, main_v35, main_v36, main_v37, main_v38, main_v39, main_v40, main_v41, main_v42, main_v43, main_v44, main_v45, main_v46, main_v47, main_v48]
set_option maxHeartbeats 4000000 in
theorem writes0_sub : (hostOps0 : List (HloOp τ sig (Elt F))).Forall fun op => op.writes ⊆ ((written0).map (Proc.devRef (τ := τ) .tc)).toFinset := by
  simp only [hostOps0, List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)

/-- Every reference an operation of the stretch writes. -/
abbrev written1 : List (Ref sig .tc) := [main_c, main_v50, main_v51, main_c_11, main_v52, main_v53, main_v54, main_v55, main_v56, main_cst_12, main_v57, main_v58, main_v59, main_cst_13, main_v60, main_cst_14, main_v61, main_v62, main_v63, main_cst_15, main_v64, main_v65, main_v66, main_v67, main_v68, main_c_16, main_v69, main_v70, main_c_17, main_v71, main_v72, main_v73, main_v74, main_v75, main_cst_18, main_v76, main_v77, main_v78, main_cst_19, main_v79, main_cst_20, main_v80, main_v81, main_v82, main_cst_21, main_v83, main_v84, main_v85, main_v86, main_v87, main_v88, main_c_22, main_v89, main_v90, main_c_23, main_v91, main_v92, main_v93, main_v94, main_v95, main_cst_24, main_v96, main_v97, main_v98, main_cst_25, main_v99, main_cst_26, main_v100, main_v101, main_v102, main_cst_27, main_v103, main_v104, main_v105, main_v106, main_v107, main_v108, main_cst_28, main_v109, main_v110, main_v111, main_v112]
set_option maxHeartbeats 4000000 in
theorem writes1_sub : (hostOps1 : List (HloOp τ sig (Elt F))).Forall fun op => op.writes ⊆ ((written1).map (Proc.devRef (τ := τ) .tc)).toFinset := by
  simp only [hostOps1, List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)

/-- A buffer the first host stretch does not write is as before it. -/
theorem keep0 (W : Valuation τ sig (Elt F)) (r : Ref sig .tc) (hr : r ∉ written0) :
    StableHlo.after hostOps0 W (Proc.devRef .tc r) = W (Proc.devRef .tc r) :=
  StableHlo.after_of_writes_sub hostOps0 W writes0_sub hr
/-- A buffer the second host stretch does not write is as before it. -/
theorem keep1 (W : Valuation τ sig (Elt F)) (r : Ref sig .tc) (hr : r ∉ written1) :
    StableHlo.after hostOps1 W (Proc.devRef .tc r) = W (Proc.devRef .tc r) :=
  StableHlo.after_of_writes_sub hostOps1 W writes1_sub hr

/-- An array the first call only reads (or does not touch) is as the call found it. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hw _).trans (A_eq0 (V1 m ρ) c w))
theorem W4_in (c : Dev nD) (w : Fin cfg1.W) (hw : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hw _).trans (A_eq1 (V3 m ρ) c w))

/-- The feature matrix is the first call's first window: read, never written. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := keep1 _ main_arg0 (by decide)
    _ = W1 m ρ c (Proc.devRef .tc main_arg0) := W2_in m ρ c 0 rfl
    _ = W0 m ρ c (Proc.devRef .tc main_arg0) := keep0 _ main_arg0 (by decide)
    _ = m ((c : Thread nD τ).loc main_arg0) := rfl
/-- `main_arg1` is no window of either call and no host operation writes it. -/
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := keep1 _ main_arg1 (by decide)
    _ = W1 m ρ c (Proc.devRef .tc main_arg1) := W2_of_ne m ρ c main_arg1 (by decide)
    _ = W0 m ρ c (Proc.devRef .tc main_arg1) := keep0 _ main_arg1 (by decide)
    _ = m ((c : Thread nD τ).loc main_arg1) := rfl
/-- `main_arg2` is no window of either call and no host operation writes it. -/
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := keep1 _ main_arg2 (by decide)
    _ = W1 m ρ c (Proc.devRef .tc main_arg2) := W2_of_ne m ρ c main_arg2 (by decide)
    _ = W0 m ρ c (Proc.devRef .tc main_arg2) := keep0 _ main_arg2 (by decide)
    _ = m ((c : Thread nD τ).loc main_arg2) := rfl
/-- `main_arg3` is no window of either call and no host operation writes it. -/
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := keep1 _ main_arg3 (by decide)
    _ = W1 m ρ c (Proc.devRef .tc main_arg3) := W2_of_ne m ρ c main_arg3 (by decide)
    _ = W0 m ρ c (Proc.devRef .tc main_arg3) := keep0 _ main_arg3 (by decide)
    _ = m ((c : Thread nD τ).loc main_arg3) := rfl
/-- `main_arg4` is no window of either call and no host operation writes it. -/
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := keep1 _ main_arg4 (by decide)
    _ = W1 m ρ c (Proc.devRef .tc main_arg4) := W2_of_ne m ρ c main_arg4 (by decide)
    _ = W0 m ρ c (Proc.devRef .tc main_arg4) := keep0 _ main_arg4 (by decide)
    _ = m ((c : Thread nD τ).loc main_arg4) := rfl
/-- `main_arg5` is no window of either call and no host operation writes it. -/
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := keep1 _ main_arg5 (by decide)
    _ = W1 m ρ c (Proc.devRef .tc main_arg5) := W2_of_ne m ρ c main_arg5 (by decide)
    _ = W0 m ρ c (Proc.devRef .tc main_arg5) := keep0 _ main_arg5 (by decide)
    _ = m ((c : Thread nD τ).loc main_arg5) := rfl
/-- `main_arg6` is no window of either call and no host operation writes it. -/
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := keep1 _ main_arg6 (by decide)
    _ = W1 m ρ c (Proc.devRef .tc main_arg6) := W2_of_ne m ρ c main_arg6 (by decide)
    _ = W0 m ρ c (Proc.devRef .tc main_arg6) := keep0 _ main_arg6 (by decide)
    _ = m ((c : Thread nD τ).loc main_arg6) := rfl
/-- `main_arg7` is no window of either call and no host operation writes it. -/
theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := keep1 _ main_arg7 (by decide)
    _ = W1 m ρ c (Proc.devRef .tc main_arg7) := W2_of_ne m ρ c main_arg7 (by decide)
    _ = W0 m ρ c (Proc.devRef .tc main_arg7) := keep0 _ main_arg7 (by decide)
    _ = m ((c : Thread nD τ).loc main_arg7) := rfl
/-- `main_arg8` is no window of either call and no host operation writes it. -/
theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := keep1 _ main_arg8 (by decide)
    _ = W1 m ρ c (Proc.devRef .tc main_arg8) := W2_of_ne m ρ c main_arg8 (by decide)
    _ = W0 m ρ c (Proc.devRef .tc main_arg8) := keep0 _ main_arg8 (by decide)
    _ = m ((c : Thread nD τ).loc main_arg8) := rfl
/-- `main_arg9` is no window of either call and no host operation writes it. -/
theorem W4_main_arg9 (c : Dev nD) : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := keep1 _ main_arg9 (by decide)
    _ = W1 m ρ c (Proc.devRef .tc main_arg9) := W2_of_ne m ρ c main_arg9 (by decide)
    _ = W0 m ρ c (Proc.devRef .tc main_arg9) := keep0 _ main_arg9 (by decide)
    _ = m ((c : Thread nD τ).loc main_arg9) := rfl
/-- `main_arg10` is no window of either call and no host operation writes it. -/
theorem W4_main_arg10 (c : Dev nD) : W4 m ρ c (Proc.devRef .tc main_arg10) = m ((c : Thread nD τ).loc main_arg10) :=
  calc W4 m ρ c (Proc.devRef .tc main_arg10)
    _ = W3 m ρ c (Proc.devRef .tc main_arg10) := W4_of_ne m ρ c main_arg10 (by decide)
    _ = W2 m ρ c (Proc.devRef .tc main_arg10) := keep1 _ main_arg10 (by decide)
    _ = W1 m ρ c (Proc.devRef .tc main_arg10) := W2_of_ne m ρ c main_arg10 (by decide)
    _ = W0 m ρ c (Proc.devRef .tc main_arg10) := keep0 _ main_arg10 (by decide)
    _ = m ((c : Thread nD τ).loc main_arg10) := rfl
/-- `main_arg11` is no window of either call and no host operation writes it. -/
theorem W4_main_arg11 (c : Dev nD) : W4 m ρ c (Proc.devRef .tc main_arg11) = m ((c : Thread nD τ).loc main_arg11) :=
  calc W4 m ρ c (Proc.devRef .tc main_arg11)
    _ = W3 m ρ c (Proc.devRef .tc main_arg11) := W4_of_ne m ρ c main_arg11 (by decide)
    _ = W2 m ρ c (Proc.devRef .tc main_arg11) := keep1 _ main_arg11 (by decide)
    _ = W1 m ρ c (Proc.devRef .tc main_arg11) := W2_of_ne m ρ c main_arg11 (by decide)
    _ = W0 m ρ c (Proc.devRef .tc main_arg11) := keep0 _ main_arg11 (by decide)
    _ = m ((c : Thread nD τ).loc main_arg11) := rfl
/-- `main_arg12` is no window of either call and no host operation writes it. -/
theorem W4_main_arg12 (c : Dev nD) : W4 m ρ c (Proc.devRef .tc main_arg12) = m ((c : Thread nD τ).loc main_arg12) :=
  calc W4 m ρ c (Proc.devRef .tc main_arg12)
    _ = W3 m ρ c (Proc.devRef .tc main_arg12) := W4_of_ne m ρ c main_arg12 (by decide)
    _ = W2 m ρ c (Proc.devRef .tc main_arg12) := keep1 _ main_arg12 (by decide)
    _ = W1 m ρ c (Proc.devRef .tc main_arg12) := W2_of_ne m ρ c main_arg12 (by decide)
    _ = W0 m ρ c (Proc.devRef .tc main_arg12) := keep0 _ main_arg12 (by decide)
    _ = m ((c : Thread nD τ).loc main_arg12) := rfl
/-- `main_arg13` is no window of either call and no host operation writes it. -/
theorem W4_main_arg13 (c : Dev nD) : W4 m ρ c (Proc.devRef .tc main_arg13) = m ((c : Thread nD τ).loc main_arg13) :=
  calc W4 m ρ c (Proc.devRef .tc main_arg13)
    _ = W3 m ρ c (Proc.devRef .tc main_arg13) := W4_of_ne m ρ c main_arg13 (by decide)
    _ = W2 m ρ c (Proc.devRef .tc main_arg13) := keep1 _ main_arg13 (by decide)
    _ = W1 m ρ c (Proc.devRef .tc main_arg13) := W2_of_ne m ρ c main_arg13 (by decide)
    _ = W0 m ρ c (Proc.devRef .tc main_arg13) := keep0 _ main_arg13 (by decide)
    _ = m ((c : Thread nD τ).loc main_arg13) := rfl
/-- `main_arg14` is no window of either call and no host operation writes it. -/
theorem W4_main_arg14 (c : Dev nD) : W4 m ρ c (Proc.devRef .tc main_arg14) = m ((c : Thread nD τ).loc main_arg14) :=
  calc W4 m ρ c (Proc.devRef .tc main_arg14)
    _ = W3 m ρ c (Proc.devRef .tc main_arg14) := W4_of_ne m ρ c main_arg14 (by decide)
    _ = W2 m ρ c (Proc.devRef .tc main_arg14) := keep1 _ main_arg14 (by decide)
    _ = W1 m ρ c (Proc.devRef .tc main_arg14) := W2_of_ne m ρ c main_arg14 (by decide)
    _ = W0 m ρ c (Proc.devRef .tc main_arg14) := keep0 _ main_arg14 (by decide)
    _ = m ((c : Thread nD τ).loc main_arg14) := rfl

/-! ## The proof data family and the thread state -/

abbrev adm : (p : Fin 2) → (pcfgs (F := F) p).Adm := fun p => (cfgs p).toPCfg_adm
/-- Each call's proof data at the contents it is entered with. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

set_option maxHeartbeats 4000000 in
theorem hostOps0_fresh : (hostOps0 : List (HloOp τ sig (Elt F))).Forall fun op => op.fresh = ∅ := by
  simp only [List.Forall]; repeat' constructor
set_option maxHeartbeats 4000000 in
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at the last contents, the generator register at some state. -/
abbrev Tₙ (c : Dev nD) : sProp 𝕄 := iprop(StableHlo.held (c : Thread nD τ) (Pipeline.ucRefs τ sig) (W4 m ρ c) ∗ ∃ r, prngReg c r)

/-! ## The two calls as segments -/

set_option backward.isDefEq.respectTransparency.types false in
/-- The first call: entered with every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call: entered with every unscoped buffer at `W3`, left at `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as four segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- Every weakly fair execution of the program ends, nothing faulting, with every unscoped TensorCore buffer at the
    last boundary's contents `W4`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: the program runs to the end, faults nowhere, and its fifteen argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c),
     (h c _ (mem_uc main_arg9 (by decide))).trans (W4_main_arg9 m ρ c),
     (h c _ (mem_uc main_arg10 (by decide))).trans (W4_main_arg10 m ρ c),
     (h c _ (mem_uc main_arg11 (by decide))).trans (W4_main_arg11 m ρ c),
     (h c _ (mem_uc main_arg12 (by decide))).trans (W4_main_arg12 m ρ c),
     (h c _ (mem_uc main_arg13 (by decide))).trans (W4_main_arg13 m ρ c),
     (h c _ (mem_uc main_arg14 (by decide))).trans (W4_main_arg14 m ρ c)⟩) (run m ρ)

end Cert.KernelIdeal.Run

end
-- ==== Proof.LibPlainDot.lean ====
/-
  A plain matrix product read at an index, on the extended reals.

  For dimension numbers that describe an ordinary product of an M x K matrix with a K x N matrix (no batch axes; the
  left operand contracts its axis 1, the right operand its axis 0), entry (p, q) of the product is
      sum over k < K of  a (p, k) * b (k, q).
  This holds for the accumulating product started from the all-zero block and for the host's product alike, and it
  uses nothing of real arithmetic beyond `0 + x = x`, so it holds at the infinities too.
-/
import Idealize.ShloMosaic.Lib.ValueIdx
import Idealize.ShloMosaic.PureOps.Ideal.Laws

namespace Idealize.ShloMosaic.PlainDot

open Idealize.ShloMosaic Idealize.ShloMosaic.ValueIdx

variable {sl sr so : Shape} (d : DotDims sl sr so)

/-- On the left operand's only non-contracting axis, with no batch axes, the left index reads the result index at
    position 0. -/
theorem lhsIdx_val_nonContracting {nl : Fin sl.rank} (hb : d.lhsBatch = []) (hn : d.lhsNonContracting = [nl])
    (h0 : 0 < so.rank) (j : so.Idx) (k : d.contr.Idx) : (d.lhsIdx j k nl).val = (j ⟨0, h0⟩).val := by
  have hmem : nl ∈ d.lhsNonContracting := by rw [hn]; exact List.mem_singleton.mpr rfl
  have hnb : nl ∉ d.lhsBatch := by rw [hb]; exact List.not_mem_nil
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- On the right operand's only non-contracting axis, with no batch axes and one left non-contracting axis, the right
    index reads the result index at position 1. -/
theorem rhsIdx_val_nonContracting {nl : Fin sl.rank} {nr : Fin sr.rank} (hlb : d.lhsBatch = []) (hrb : d.rhsBatch = [])
    (hln : d.lhsNonContracting = [nl]) (hrn : d.rhsNonContracting = [nr])
    (h1 : 1 < so.rank) (j : so.Idx) (k : d.contr.Idx) : (d.rhsIdx j k nr).val = (j ⟨1, h1⟩).val := by
  have hmem : nr ∈ d.rhsNonContracting := by rw [hrn]; exact List.mem_singleton.mpr rfl
  have hnb : nr ∉ d.rhsBatch := by rw [hrb]; exact List.not_mem_nil
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hrn])

section Plain

variable {M K N : Nat} (D : DotDims ⟨2, ![M, K]⟩ ⟨2, ![K, N]⟩ ⟨2, ![M, N]⟩)
  (hlc : D.lhsContracting = [1]) (hrc : D.rhsContracting = [0])
  (hln : D.lhsNonContracting = [0]) (hrn : D.rhsNonContracting = [1])
  (hlb : D.lhsBatch = []) (hrb : D.rhsBatch = [])
  (hr : D.contr.rank = 1) (hs : D.contr.size ⟨0, by omega⟩ = K)

include hlc hln hlb in
/-- The left operand's index at result entry (p, q) and contraction position k is (p, k). -/
theorem lhsIdx_eq (p : Fin M) (q : Fin N) (k : Fin K) :
    D.lhsIdx (ix2 p q) ((contrEquiv1 D K hr hs).symm k) = ix2 p k := by
  funext a
  apply Fin.ext
  match a with
  | ⟨0, _⟩ => exact lhsIdx_val_nonContracting D hlb hln Nat.zero_lt_two (ix2 p q) _
  | ⟨1, _⟩ => exact (D.lhsIdx_val_of_single hlc (ix2 p q) _).trans (contrEquiv1_symm_val D K hr hs k)

include hrc hln hrn hlb hrb in
/-- The right operand's index at result entry (p, q) and contraction position k is (k, q). -/
theorem rhsIdx_eq (p : Fin M) (q : Fin N) (k : Fin K) :
    D.rhsIdx (ix2 p q) ((contrEquiv1 D K hr hs).symm k) = ix2 k q := by
  funext a
  apply Fin.ext
  match a with
  | ⟨0, _⟩ => exact (D.rhsIdx_val_of_single hrc (ix2 p q) _).trans (contrEquiv1_symm_val D K hr hs k)
  | ⟨1, _⟩ => exact rhsIdx_val_nonContracting D hlb hrb hln hrn Nat.one_lt_two (ix2 p q) _

include hlc hrc hln hrn hlb hrb hr hs in
/-- The sum over the contraction index is the sum over k < K of a (p, k) * b (k, q). -/
theorem sum_contr {φ₁ φ₂ : FTy} (a : FVec Ideal ⟨2, ![M, K]⟩ φ₁) (b : FVec Ideal ⟨2, ![K, N]⟩ φ₂) (p : Fin M) (q : Fin N) :
    (∑ k : D.contr.Idx, a (D.lhsIdx (ix2 p q) k) * b (D.rhsIdx (ix2 p q) k) : EReal)
      = ∑ k : Fin K, a (ix2 p k) * b (ix2 k q) := by
  rw [← Equiv.sum_comp (contrEquiv1 D K hr hs).symm]
  refine Finset.sum_congr rfl fun k _ => ?_
  rw [lhsIdx_eq D hlc hln hlb hr hs p q k, rhsIdx_eq D hrc hln hrn hlb hrb hr hs p q k]

include hlc hrc hln hrn hlb hrb hr hs in
/-- The accumulating product started from the all-zero block, at entry (p, q). -/
theorem matmul_zero_apply {φ₁ φ₂ : FTy} (prec : Option ContractPrecision)
    (a : FVec Ideal ⟨2, ![M, K]⟩ φ₁) (b : FVec Ideal ⟨2, ![K, N]⟩ φ₂) (p : Fin M) (q : Fin N) :
    FloatOps.matmul D prec a b (constant ⟨2, ![M, N]⟩ .f32 0x00000000#32) (ix2 p q) = ∑ k : Fin K, a (ix2 p k) * b (ix2 k q) :=
  (Ideal.matmul_constant_zero_apply D prec a b (ix2 p q)).trans (sum_contr D hlc hrc hln hrn hlb hrb hr hs a b p q)

include hlc hrc hln hrn hlb hrb hr hs in
/-- The host's product, at entry (p, q). -/
theorem dotGeneral_apply {φ₁ φ₂ : FTy} (prec : Option ContractPrecision) (sched : HostSchedule)
    (a : FVec Ideal ⟨2, ![M, K]⟩ φ₁) (b : FVec Ideal ⟨2, ![K, N]⟩ φ₂) (p : Fin M) (q : Fin N) :
    FloatOps.dotGeneral D prec sched a b (ix2 p q) = ∑ k : Fin K, a (ix2 p k) * b (ix2 k q) :=
  (Ideal.dotGeneral_apply D prec sched a b (ix2 p q)).trans (sum_contr D hlc hrc hln hrn hlb hrb hr hs a b p q)

end Plain

end Idealize.ShloMosaic.PlainDot
-- ==== Proof.KValue0.lean ====
/-
  The array the first pallas_call leaves, on the extended reals: the product of the 50000 x 256 feature matrix with the
  256 x 256 mixed weight matrix, entry by entry,
      H (i, j) = sum over k < 256 of feat (i, k) * Wc (k, j).
  A grid point holds rows 5000 t .. 5000 t + 4999 of the features and the whole weight matrix; the matrix unit's product
  of the two blocks into a zero accumulator is, entry by entry, the same row-by-column sum (the change of float format
  on the way in is the identity on the extended reals), so what the point writes back is its block of H; the ten
  blocks tile the array, so the array ends at H.
-/
import proofs.«125390_j86715389706549_1_alg».proof.Proof.KRegion0
import proofs.«125390_j86715389706549_1_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.Val0

open Cert.KernelIdeal Cert.KernelIdeal.Gen Cert.KernelIdeal.Run
open Idealize.ShloMosaic Idealize.ShloMosaic.TcCoe Idealize.ShloMosaic.ValueIdx
open Idealize.SL Idealize.SL.Sem
open Idealize.ShloMosaic.Pipeline (Dat Cfg Window)

/-- The product of a 50000 x 256 matrix and a 256 x 256 matrix, entry by entry. -/
def MM (a : S50000x256.Idx → EReal) (b : S256x256.Idx → EReal) : S50000x256.Idx → EReal :=
  fun i => ∑ k : Fin 256, a (ix2 (i 0 : Fin 50000) k) * b (ix2 k (i 1 : Fin 256))

/-- The body's stored value at entry (p, q) of the block: row p of the feature block against column q of the matrix. -/
theorem pay_apply (x0 : Vec Ideal S5000x256 .f32) (x1 : Vec Ideal S256x256 .f32) (p : Fin 5000) (q : Fin 256) :
    k0_pay1 (F := Ideal) x0 x1 (ix2 p q) = ∑ k : Fin 256, x0 (ix2 p k) * x1 (ix2 k q) := by
  unfold k0_pay1
  refine (PlainDot.matmul_zero_apply dot_S5000x256_S256x256_S5000x256_1_0_0_1_n_n rfl rfl rfl rfl rfl rfl rfl rfl none _ _ p q).trans ?_
  refine Finset.sum_congr rfl fun k _ => ?_
  show x0 (ix2 p k) * (shapeCast S256x256 x1 shapeCasts_S256x256_S256x256) (ix2 k q) = _
  rw [shapeCast_self]

/-- A product of two entries moves along equal indices. -/
theorem prod_congr (A : S50000x256.Idx → EReal) (B : S256x256.Idx → EReal) (i i' : S50000x256.Idx) (j j' : S256x256.Idx)
    (hi : i = i') (hj : j = j') : A i * B j = A i' * B j' := by rw [hi, hj]

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the feature block and the result block are the same row block, at column
    block 0; the weight matrix is always its one block. -/
theorem idx_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 9 :=
  (by decide +kernel : ∀ t : Fin grid0.N, _)

/-- Every row block is some point's. -/
theorem idx_onto : ∀ q0 : Fin 10, ∃ t : Fin cfg0.N, win0_2.index t = ![q0.val, 0] :=
  (by decide +kernel : ∀ q0 : Fin 10, ∃ t : Fin grid0.N, win0_2.index t = ![q0.val, 0])

/-- What point `t` writes back is block `t` of the product of the two arrays as the call finds them. -/
theorem flushed_eq (c : Dev nD) (t : Fin cfg0.N) :
    (dat0 V c).flushed 2 t = ((cfg0.win 2).blk t).view.read (Elt Ideal) (MM (V c main_arg0) (V c main_v48)) := by
  show (cfg0.win 2).cut (grid0.coords t) ((dat0 V c).after 2 t) = _
  rw [after0_2]
  unfold prod0
  rw [View.canon_unit_zero hz]
  simp only [View.ld_unit_zero (S := S5000x256) hz, View.ld_unit_zero (S := S256x256) hz]
  obtain ⟨e0, e1, e2, e3, e4, e5⟩ := idx_facts t
  funext j
  obtain ⟨p, q, rfl⟩ : ∃ (p : Fin 5000) (q : Fin 256), j = ix2 p q := ⟨j 0, j 1, eq_ix2 j⟩
  refine (pay_apply _ _ p q).trans ?_
  show _ = MM (V c main_arg0) (V c main_v48) (((cfg0.win 2).blk t).view.emb (ix2 p q))
  unfold MM
  refine Finset.sum_congr rfl fun k _ => ?_
  have h0 : ((cfg0.win 0).blk t).view.emb (ix2 p k) = ix2 ((((cfg0.win 2).blk t).view.emb (ix2 p q)) 0 : Fin 50000) k := by
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 256 + 1 * k.val = k.val; omega
  have h1 : ((cfg0.win 1).blk t).view.emb (ix2 k q) = ix2 k ((((cfg0.win 2).blk t).view.emb (ix2 p q)) 1 : Fin 256) := by
    funext a; apply Fin.ext
    match a with
    | ⟨0, _⟩ => show win0_1.index t (0 : Fin 2) * 256 + 1 * k.val = k.val; omega
    | ⟨1, _⟩ => show win0_1.index t (1 : Fin 2) * 256 + 1 * q.val = win0_2.index t (1 : Fin 2) * 256 + 1 * q.val; omega
  exact prod_congr (V c main_arg0) (V c main_v48) _ _ _ _ h0 h1

/-- An index of the array is in point `t`'s block iff each coordinate is in the block's range. -/
theorem mem_blk (t : Fin cfg0.N) (i : S50000x256.Idx) :
    i ∈ ((cfg0.win 2).blk t).view.set ↔ ∀ a : Fin 2, win0_2.index t a * S5000x256.size a ≤ (i a).val ∧ (i a).val < win0_2.index t a * S5000x256.size a + S5000x256.size a := by
  show i ∈ ((View.whole main_v49).slice (win0_2.rect t)).set ↔ _
  rw [View.set_slice_whole, Rect.mem_set_unit]
  exact Iff.rfl

/-- The ten row blocks cover the array: row r lies in block r / 5000. -/
theorem cover (i : S50000x256.Idx) : ∃ t : Fin cfg0.N, (cfg0.win 2).flush t = true ∧ i ∈ ((cfg0.win 2).blk t).view.set := by
  have hi0 : (i 0).val < 50000 := (i 0).isLt
  have hi1 : (i 1).val < 256 := (i 1).isLt
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 256 ≤ (i 1).val ∧ (i 1).val < win0_2.index t (1 : Fin 2) * 256 + 256; omega

/-- The result array after the call: the product of the features with the mixed weight matrix, both as found. -/
theorem final (c : Dev nD) : (dat0 V c).arrAt 2 cfg0.N = MM (V c main_arg0) (V c main_v48) :=
  (dat0 V c).arrAt_eq_of_cover 2 _ (fun t _ => flushed_eq V c t) cover

end Cert.KernelIdeal.Val0

end
-- ==== Proof.LibRowLayout.lean ====
/-
  Column forms of the layout operations, read at an index written by coordinates.

  A row-wise reduction with the reduced axis kept (a mean or a variance per row) meets three layout steps:
  the vector of row sums [a] is cast to a column [a, 1]; the column is broadcast along the rows to [a, b];
  and the sum itself runs over the second coordinate of the row. Each lemma reads one of these steps at an
  index given by its coordinates.
-/
import Idealize.ShloMosaic.Lib.ValueIdx
import Idealize.ShloMosaic.Lib.ValueLayout
import Idealize.ShloMosaic.Lib.Pipeline.Value
import Idealize.ShloMosaic.PureOps.Ideal.Laws

namespace Cert.LibRowLayout

open Idealize.ShloMosaic Idealize.ShloMosaic.ValueIdx

variable {α : Type}

/-- A vector `[a]` cast to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a sum over the second axis of `[a, b]` visits at row `i` and position `k` is `(i, k)`. -/
theorem lift_row {a b : ℕ} (h : (⟨2, ![a, b]⟩ : Shape).Reduces [1] ⟨1, ![a]⟩) (i : Fin a) (k : Fin b) :
    h.lift (ix1 i) k = ix2 i k :=
  funext fun d => Fin.ext (by match d with | ⟨0, _⟩ => rfl | ⟨1, _⟩ => rfl)

/-- A sum over the second axis of an `[a, b]` array of extended reals, read at row `i`: the sum of the row. -/
theorem multiReduction_row {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  refine (Ideal.multiReduction_add_single src acc h hφ hacc (ix1 i)).trans ?_
  exact Finset.sum_congr rfl fun k _ => congrArg src (lift_row h i k)

end Cert.LibRowLayout
-- ==== Proof.LnSpec.lean ====
/-
  Layer norm of one row of 256 extended reals after taking positive parts, the common form both programs compute:
  with r k = max (row k) 0, the mean mu = (sum of r) / 256, the centred second moment var = (sum of (r - mu)^2) / 256,
  entry q of the result is ((r q - mu) * rsqrt (var + eps)) * scale + shift. The constants 0, 256 and eps are kept
  as the float words the programs spell; nothing here evaluates them.
-/
import Idealize.ShloMosaic.PureOps.Ideal

noncomputable section

namespace Cert.LnSpec

open Idealize.ShloMosaic

/-- The positive part: the maximum with the float word 0. -/
def pos (v : EReal) : EReal := max v (Ideal.ofBits .f32 0x00000000#32)

/-- The float word 256.0, the row length. -/
def c256 : EReal := Ideal.ofBits .f32 0x43800000#32

/-- The float word closest to 1e-5 that both programs add to the variance. -/
def eps : EReal := Ideal.ofBits .f32 0x3727C5AC#32

/-- The mean of the positive parts of a row. -/
def mean (row : Fin 256 → EReal) : EReal := Ideal.div (∑ k : Fin 256, pos (row k)) c256

/-- The centred second moment of the positive parts of a row. -/
def var (row : Fin 256 → EReal) : EReal :=
  Ideal.div (∑ k : Fin 256, (pos (row k) - mean row) * (pos (row k) - mean row)) c256

/-- Entry `q` of the normalised row, scaled and shifted. -/
def rowLN (row : Fin 256 → EReal) (gq bq : EReal) (q : Fin 256) : EReal :=
  ((pos (row q) - mean row) * Ideal.rsqrt (var row + eps)) * gq + bq

end Cert.LnSpec

end
-- ==== Proof.KValue1.lean ====
/-
  The array the second pallas_call leaves, on the extended reals: row by row, the layer norm of the positive parts of
  the aggregated features, scaled and shifted by the two 1 x 256 rows. A grid point holds rows 2000 t .. 2000 t + 1999
  and both rows whole; every entry of what it stores depends on its own row of the block only (the two lane sums run
  along the row), so what the point writes back is its block of the row-wise function of the whole array; the
  twenty-five blocks tile the array.
-/
import proofs.«125390_j86715389706549_1_alg».proof.Proof.KRegion1
import proofs.«125390_j86715389706549_1_alg».proof.Proof.LibRowLayout
import proofs.«125390_j86715389706549_1_alg».proof.Proof.LnSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val1

open Cert.KernelIdeal Cert.KernelIdeal.Gen Cert.KernelIdeal.Run
open Idealize.ShloMosaic Idealize.ShloMosaic.TcCoe Idealize.ShloMosaic.ValueIdx
open Idealize.SL Idealize.SL.Sem
open Idealize.ShloMosaic.Pipeline (Dat Cfg Window)
open Cert.LibRowLayout Cert.LnSpec

/-- The row-wise layer norm of a 50000 x 256 array with a 1 x 256 scale row and a 1 x 256 shift row. -/
def LN (x : S50000x256.Idx → EReal) (g b : S1x256.Idx → EReal) : S50000x256.Idx → EReal :=
  fun i => rowLN (fun k => x (ix2 (i 0 : Fin 50000) k)) (g (ix2 (0 : Fin 1) (i 1 : Fin 256))) (b (ix2 (0 : Fin 1) (i 1 : Fin 256))) (i 1 : Fin 256)

/-- The sum along a row of a 2000 x 256 block, with the accumulator word spelt as the body spells it. -/
theorem rowsum (src : FVec Ideal S2000x256 .f32) (hφ : FKind.Formats .f32)
    (hacc : (0x00000000#32 : BitVec 32) = FKind.add.neutral .f32 hφ) (p : Fin 2000) :
    multiReduction .add [1] S2000 src (0x00000000#32 : BitVec 32) reduces_S2000x256_S2000 hφ hacc (ix1 p)
      = ∑ k : Fin 256, src (ix2 p k) :=
  multiReduction_row src _ reduces_S2000x256_S2000 hφ hacc p

theorem rsqrt_apply {s : Shape} (a : FVec Ideal s .f32) (i : s.Idx) : rsqrt a i = Ideal.rsqrt (a i) := rfl

/-- The body's stored value at entry (p, q) of the block is the layer norm of row p of the block at q. -/
theorem pay_apply (x0 : Vec Ideal S2000x256 .f32) (g b : Vec Ideal S1x256 .f32) (p : Fin 2000) (q : Fin 256) :
    k1_pay1 (F := Ideal) x0 g b (ix2 p q) = rowLN (fun k => x0 (ix2 p k)) (g (ix2 (0 : Fin 1) q)) (b (ix2 (0 : Fin 1) q)) q := by
  unfold k1_pay1
  simp only [addf_apply, mulf_apply, subf_apply, divf_apply, maximumf_apply, broadcast_apply, rsqrt_apply, shapeCast_self,
    broadcastTo_a1_ab_apply, shapeCast_a_a1_apply, broadcastTo_1b_ab_apply]
  erw [rowsum]
  simp only [addf_apply, mulf_apply, subf_apply, divf_apply, maximumf_apply, broadcast_apply, rsqrt_apply, shapeCast_self,
    broadcastTo_a1_ab_apply, shapeCast_a_a1_apply, broadcastTo_1b_ab_apply]
  erw [rowsum]
  simp only [addf_apply, mulf_apply, subf_apply, divf_apply, maximumf_apply, broadcast_apply, rsqrt_apply, shapeCast_self,
    broadcastTo_a1_ab_apply, shapeCast_a_a1_apply, broadcastTo_1b_ab_apply]
  erw [rowsum]
  try simp only [addf_apply, mulf_apply, subf_apply, divf_apply, maximumf_apply, broadcast_apply, rsqrt_apply, shapeCast_self,
    broadcastTo_a1_ab_apply, shapeCast_a_a1_apply, broadcastTo_1b_ab_apply]
  rfl

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the input block and the result block are the same row block at column block 0;
    the scale and shift rows are always their one block. -/
theorem idx_facts : ∀ t : Fin cfg1.N, win1_0.index t (0 : Fin 2) = win1_3.index t (0 : Fin 2)
    ∧ win1_0.index t (1 : Fin 2) = 0 ∧ win1_1.index t (0 : Fin 2) = 0 ∧ win1_1.index t (1 : Fin 2) = 0
    ∧ win1_2.index t (0 : Fin 2) = 0 ∧ win1_2.index t (1 : Fin 2) = 0
    ∧ win1_3.index t (1 : Fin 2) = 0 ∧ win1_3.index t (0 : Fin 2) ≤ 24 :=
  (by decide +kernel : ∀ t : Fin grid1.N, _)

/-- Every row block is some point's. -/
theorem idx_onto : ∀ q0 : Fin 25, ∃ t : Fin cfg1.N, win1_3.index t = ![q0.val, 0] :=
  (by decide +kernel : ∀ q0 : Fin 25, ∃ t : Fin grid1.N, win1_3.index t = ![q0.val, 0])

/-- What point `t` writes back is block `t` of the row-wise layer norm of the three arrays as the call finds them. -/
theorem flushed_eq (c : Dev nD) (t : Fin cfg1.N) :
    (dat1 V c).flushed 3 t = ((cfg1.win 3).blk t).view.read (Elt Ideal) (LN (V c main_v110) (V c main_v111) (V c main_v112)) := by
  show (cfg1.win 3).cut (grid1.coords t) ((dat1 V c).after 3 t) = _
  rw [after1_3]
  unfold norm1
  rw [View.canon_unit_zero hz]
  simp only [View.ld_unit_zero (S := S2000x256) hz, View.ld_unit_zero (S := S1x256) hz]
  obtain ⟨e0, e1, e2, e3, e4, e5, e6, e7⟩ := idx_facts t
  funext j
  obtain ⟨p, q, rfl⟩ : ∃ (p : Fin 2000) (q : Fin 256), j = ix2 p q := ⟨j 0, j 1, eq_ix2 j⟩
  refine (pay_apply _ _ _ p q).trans ?_
  show _ = LN (V c main_v110) (V c main_v111) (V c main_v112) (((cfg1.win 3).blk t).view.emb (ix2 p q))
  unfold LN
  have hrow : ∀ k : Fin 256, ((cfg1.win 0).blk t).view.emb (ix2 p k) = ix2 ((((cfg1.win 3).blk t).view.emb (ix2 p q)) 0 : Fin 50000) k := by
    intro k; funext a; apply Fin.ext
    match a with
    | ⟨0, _⟩ => show win1_0.index t (0 : Fin 2) * 2000 + 1 * p.val = win1_3.index t (0 : Fin 2) * 2000 + 1 * p.val; omega
    | ⟨1, _⟩ => show win1_0.index t (1 : Fin 2) * 256 + 1 * k.val = k.val; omega
  have hcol : ((((cfg1.win 3).blk t).view.emb (ix2 p q)) 1 : Fin 256) = q := by
    apply Fin.ext
    show win1_3.index t (1 : Fin 2) * 256 + 1 * q.val = q.val; omega
  have hg : ((cfg1.win 1).blk t).view.emb (ix2 (0 : Fin 1) q) = ix2 (0 : Fin 1) q := by
    funext a; apply Fin.ext
    match a with
    | ⟨0, _⟩ => show win1_1.index t (0 : Fin 2) * 1 + 1 * 0 = 0; omega
    | ⟨1, _⟩ => show win1_1.index t (1 : Fin 2) * 256 + 1 * q.val = q.val; omega
  have hb : ((cfg1.win 2).blk t).view.emb (ix2 (0 : Fin 1) q) = ix2 (0 : Fin 1) q := by
    funext a; apply Fin.ext
    match a with
    | ⟨0, _⟩ => show win1_2.index t (0 : Fin 2) * 1 + 1 * 0 = 0; omega
    | ⟨1, _⟩ => show win1_2.index t (1 : Fin 2) * 256 + 1 * q.val = q.val; omega
  show rowLN (fun k => (V c main_v110 : S50000x256.Idx → EReal) (((cfg1.win 0).blk t).view.emb (ix2 p k)))
      ((V c main_v111 : S1x256.Idx → EReal) (((cfg1.win 1).blk t).view.emb (ix2 (0 : Fin 1) q)))
      ((V c main_v112 : S1x256.Idx → EReal) (((cfg1.win 2).blk t).view.emb (ix2 (0 : Fin 1) q))) q = _
  rw [hg, hb, hcol]
  simp only [hrow]
  rfl

/-- An index of the array is in point `t`'s block iff each coordinate is in the block's range. -/
theorem mem_blk (t : Fin cfg1.N) (i : S50000x256.Idx) :
    i ∈ ((cfg1.win 3).blk t).view.set ↔ ∀ a : Fin 2, win1_3.index t a * S2000x256.size a ≤ (i a).val ∧ (i a).val < win1_3.index t a * S2000x256.size a + S2000x256.size a := by
  show i ∈ ((View.whole main_v113).slice (win1_3.rect t)).set ↔ _
  rw [View.set_slice_whole, Rect.mem_set_unit]
  exact Iff.rfl

/-- The twenty-five row blocks cover the array: row r lies in block r / 2000. -/
theorem cover (i : S50000x256.Idx) : ∃ t : Fin cfg1.N, (cfg1.win 3).flush t = true ∧ i ∈ ((cfg1.win 3).blk t).view.set := by
  have hi0 : (i 0).val < 50000 := (i 0).isLt
  have hi1 : (i 1).val < 256 := (i 1).isLt
  obtain ⟨t, ht⟩ := idx_onto ⟨(i 0).val / 2000, by omega⟩
  have q0 : win1_3.index t (0 : Fin 2) = (i 0).val / 2000 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 2000 ≤ (i 0).val ∧ (i 0).val < win1_3.index t (0 : Fin 2) * 2000 + 2000; omega
  | ⟨1, _⟩ => show win1_3.index t (1 : Fin 2) * 256 ≤ (i 1).val ∧ (i 1).val < win1_3.index t (1 : Fin 2) * 256 + 256; omega

/-- The result array after the call: the row-wise layer norm of the aggregated features as found. -/
theorem final (c : Dev nD) : (dat1 V c).arrAt 3 cfg1.N = LN (V c main_v110) (V c main_v111) (V c main_v112) :=
  (dat1 V c).arrAt_eq_of_cover 3 _ (fun t _ => flushed_eq V c t) cover

end Cert.KernelIdeal.Val1

end
-- ==== Proof.KTail.lean ====
/-
  The second host stretch of the kernel program, read as named stages. From the product H left by the first call and
  the six edge-index arrays it computes, for each of the three relations, the mean over incoming edges of the source
  rows of H — gather the rows H[src] (negative indices first wrapped by the array length), scatter-add them at dst
  into zeros, scatter-add ones at dst for the edge counts, divide each row by max(count, 1) — adds the three means and
  divides by 3; and it reshapes the scale and shift vectors to 1 x 256 rows. The stretch writes none of the arrays it
  reads, so the three buffers the second call takes are these terms of the buffers as the stretch found them.
-/
import proofs.«125390_j86715389706549_1_alg».proof.Proof.Gen.KernelIdeal.Launch
import Idealize.ShloMosaic.Lib.StableHlo.Run

noncomputable section

namespace Cert.KernelIdeal.Tail

open Idealize.ShloMosaic Idealize.ShloMosaic.TcCoe Idealize.SL.Sem
open Cert.KernelIdeal.Gen

variable {F : FTy → Type} [FloatOps F]

/-- One relation's mean of source rows over incoming edges. -/
def segMean (h : (⟨S50000x256, .f32⟩ : BufTy).Contents (Elt F)) (s d : (⟨S400000, .i32⟩ : BufTy).Contents (Elt F)) :
    (⟨S50000x256, .f32⟩ : BufTy).Contents (Elt F) :=
  Host.divf
    (Host.scatterAdd scatter_S50000x256_S400000x1_S400000x256_1_0_0_1
      (broadcastInDim S50000x256 ![] bcast_S_S50000x256 (constant S_ .f32 0x00000000#32))
      (broadcastInDim S400000x1 ![0] bcast_S400000_S400000x1_0 d)
      (Host.gather gather_S50000x256_S400000x1_S400000x256_1_0_n_n_0_1_1256 h
        (broadcastInDim S400000x1 ![0] bcast_S400000_S400000x1_0
          (select (cmpi .slt s (broadcastInDim S400000 ![] bcast_S_S400000 (constantI S_ 32 0#32)))
            (addi s (broadcastInDim S400000 ![] bcast_S_S400000 (constantI S_ 32 50000#32))) s))))
    (broadcastInDim S50000x256 ![0, 1] bcast_S50000x1_S50000x256_0_1
      (broadcastInDim S50000x1 ![0] bcast_S50000_S50000x1_0
        (maximumf
          (Host.scatterAdd scatter_S50000_S400000x1_S400000_n_0_0_1
            (broadcastInDim S50000 ![] bcast_S_S50000 (constant S_ .f32 0x00000000#32))
            (broadcastInDim S400000x1 ![0] bcast_S400000_S400000x1_0 d)
            (broadcastInDim S400000 ![] bcast_S_S400000 (constant S_ .f32 0x3F800000#32)))
          (broadcastInDim S50000 ![] bcast_S_S50000 (constant S_ .f32 0x3F800000#32)))))

/-- The three relations' means, added and divided by 3. -/
def agg (h : (⟨S50000x256, .f32⟩ : BufTy).Contents (Elt F)) (s0 d0 s1 d1 s2 d2 : (⟨S400000, .i32⟩ : BufTy).Contents (Elt F)) :
    (⟨S50000x256, .f32⟩ : BufTy).Contents (Elt F) :=
  Host.divf (addf (addf (segMean h s0 d0) (segMean h s1 d1)) (segMean h s2 d2))
    (broadcastInDim S50000x256 ![] bcast_S_S50000x256 (constant S_ .f32 0x40400000#32))

section Fold
attribute [local irreducible] Host.gather Host.scatterAdd Host.divf broadcastInDim cmpi addi select constantI constant
  maximumf addf shapeCast

set_option maxRecDepth 16384 in
set_option maxHeartbeats 2000000 in
/-- The aggregated features the second call normalises. -/
theorem v110_eq (V : Valuation τ sig (Elt F)) :
    StableHlo.after hostOps1 V (main_v110 : DevRef τ sig)
      = agg (V main_v49) (V main_arg9) (V main_arg10) (V main_arg11) (V main_arg12) (V main_arg13) (V main_arg14) := by
  simp only [StableHlo.after_cons, StableHlo.after_nil]
  rfl

set_option maxRecDepth 16384 in
set_option maxHeartbeats 2000000 in
/-- The scale vector as a 1 x 256 row. -/
theorem v111_eq (V : Valuation τ sig (Elt F)) :
    StableHlo.after hostOps1 V (main_v111 : DevRef τ sig) = shapeCast S1x256 (V main_arg7) shapeCasts_S256_S1x256 := by
  simp only [StableHlo.after_cons, StableHlo.after_nil]
  rfl

set_option maxRecDepth 16384 in
set_option maxHeartbeats 2000000 in
/-- The shift vector as a 1 x 256 row. -/
theorem v112_eq (V : Valuation τ sig (Elt F)) :
    StableHlo.after hostOps1 V (main_v112 : DevRef τ sig) = shapeCast S1x256 (V main_arg8) shapeCasts_S256_S1x256 := by
  simp only [StableHlo.after_cons, StableHlo.after_nil]
  rfl

end Fold

end Cert.KernelIdeal.Tail

end
-- ==== Proof.Weights.lean ====
import proofs.«125390_j86715389706549_1_alg».proof.Proof.Gen.KernelIdeal.Launch
import Idealize.ShloMosaic.Lib.StableHlo.Run

noncomputable section

namespace Cert.KernelIdeal.Weights

open Idealize.ShloMosaic Idealize.ShloMosaic.TcCoe Idealize.SL.Sem
open Cert.KernelIdeal.Gen

variable {F : FTy → Type} [FloatOps F]

/-- The softmax of a one-entry array: the entry less the array's maximum (itself joined with minus infinity),
    exponentiated, divided by the sum of the exponentials (started at zero). -/
def sm1 (a : (⟨S1, .f32⟩ : BufTy).Contents (Elt F)) : (⟨S1, .f32⟩ : BufTy).Contents (Elt F) :=
  Host.divf
    (Host.exp (subf a (broadcastInDim S1 ![] bcast_S_S1
      (maximumf (constant S_ .f32 0xFF800000#32)
        (Host.reduce FloatOps.maximumf a (constant S_ .f32 0xFF800000#32) reducesTo_S1_S_d0 h_S_)))))
    (broadcastInDim S1 ![] bcast_S_S1
      (Host.reduceAdd
        (Host.exp (subf a (broadcastInDim S1 ![] bcast_S_S1
          (maximumf (constant S_ .f32 0xFF800000#32)
            (Host.reduce FloatOps.maximumf a (constant S_ .f32 0xFF800000#32) reducesTo_S1_S_d0 h_S_)))))
        (constant S_ .f32 0x00000000#32) reducesTo_S1_S_d0 h_S_))

/-- The softmax of a three-entry array, the same chain with the scalar maximum and the scalar sum broadcast
    through a one-entry array. -/
def sm3 (c : (⟨S3, .f32⟩ : BufTy).Contents (Elt F)) : (⟨S3, .f32⟩ : BufTy).Contents (Elt F) :=
  Host.divf
    (Host.exp (subf c (broadcastInDim S3 ![0] bcast_S1_S3_0 (broadcastInDim S1 ![] bcast_S_S1
      (maximumf (constant S_ .f32 0xFF800000#32)
        (Host.reduce FloatOps.maximumf c (constant S_ .f32 0xFF800000#32) reducesTo_S3_S_d0 h_S_))))))
    (broadcastInDim S3 ![0] bcast_S1_S3_0 (broadcastInDim S1 ![] bcast_S_S1
      (Host.reduceAdd
        (Host.exp (subf c (broadcastInDim S3 ![0] bcast_S1_S3_0 (broadcastInDim S1 ![] bcast_S_S1
          (maximumf (constant S_ .f32 0xFF800000#32)
            (Host.reduce FloatOps.maximumf c (constant S_ .f32 0xFF800000#32) reducesTo_S3_S_d0 h_S_))))))
        (constant S_ .f32 0x00000000#32) reducesTo_S3_S_d0 h_S_)))

/-- The three mixing weights: the softmax of the concatenation of the three one-entry softmaxes. -/
def wts (a0 a1 a2 : (⟨S1, .f32⟩ : BufTy).Contents (Elt F)) : (⟨S3, .f32⟩ : BufTy).Contents (Elt F) :=
  sm3 (concatenate S3 0 [⟨S1, sm1 a0⟩, ⟨S1, sm1 a1⟩, ⟨S1, sm1 a2⟩] concatenates_S1_S1_S1_S3_d0)

/-- Entry `k` of a three-entry array, as a scalar spread over a 256 by 256 matrix. -/
def spread0 (w : (⟨S3, .f32⟩ : BufTy).Contents (Elt F)) : (⟨S256x256, .f32⟩ : BufTy).Contents (Elt F) :=
  broadcastInDim S256x256 ![] bcast_S_S256x256 (shapeCast S_ (extractStridedSlice S1 ![0] w slices_S3_S1_0) shapeCasts_S1_S_)
def spread1 (w : (⟨S3, .f32⟩ : BufTy).Contents (Elt F)) : (⟨S256x256, .f32⟩ : BufTy).Contents (Elt F) :=
  broadcastInDim S256x256 ![] bcast_S_S256x256 (shapeCast S_ (extractStridedSlice S1 ![1] w slices_S3_S1_1) shapeCasts_S1_S_)
def spread2 (w : (⟨S3, .f32⟩ : BufTy).Contents (Elt F)) : (⟨S256x256, .f32⟩ : BufTy).Contents (Elt F) :=
  broadcastInDim S256x256 ![] bcast_S_S256x256 (shapeCast S_ (extractStridedSlice S1 ![2] w slices_S3_S1_2) shapeCasts_S1_S_)

/-- The mixed matrix: entrywise (w₀ · A + w₁ · B) + w₂ · C. -/
def wmat (w : (⟨S3, .f32⟩ : BufTy).Contents (Elt F)) (A B C : (⟨S256x256, .f32⟩ : BufTy).Contents (Elt F)) :
    (⟨S256x256, .f32⟩ : BufTy).Contents (Elt F) :=
  addf (addf (mulf (spread0 w) A) (mulf (spread1 w) B)) (mulf (spread2 w) C)

section Fold

attribute [local irreducible] Host.reduce Host.reduceAdd Host.exp Host.divf concatenate broadcastInDim
  extractStridedSlice shapeCast mulf addf subf maximumf constant

set_option maxRecDepth 8192 in
set_option maxHeartbeats 1000000 in
/-- After the first host stretch the mixed-matrix buffer holds `wmat` of the weights and the three matrices: the
    fold unrolled, each operation's result read at its own buffer, the references' casts the identity. -/
theorem v48_eq (V : Valuation τ sig (Elt F)) :
    StableHlo.after hostOps0 V (main_v48 : DevRef τ sig)
      = wmat (wts (V main_arg4) (V main_arg5) (V main_arg6)) (V main_arg1) (V main_arg2) (V main_arg3) := by
  simp only [StableHlo.after_cons, StableHlo.after_nil]
  rfl

/-! No operation of the stretch writes an argument buffer: each argument is read back unchanged. -/

set_option maxRecDepth 8192 in
theorem hostOps0_keeps0 (V : Valuation τ sig (Elt F)) :
    StableHlo.after hostOps0 V (main_arg0 : DevRef τ sig) = V main_arg0 := by
  simp only [StableHlo.after_cons, StableHlo.after_nil]
  rfl

set_option maxRecDepth 8192 in
theorem hostOps0_keeps1 (V : Valuation τ sig (Elt F)) :
    StableHlo.after hostOps0 V (main_arg1 : DevRef τ sig) = V main_arg1 := by
  simp only [StableHlo.after_cons, StableHlo.after_nil]
  rfl

set_option maxRecDepth 8192 in
theorem hostOps0_keeps2 (V : Valuation τ sig (Elt F)) :
    StableHlo.after hostOps0 V (main_arg2 : DevRef τ sig) = V main_arg2 := by
  simp only [StableHlo.after_cons, StableHlo.after_nil]
  rfl

set_option maxRecDepth 8192 in
theorem hostOps0_keeps3 (V : Valuation τ sig (Elt F)) :
    StableHlo.after hostOps0 V (main_arg3 : DevRef τ sig) = V main_arg3 := by
  simp only [StableHlo.after_cons, StableHlo.after_nil]
  rfl

set_option maxRecDepth 8192 in
theorem hostOps0_keeps4 (V : Valuation τ sig (Elt F)) :
    StableHlo.after hostOps0 V (main_arg4 : DevRef τ sig) = V main_arg4 := by
  simp only [StableHlo.after_cons, StableHlo.after_nil]
  rfl

set_option maxRecDepth 8192 in
theorem hostOps0_keeps5 (V : Valuation τ sig (Elt F)) :
    StableHlo.after hostOps0 V (main_arg5 : DevRef τ sig) = V main_arg5 := by
  simp only [StableHlo.after_cons, StableHlo.after_nil]
  rfl

set_option maxRecDepth 8192 in
theorem hostOps0_keeps6 (V : Valuation τ sig (Elt F)) :
    StableHlo.after hostOps0 V (main_arg6 : DevRef τ sig) = V main_arg6 := by
  simp only [StableHlo.after_cons, StableHlo.after_nil]
  rfl

set_option maxRecDepth 8192 in
theorem hostOps0_keeps7 (V : Valuation τ sig (Elt F)) :
    StableHlo.after hostOps0 V (main_arg7 : DevRef τ sig) = V main_arg7 := by
  simp only [StableHlo.after_cons, StableHlo.after_nil]
  rfl

set_option maxRecDepth 8192 in
theorem hostOps0_keeps8 (V : Valuation τ sig (Elt F)) :
    StableHlo.after hostOps0 V (main_arg8 : DevRef τ sig) = V main_arg8 := by
  simp only [StableHlo.after_cons, StableHlo.after_nil]
  rfl

set_option maxRecDepth 8192 in
theorem hostOps0_keeps9 (V : Valuation τ sig (Elt F)) :
    StableHlo.after hostOps0 V (main_arg9 : DevRef τ sig) = V main_arg9 := by
  simp only [StableHlo.after_cons, StableHlo.after_nil]
  rfl

set_option maxRecDepth 8192 in
theorem hostOps0_keeps10 (V : Valuation τ sig (Elt F)) :
    StableHlo.after hostOps0 V (main_arg10 : DevRef τ sig) = V main_arg10 := by
  simp only [StableHlo.after_cons, StableHlo.after_nil]
  rfl

set_option maxRecDepth 8192 in
theorem hostOps0_keeps11 (V : Valuation τ sig (Elt F)) :
    StableHlo.after hostOps0 V (main_arg11 : DevRef τ sig) = V main_arg11 := by
  simp only [StableHlo.after_cons, StableHlo.after_nil]
  rfl

set_option maxRecDepth 8192 in
theorem hostOps0_keeps12 (V : Valuation τ sig (Elt F)) :
    StableHlo.after hostOps0 V (main_arg12 : DevRef τ sig) = V main_arg12 := by
  simp only [StableHlo.after_cons, StableHlo.after_nil]
  rfl

set_option maxRecDepth 8192 in
theorem hostOps0_keeps13 (V : Valuation τ sig (Elt F)) :
    StableHlo.after hostOps0 V (main_arg13 : DevRef τ sig) = V main_arg13 := by
  simp only [StableHlo.after_cons, StableHlo.after_nil]
  rfl

set_option maxRecDepth 8192 in
theorem hostOps0_keeps14 (V : Valuation τ sig (Elt F)) :
    StableHlo.after hostOps0 V (main_arg14 : DevRef τ sig) = V main_arg14 := by
  simp only [StableHlo.after_cons, StableHlo.after_nil]
  rfl

end Fold

end Cert.KernelIdeal.Weights
-- ==== Proof.KOut.lean ====
/-
  What the kernel program leaves in its result array, as one term of the fifteen argument arrays at launch: the row-wise
  layer norm of the averaged segment means of H, where H is the product of the features with the mixed weight matrix
  and the mixing weights are the nested softmax of the three logits; the scale and shift vectors enter as 1 x 256 rows.
  The term is read off the run's last buffer contents by walking back through the four stretches: the second call's
  result array is the layer norm of the three arrays it found; those are the second host stretch's terms of the first
  call's result and of the arguments; the first call's result is the product of the features and the first host stretch's
  mixed matrix.
-/
import proofs.«125390_j86715389706549_1_alg».proof.Proof.KRun
import proofs.«125390_j86715389706549_1_alg».proof.Proof.KValue0
import proofs.«125390_j86715389706549_1_alg».proof.Proof.KValue1
import proofs.«125390_j86715389706549_1_alg».proof.Proof.KTail
import proofs.«125390_j86715389706549_1_alg».proof.Proof.Weights

set_option maxRecDepth 16384

noncomputable section

namespace Cert.KernelIdeal.Out

open Cert.KernelIdeal Cert.KernelIdeal.Gen Cert.KernelIdeal.Run
open Idealize.ShloMosaic Idealize.ShloMosaic.TcCoe Idealize.ShloMosaic.ValueIdx
open Idealize.SL Idealize.SL.Sem

/-- The kernel program's result as a function of its arguments. -/
def outK (a0 : FVec Ideal S50000x256 .f32) (a1 a2 a3 : FVec Ideal S256x256 .f32) (a4 a5 a6 : FVec Ideal S1 .f32)
    (a7 a8 : FVec Ideal S256 .f32) (a9 a10 a11 a12 a13 a14 : IVec S400000 32) : S50000x256.Idx → EReal :=
  Val1.LN
    (Tail.agg (F := Ideal) (Val0.MM a0 (Weights.wmat (F := Ideal) (Weights.wts (F := Ideal) a4 a5 a6) a1 a2 a3)) a9 a10 a11 a12 a13 a14)
    (shapeCast S1x256 a7 shapeCasts_S256_S1x256) (shapeCast S1x256 a8 shapeCasts_S256_S1x256)

variable (m : (ℓ : Loc nD τ sig) → Buf (Elt Ideal) ℓ) (ρ : Dev nD → PrngReg)

/-- A buffer neither call's window nor written by the first host stretch is, after the first call, as launched. -/
theorem W2_arg (c : Dev nD) (r : Ref sig .tc) (h1 : ∀ w, Pipeline.arrRef spec0 w ≠ r) (h0 : r ∉ written0) :
    W2 m ρ c (Proc.devRef .tc r) = m ((c : Thread nD τ).loc r) :=
  (W2_of_ne m ρ c r h1).trans (keep0 _ r h0)

/-- The first call's result array: the product of the features with the mixed weight matrix. -/
theorem W2_prod (c : Dev nD) : W2 m ρ c (Proc.devRef .tc main_v49)
    = Val0.MM (m ((c : Thread nD τ).loc main_arg0)) (Weights.wmat (F := Ideal) (Weights.wts (F := Ideal) (m ((c : Thread nD τ).loc main_arg4)) (m ((c : Thread nD τ).loc main_arg5)) (m ((c : Thread nD τ).loc main_arg6))) (m ((c : Thread nD τ).loc main_arg1)) (m ((c : Thread nD τ).loc main_arg2)) (m ((c : Thread nD τ).loc main_arg3))) := by
  have e0 : V1 m ρ c main_arg0 = (m ((c : Thread nD τ).loc main_arg0)) := keep0 _ main_arg0 (by decide)
  have e48 : V1 m ρ c main_v48 = Weights.wmat (F := Ideal) (Weights.wts (F := Ideal) (m ((c : Thread nD τ).loc main_arg4)) (m ((c : Thread nD τ).loc main_arg5)) (m ((c : Thread nD τ).loc main_arg6))) (m ((c : Thread nD τ).loc main_arg1)) (m ((c : Thread nD τ).loc main_arg2)) (m ((c : Thread nD τ).loc main_arg3)) :=
    Weights.v48_eq (W0 m ρ c)
  refine ((W2_arr m ρ c 2).trans (Val0.final (V1 m ρ) c)).trans ?_
  rw [e0, e48]

/-- The result array at the end of the run. -/
theorem out_eq (c : Dev nD) : W4 m ρ c (Proc.devRef .tc main_v113)
    = outK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  have e110 : V3 m ρ c main_v110 = Tail.agg (F := Ideal) (W2 m ρ c (Proc.devRef .tc main_v49)) (W2 m ρ c (Proc.devRef .tc main_arg9)) (W2 m ρ c (Proc.devRef .tc main_arg10)) (W2 m ρ c (Proc.devRef .tc main_arg11)) (W2 m ρ c (Proc.devRef .tc main_arg12)) (W2 m ρ c (Proc.devRef .tc main_arg13)) (W2 m ρ c (Proc.devRef .tc main_arg14)) :=
    Tail.v110_eq (W2 m ρ c)
  have e111 : V3 m ρ c main_v111 = shapeCast S1x256 (W2 m ρ c (Proc.devRef .tc main_arg7)) shapeCasts_S256_S1x256 := Tail.v111_eq (W2 m ρ c)
  have e112 : V3 m ρ c main_v112 = shapeCast S1x256 (W2 m ρ c (Proc.devRef .tc main_arg8)) shapeCasts_S256_S1x256 := Tail.v112_eq (W2 m ρ c)
  refine ((W4_arr m ρ c 3).trans (Val1.final (V3 m ρ) c)).trans ?_
  rw [e110, e111, e112, W2_prod m ρ c,
    W2_arg m ρ c main_arg7 (by decide) (by decide), W2_arg m ρ c main_arg8 (by decide) (by decide),
    W2_arg m ρ c main_arg9 (by decide) (by decide), W2_arg m ρ c main_arg10 (by decide) (by decide),
    W2_arg m ρ c main_arg11 (by decide) (by decide), W2_arg m ρ c main_arg12 (by decide) (by decide),
    W2_arg m ρ c main_arg13 (by decide) (by decide), W2_arg m ρ c main_arg14 (by decide) (by decide)]
  rfl

end Cert.KernelIdeal.Out

end
-- ==== Proof.RefRun.lean ====
import proofs.«125390_j86715389706549_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The reference's operations, in four stretches

The reference is one straight line of tensor operations. It is listed here in four stretches, cut where the
mathematics cuts: the three mixing weights (a softmax of three one-element softmaxes, concatenated), the
weighted sum of the three matrix products, the three segment means (gather, scatter-add, division by the
clamped segment size) averaged, and the rectifier followed by the layer normalization over the last axis.
The three outlined functions (the rectifier, the variance, and the variance's select) are listed at their
call sites over the buffers of that call. -/

/-- The mixing weights: per logit a one-element softmax (maximum, subtraction, exponential, sum, division),
    the three results concatenated, and a softmax over the three. -/
abbrev opsWts : List (HloOp τ sig (Elt F)) :=
  [ nullary main_cst (constant S_ .f32 0xFF800000#32),
    binary main_arg4 main_cst main_v0 ((fun x v => Host.reduce FloatOps.maximumf x v reducesTo_S1_S_d0 h_S_) : (⟨S1, .f32⟩ : BufTy).Contents (Elt F) → (⟨S_, .f32⟩ : BufTy).Contents (Elt F) → (⟨S_, .f32⟩ : BufTy).Contents (Elt F)),
    nullary main_cst_0 (constant S_ .f32 0xFF800000#32),
    binary main_cst_0 main_v0 main_v1 (maximumf : (⟨S_, .f32⟩ : BufTy).Contents (Elt F) → (⟨S_, .f32⟩ : BufTy).Contents (Elt F) → (⟨S_, .f32⟩ : BufTy).Contents (Elt F)),
    unary main_v1 main_v2 (broadcastInDim S1 ![] bcast_S_S1 : (⟨S_, .f32⟩ : BufTy).Contents (Elt F) → (⟨S1, .f32⟩ : BufTy).Contents (Elt F)),
    binary main_arg4 main_v2 main_v3 (subf : (⟨S1, .f32⟩ : BufTy).Contents (Elt F) → (⟨S1, .f32⟩ : BufTy).Contents (Elt F) → (⟨S1, .f32⟩ : BufTy).Contents (Elt F)),
    unary main_v3 main_v4 (Host.exp : (⟨S1, .f32⟩ : BufTy).Contents (Elt F) → (⟨S1, .f32⟩ : BufTy).Contents (Elt F)),
    nullary main_cst_1 (constant S_ .f32 0x00000000#32),
    binary main_v4 main_cst_1 main_v5 ((fun x v => Host.reduceAdd x v reducesTo_S1_S_d0 h_S_) : (⟨S1, .f32⟩ : BufTy).Contents (Elt F) → (⟨S_, .f32⟩ : BufTy).Contents (Elt F) → (⟨S_, .f32⟩ : BufTy).Contents (Elt F)),
    unary main_v5 main_v6 (broadcastInDim S1 ![] bcast_S_S1 : (⟨S_, .f32⟩ : BufTy).Contents (Elt F) → (⟨S1, .f32⟩ : BufTy).Contents (Elt F)),
    binary main_v4 main_v6 main_v7 (Host.divf : (⟨S1, .f32⟩ : BufTy).Contents (Elt F) → (⟨S1, .f32⟩ : BufTy).Contents (Elt F) → (⟨S1, .f32⟩ : BufTy).Contents (Elt F)),
    nullary main_cst_2 (constant S_ .f32 0xFF800000#32),
    binary main_arg5 main_cst_2 main_v8 ((fun x v => Host.reduce FloatOps.maximumf x v reducesTo_S1_S_d0 h_S_) : (⟨S1, .f32⟩ : BufTy).Contents (Elt F) → (⟨S_, .f32⟩ : BufTy).Contents (Elt F) → (⟨S_, .f32⟩ : BufTy).Contents (Elt F)),
    nullary main_cst_3 (constant S_ .f32 0xFF800000#32),
    binary main_cst_3 main_v8 main_v9 (maximumf : (⟨S_, .f32⟩ : BufTy).Contents (Elt F) → (⟨S_, .f32⟩ : BufTy).Contents (Elt F) → (⟨S_, .f32⟩ : BufTy).Contents (Elt F)),
    unary main_v9 main_v10 (broadcastInDim S1 ![] bcast_S_S1 : (⟨S_, .f32⟩ : BufTy).Contents (Elt F) → (⟨S1, .f32⟩ : BufTy).Contents (Elt F)),
    binary main_arg5 main_v10 main_v11 (subf : (⟨S1, .f32⟩ : BufTy).Contents (Elt F) → (⟨S1, .f32⟩ : BufTy).Contents (Elt F) → (⟨S1, .f32⟩ : BufTy).Contents (Elt F)),
    unary main_v11 main_v12 (Host.exp : (⟨S1, .f32⟩ : BufTy).Contents (Elt F) → (⟨S1, .f32⟩ : BufTy).Contents (Elt F)),
    nullary main_cst_4 (constant S_ .f32 0x00000000#32),
    binary main_v12 main_cst_4 main_v13 ((fun x v => Host.reduceAdd x v reducesTo_S1_S_d0 h_S_) : (⟨S1, .f32⟩ : BufTy).Contents (Elt F) → (⟨S_, .f32⟩ : BufTy).Contents (Elt F) → (⟨S_, .f32⟩ : BufTy).Contents (Elt F)),
    unary main_v13 main_v14 (broadcastInDim S1 ![] bcast_S_S1 : (⟨S_, .f32⟩ : BufTy).Contents (Elt F) → (⟨S1, .f32⟩ : BufTy).Contents (Elt F)),
    binary main_v12 main_v14 main_v15 (Host.divf : (⟨S1, .f32⟩ : BufTy).Contents (Elt F) → (⟨S1, .f32⟩ : BufTy).Contents (Elt F) → (⟨S1, .f32⟩ : BufTy).Contents (Elt F)),
    nullary main_cst_5 (constant S_ .f32 0xFF800000#32),
    binary main_arg6 main_cst_5 main_v16 ((fun x v => Host.reduce FloatOps.maximumf x v reducesTo_S1_S_d0 h_S_) : (⟨S1, .f32⟩ : BufTy).Contents (Elt F) → (⟨S_, .f32⟩ : BufTy).Contents (Elt F) → (⟨S_, .f32⟩ : BufTy).Contents (Elt F)),
    nullary main_cst_6 (constant S_ .f32 0xFF800000#32),
    binary main_cst_6 main_v16 main_v17 (maximumf : (⟨S_, .f32⟩ : BufTy).Contents (Elt F) → (⟨S_, .f32⟩ : BufTy).Contents (Elt F) → (⟨S_, .f32⟩ : BufTy).Contents (Elt F)),
    unary main_v17 main_v18 (broadcastInDim S1 ![] bcast_S_S1 : (⟨S_, .f32⟩ : BufTy).Contents (Elt F) → (⟨S1, .f32⟩ : BufTy).Contents (Elt F)),
    binary main_arg6 main_v18 main_v19 (subf : (⟨S1, .f32⟩ : BufTy).Contents (Elt F) → (⟨S1, .f32⟩ : BufTy).Contents (Elt F) → (⟨S1, .f32⟩ : BufTy).Contents (Elt F)),
    unary main_v19 main_v20 (Host.exp : (⟨S1, .f32⟩ : BufTy).Contents (Elt F) → (⟨S1, .f32⟩ : BufTy).Contents (Elt F)),
    nullary main_cst_7 (constant S_ .f32 0x00000000#32),
    binary main_v20 main_cst_7 main_v21 ((fun x v => Host.reduceAdd x v reducesTo_S1_S_d0 h_S_) : (⟨S1, .f32⟩ : BufTy).Contents (Elt F) → (⟨S_, .f32⟩ : BufTy).Contents (Elt F) → (⟨S_, .f32⟩ : BufTy).Contents (Elt F)),
    unary main_v21 main_v22 (broadcastInDim S1 ![] bcast_S_S1 : (⟨S_, .f32⟩ : BufTy).Contents (Elt F) → (⟨S1, .f32⟩ : BufTy).Contents (Elt F)),
    binary main_v20 main_v22 main_v23 (Host.divf : (⟨S1, .f32⟩ : BufTy).Contents (Elt F) → (⟨S1, .f32⟩ : BufTy).Contents (Elt F) → (⟨S1, .f32⟩ : BufTy).Contents (Elt F)),
    nary ![main_v7, main_v15, main_v23] main_v24 (fun u => concatenate S3 0 [⟨S1, u 0⟩, ⟨S1, u 1⟩, ⟨S1, u 2⟩] concatenates_S1_S1_S1_S3_d0),
    nullary main_cst_8 (constant S_ .f32 0xFF800000#32),
    binary main_v24 main_cst_8 main_v25 ((fun x v => Host.reduce FloatOps.maximumf x v reducesTo_S3_S_d0 h_S_) : (⟨S3, .f32⟩ : BufTy).Contents (Elt F) → (⟨S_, .f32⟩ : BufTy).Contents (Elt F) → (⟨S_, .f32⟩ : BufTy).Contents (Elt F)),
    nullary main_cst_9 (constant S_ .f32 0xFF800000#32),
    binary main_cst_9 main_v25 main_v26 (maximumf : (⟨S_, .f32⟩ : BufTy).Contents (Elt F) → (⟨S_, .f32⟩ : BufTy).Contents (Elt F) → (⟨S_, .f32⟩ : BufTy).Contents (Elt F)),
    unary main_v26 main_v27 (broadcastInDim S1 ![] bcast_S_S1 : (⟨S_, .f32⟩ : BufTy).Contents (Elt F) → (⟨S1, .f32⟩ : BufTy).Contents (Elt F)),
    unary main_v27 main_v28 (broadcastInDim S3 ![0] bcast_S1_S3_0 : (⟨S1, .f32⟩ : BufTy).Contents (Elt F) → (⟨S3, .f32⟩ : BufTy).Contents (Elt F)),
    binary main_v24 main_v28 main_v29 (subf : (⟨S3, .f32⟩ : BufTy).Contents (Elt F) → (⟨S3, .f32⟩ : BufTy).Contents (Elt F) → (⟨S3, .f32⟩ : BufTy).Contents (Elt F)),
    unary main_v29 main_v30 (Host.exp : (⟨S3, .f32⟩ : BufTy).Contents (Elt F) → (⟨S3, .f32⟩ : BufTy).Contents (Elt F)),
    nullary main_cst_10 (constant S_ .f32 0x00000000#32),
    binary main_v30 main_cst_10 main_v31 ((fun x v => Host.reduceAdd x v reducesTo_S3_S_d0 h_S_) : (⟨S3, .f32⟩ : BufTy).Contents (Elt F) → (⟨S_, .f32⟩ : BufTy).Contents (Elt F) → (⟨S_, .f32⟩ : BufTy).Contents (Elt F)),
    unary main_v31 main_v32 (broadcastInDim S1 ![] bcast_S_S1 : (⟨S_, .f32⟩ : BufTy).Contents (Elt F) → (⟨S1, .f32⟩ : BufTy).Contents (Elt F)),
    unary main_v32 main_v33 (broadcastInDim S3 ![0] bcast_S1_S3_0 : (⟨S1, .f32⟩ : BufTy).Contents (Elt F) → (⟨S3, .f32⟩ : BufTy).Contents (Elt F)),
    binary main_v30 main_v33 main_v34 (Host.divf : (⟨S3, .f32⟩ : BufTy).Contents (Elt F) → (⟨S3, .f32⟩ : BufTy).Contents (Elt F) → (⟨S3, .f32⟩ : BufTy).Contents (Elt F)) ]

/-- The mix: each weight sliced out and broadcast, times the matrix product of the features with that
    weight's matrix; the three products added. -/
abbrev opsMix : List (HloOp τ sig (Elt F)) :=
  [ unary main_v34 main_v35 ((extractStridedSlice S1 ![0] · slices_S3_S1_0) : (⟨S3, .f32⟩ : BufTy).Contents (Elt F) → (⟨S1, .f32⟩ : BufTy).Contents (Elt F)),
    reshape main_v35 main_v36 rfl shapeCasts_S1_S_,
    binary main_arg0 main_arg1 main_v37 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_v36 main_v38 (broadcastInDim S50000x256 ![] bcast_S_S50000x256 : (⟨S_, .f32⟩ : BufTy).Contents (Elt F) → (⟨S50000x256, .f32⟩ : BufTy).Contents (Elt F)),
    binary main_v38 main_v37 main_v39 (mulf : (⟨S50000x256, .f32⟩ : BufTy).Contents (Elt F) → (⟨S50000x256, .f32⟩ : BufTy).Contents (Elt F) → (⟨S50000x256, .f32⟩ : BufTy).Contents (Elt F)),
    unary main_v34 main_v40 ((extractStridedSlice S1 ![1] · slices_S3_S1_1) : (⟨S3, .f32⟩ : BufTy).Contents (Elt F) → (⟨S1, .f32⟩ : BufTy).Contents (Elt F)),
    reshape main_v40 main_v41 rfl shapeCasts_S1_S_,
    binary main_arg0 main_arg2 main_v42 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_v41 main_v43 (broadcastInDim S50000x256 ![] bcast_S_S50000x256 : (⟨S_, .f32⟩ : BufTy).Contents (Elt F) → (⟨S50000x256, .f32⟩ : BufTy).Contents (Elt F)),
    binary main_v43 main_v42 main_v44 (mulf : (⟨S50000x256, .f32⟩ : BufTy).Contents (Elt F) → (⟨S50000x256, .f32⟩ : BufTy).Contents (Elt F) → (⟨S50000x256, .f32⟩ : BufTy).Contents (Elt F)),
    binary main_v39 main_v44 main_v45 (addf : (⟨S50000x256, .f32⟩ : BufTy).Contents (Elt F) → (⟨S50000x256, .f32⟩ : BufTy).Contents (Elt F) → (⟨S50000x256, .f32⟩ : BufTy).Contents (Elt F)),
    unary main_v34 main_v46 ((extractStridedSlice S1 ![2] · slices_S3_S1_2) : (⟨S3, .f32⟩ : BufTy).Contents (Elt F) → (⟨S1, .f32⟩ : BufTy).Contents (Elt F)),
    reshape main_v46 main_v47 rfl shapeCasts_S1_S_,
    binary main_arg0 main_arg3 main_v48 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_v47 main_v49 (broadcastInDim S50000x256 ![] bcast_S_S50000x256 : (⟨S_, .f32⟩ : BufTy).Contents (Elt F) → (⟨S50000x256, .f32⟩ : BufTy).Contents (Elt F)),
    binary main_v49 main_v48 main_v50 (mulf : (⟨S50000x256, .f32⟩ : BufTy).Contents (Elt F) → (⟨S50000x256, .f32⟩ : BufTy).Contents (Elt F) → (⟨S50000x256, .f32⟩ : BufTy).Contents (Elt F)),
    binary main_v45 main_v50 main_v51 (addf : (⟨S50000x256, .f32⟩ : BufTy).Contents (Elt F) → (⟨S50000x256, .f32⟩ : BufTy).Contents (Elt F) → (⟨S50000x256, .f32⟩ : BufTy).Contents (Elt F)) ]

/-- The three segment means, averaged: per relation the source indices wrapped into range, the rows
    gathered, scatter-added at the destination indices, and divided by the segment size (a scatter-add of
    ones) clamped below by one; the three means added and divided by three. -/
abbrev opsAgg : List (HloOp τ sig (Elt F)) :=
  [ nullary main_c (constantI S_ 32 0#32),
    unary main_c main_v52 (broadcastInDim S400000 ![] bcast_S_S400000 : (⟨S_, .i32⟩ : BufTy).Contents (Elt F) → (⟨S400000, .i32⟩ : BufTy).Contents (Elt F)),
    binary main_arg9 main_v52 main_v53 (cmpi .slt : (⟨S400000, .i32⟩ : BufTy).Contents (Elt F) → (⟨S400000, .i32⟩ : BufTy).Contents (Elt F) → (⟨S400000, .i1⟩ : BufTy).Contents (Elt F)),
    nullary main_c_11 (constantI S_ 32 50000#32),
    unary main_c_11 main_v54 (broadcastInDim S400000 ![] bcast_S_S400000 : (⟨S_, .i32⟩ : BufTy).Contents (Elt F) → (⟨S400000, .i32⟩ : BufTy).Contents (Elt F)),
    binary main_arg9 main_v54 main_v55 (addi : (⟨S400000, .i32⟩ : BufTy).Contents (Elt F) → (⟨S400000, .i32⟩ : BufTy).Contents (Elt F) → (⟨S400000, .i32⟩ : BufTy).Contents (Elt F)),
    ternary main_v53 main_v55 main_arg9 main_v56 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v56 main_v57 (broadcastInDim S400000x1 ![0] bcast_S400000_S400000x1_0 : (⟨S400000, .i32⟩ : BufTy).Contents (Elt F) → (⟨S400000x1, .i32⟩ : BufTy).Contents (Elt F)),
    binary main_v51 main_v57 main_v58 ((fun x i => Host.gather gather_S50000x256_S400000x1_S400000x256_1_0_n_n_0_1_1256 x i) : (⟨S50000x256, .f32⟩ : BufTy).Contents (Elt F) → (⟨S400000x1, .i32⟩ : BufTy).Contents (Elt F) → (⟨S400000x256, .f32⟩ : BufTy).Contents (Elt F)),
    nullary main_cst_12 (constant S_ .f32 0x00000000#32),
    unary main_cst_12 main_v59 (broadcastInDim S50000x256 ![] bcast_S_S50000x256 : (⟨S_, .f32⟩ : BufTy).Contents (Elt F) → (⟨S50000x256, .f32⟩ : BufTy).Contents (Elt F)),
    unary main_arg10 main_v60 (broadcastInDim S400000x1 ![0] bcast_S400000_S400000x1_0 : (⟨S400000, .i32⟩ : BufTy).Contents (Elt F) → (⟨S400000x1, .i32⟩ : BufTy).Contents (Elt F)),
    ternary main_v59 main_v60 main_v58 main_v61 ((fun x i u => Host.scatterAdd scatter_S50000x256_S400000x1_S400000x256_1_0_0_1 x i u) : (⟨S50000x256, .f32⟩ : BufTy).Contents (Elt F) → (⟨S400000x1, .i32⟩ : BufTy).Contents (Elt F) → (⟨S400000x256, .f32⟩ : BufTy).Contents (Elt F) → (⟨S50000x256, .f32⟩ : BufTy).Contents (Elt F)),
    nullary main_cst_13 (constant S_ .f32 0x3F800000#32),
    unary main_cst_13 main_v62 (broadcastInDim S400000 ![] bcast_S_S400000 : (⟨S_, .f32⟩ : BufTy).Contents (Elt F) → (⟨S400000, .f32⟩ : BufTy).Contents (Elt F)),
    nullary main_cst_14 (constant S_ .f32 0x00000000#32),
    unary main_cst_14 main_v63 (broadcastInDim S50000 ![] bcast_S_S50000 : (⟨S_, .f32⟩ : BufTy).Contents (Elt F) → (⟨S50000, .f32⟩ : BufTy).Contents (Elt F)),
    unary main_arg10 main_v64 (broadcastInDim S400000x1 ![0] bcast_S400000_S400000x1_0 : (⟨S400000, .i32⟩ : BufTy).Contents (Elt F) → (⟨S400000x1, .i32⟩ : BufTy).Contents (Elt F)),
    ternary main_v63 main_v64 main_v62 main_v65 ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)),
    nullary main_cst_15 (constant S_ .f32 0x3F800000#32),
    unary main_cst_15 main_v66 (broadcastInDim S50000 ![] bcast_S_S50000 : (⟨S_, .f32⟩ : BufTy).Contents (Elt F) → (⟨S50000, .f32⟩ : BufTy).Contents (Elt F)),
    binary main_v65 main_v66 main_v67 (maximumf : (⟨S50000, .f32⟩ : BufTy).Contents (Elt F) → (⟨S50000, .f32⟩ : BufTy).Contents (Elt F) → (⟨S50000, .f32⟩ : BufTy).Contents (Elt F)),
    unary main_v67 main_v68 (broadcastInDim S50000x1 ![0] bcast_S50000_S50000x1_0 : (⟨S50000, .f32⟩ : BufTy).Contents (Elt F) → (⟨S50000x1, .f32⟩ : BufTy).Contents (Elt F)),
    unary main_v68 main_v69 (broadcastInDim S50000x256 ![0, 1] bcast_S50000x1_S50000x256_0_1 : (⟨S50000x1, .f32⟩ : BufTy).Contents (Elt F) → (⟨S50000x256, .f32⟩ : BufTy).Contents (Elt F)),
    binary main_v61 main_v69 main_v70 (Host.divf : (⟨S50000x256, .f32⟩ : BufTy).Contents (Elt F) → (⟨S50000x256, .f32⟩ : BufTy).Contents (Elt F) → (⟨S50000x256, .f32⟩ : BufTy).Contents (Elt F)),
    nullary main_c_16 (constantI S_ 32 0#32),
    unary main_c_16 main_v71 (broadcastInDim S400000 ![] bcast_S_S400000 : (⟨S_, .i32⟩ : BufTy).Contents (Elt F) → (⟨S400000, .i32⟩ : BufTy).Contents (Elt F)),
    binary main_arg11 main_v71 main_v72 (cmpi .slt : (⟨S400000, .i32⟩ : BufTy).Contents (Elt F) → (⟨S400000, .i32⟩ : BufTy).Contents (Elt F) → (⟨S400000, .i1⟩ : BufTy).Contents (Elt F)),
    nullary main_c_17 (constantI S_ 32 50000#32),
    unary main_c_17 main_v73 (broadcastInDim S400000 ![] bcast_S_S400000 : (⟨S_, .i32⟩ : BufTy).Contents (Elt F) → (⟨S400000, .i32⟩ : BufTy).Contents (Elt F)),
    binary main_arg11 main_v73 main_v74 (addi : (⟨S400000, .i32⟩ : BufTy).Contents (Elt F) → (⟨S400000, .i32⟩ : BufTy).Contents (Elt F) → (⟨S400000, .i32⟩ : BufTy).Contents (Elt F)),
    ternary main_v72 main_v74 main_arg11 main_v75 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v75 main_v76 (broadcastInDim S400000x1 ![0] bcast_S400000_S400000x1_0 : (⟨S400000, .i32⟩ : BufTy).Contents (Elt F) → (⟨S400000x1, .i32⟩ : BufTy).Contents (Elt F)),
    binary main_v51 main_v76 main_v77 ((fun x i => Host.gather gather_S50000x256_S400000x1_S400000x256_1_0_n_n_0_1_1256 x i) : (⟨S50000x256, .f32⟩ : BufTy).Contents (Elt F) → (⟨S400000x1, .i32⟩ : BufTy).Contents (Elt F) → (⟨S400000x256, .f32⟩ : BufTy).Contents (Elt F)),
    nullary main_cst_18 (constant S_ .f32 0x00000000#32),
    unary main_cst_18 main_v78 (broadcastInDim S50000x256 ![] bcast_S_S50000x256 : (⟨S_, .f32⟩ : BufTy).Contents (Elt F) → (⟨S50000x256, .f32⟩ : BufTy).Contents (Elt F)),
    unary main_arg12 main_v79 (broadcastInDim S400000x1 ![0] bcast_S400000_S400000x1_0 : (⟨S400000, .i32⟩ : BufTy).Contents (Elt F) → (⟨S400000x1, .i32⟩ : BufTy).Contents (Elt F)),
    ternary main_v78 main_v79 main_v77 main_v80 ((fun x i u => Host.scatterAdd scatter_S50000x256_S400000x1_S400000x256_1_0_0_1 x i u) : (⟨S50000x256, .f32⟩ : BufTy).Contents (Elt F) → (⟨S400000x1, .i32⟩ : BufTy).Contents (Elt F) → (⟨S400000x256, .f32⟩ : BufTy).Contents (Elt F) → (⟨S50000x256, .f32⟩ : BufTy).Contents (Elt F)),
    nullary main_cst_19 (constant S_ .f32 0x3F800000#32),
    unary main_cst_19 main_v81 (broadcastInDim S400000 ![] bcast_S_S400000 : (⟨S_, .f32⟩ : BufTy).Contents (Elt F) → (⟨S400000, .f32⟩ : BufTy).Contents (Elt F)),
    nullary main_cst_20 (constant S_ .f32 0x00000000#32),
    unary main_cst_20 main_v82 (broadcastInDim S50000 ![] bcast_S_S50000 : (⟨S_, .f32⟩ : BufTy).Contents (Elt F) → (⟨S50000, .f32⟩ : BufTy).Contents (Elt F)),
    unary main_arg12 main_v83 (broadcastInDim S400000x1 ![0] bcast_S400000_S400000x1_0 : (⟨S400000, .i32⟩ : BufTy).Contents (Elt F) → (⟨S400000x1, .i32⟩ : BufTy).Contents (Elt F)),
    ternary main_v82 main_v83 main_v81 main_v84 ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)),
    nullary main_cst_21 (constant S_ .f32 0x3F800000#32),
    unary main_cst_21 main_v85 (broadcastInDim S50000 ![] bcast_S_S50000 : (⟨S_, .f32⟩ : BufTy).Contents (Elt F) → (⟨S50000, .f32⟩ : BufTy).Contents (Elt F)),
    binary main_v84 main_v85 main_v86 (maximumf : (⟨S50000, .f32⟩ : BufTy).Contents (Elt F) → (⟨S50000, .f32⟩ : BufTy).Contents (Elt F) → (⟨S50000, .f32⟩ : BufTy).Contents (Elt F)),
    unary main_v86 main_v87 (broadcastInDim S50000x1 ![0] bcast_S50000_S50000x1_0 : (⟨S50000, .f32⟩ : BufTy).Contents (Elt F) → (⟨S50000x1, .f32⟩ : BufTy).Contents (Elt F)),
    unary main_v87 main_v88 (broadcastInDim S50000x256 ![0, 1] bcast_S50000x1_S50000x256_0_1 : (⟨S50000x1, .f32⟩ : BufTy).Contents (Elt F) → (⟨S50000x256, .f32⟩ : BufTy).Contents (Elt F)),
    binary main_v80 main_v88 main_v89 (Host.divf : (⟨S50000x256, .f32⟩ : BufTy).Contents (Elt F) → (⟨S50000x256, .f32⟩ : BufTy).Contents (Elt F) → (⟨S50000x256, .f32⟩ : BufTy).Contents (Elt F)),
    binary main_v70 main_v89 main_v90 (addf : (⟨S50000x256, .f32⟩ : BufTy).Contents (Elt F) → (⟨S50000x256, .f32⟩ : BufTy).Contents (Elt F) → (⟨S50000x256, .f32⟩ : BufTy).Contents (Elt F)),
    nullary main_c_22 (constantI S_ 32 0#32),
    unary main_c_22 main_v91 (broadcastInDim S400000 ![] bcast_S_S400000 : (⟨S_, .i32⟩ : BufTy).Contents (Elt F) → (⟨S400000, .i32⟩ : BufTy).Contents (Elt F)),
    binary main_arg13 main_v91 main_v92 (cmpi .slt : (⟨S400000, .i32⟩ : BufTy).Contents (Elt F) → (⟨S400000, .i32⟩ : BufTy).Contents (Elt F) → (⟨S400000, .i1⟩ : BufTy).Contents (Elt F)),
    nullary main_c_23 (constantI S_ 32 50000#32),
    unary main_c_23 main_v93 (broadcastInDim S400000 ![] bcast_S_S400000 : (⟨S_, .i32⟩ : BufTy).Contents (Elt F) → (⟨S400000, .i32⟩ : BufTy).Contents (Elt F)),
    binary main_arg13 main_v93 main_v94 (addi : (⟨S400000, .i32⟩ : BufTy).Contents (Elt F) → (⟨S400000, .i32⟩ : BufTy).Contents (Elt F) → (⟨S400000, .i32⟩ : BufTy).Contents (Elt F)),
    ternary main_v92 main_v94 main_arg13 main_v95 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v95 main_v96 (broadcastInDim S400000x1 ![0] bcast_S400000_S400000x1_0 : (⟨S400000, .i32⟩ : BufTy).Contents (Elt F) → (⟨S400000x1, .i32⟩ : BufTy).Contents (Elt F)),
    binary main_v51 main_v96 main_v97 ((fun x i => Host.gather gather_S50000x256_S400000x1_S400000x256_1_0_n_n_0_1_1256 x i) : (⟨S50000x256, .f32⟩ : BufTy).Contents (Elt F) → (⟨S400000x1, .i32⟩ : BufTy).Contents (Elt F) → (⟨S400000x256, .f32⟩ : BufTy).Contents (Elt F)),
    nullary main_cst_24 (constant S_ .f32 0x00000000#32),
    unary main_cst_24 main_v98 (broadcastInDim S50000x256 ![] bcast_S_S50000x256 : (⟨S_, .f32⟩ : BufTy).Contents (Elt F) → (⟨S50000x256, .f32⟩ : BufTy).Contents (Elt F)),
    unary main_arg14 main_v99 (broadcastInDim S400000x1 ![0] bcast_S400000_S400000x1_0 : (⟨S400000, .i32⟩ : BufTy).Contents (Elt F) → (⟨S400000x1, .i32⟩ : BufTy).Contents (Elt F)),
    ternary main_v98 main_v99 main_v97 main_v100 ((fun x i u => Host.scatterAdd scatter_S50000x256_S400000x1_S400000x256_1_0_0_1 x i u) : (⟨S50000x256, .f32⟩ : BufTy).Contents (Elt F) → (⟨S400000x1, .i32⟩ : BufTy).Contents (Elt F) → (⟨S400000x256, .f32⟩ : BufTy).Contents (Elt F) → (⟨S50000x256, .f32⟩ : BufTy).Contents (Elt F)),
    nullary main_cst_25 (constant S_ .f32 0x3F800000#32),
    unary main_cst_25 main_v101 (broadcastInDim S400000 ![] bcast_S_S400000 : (⟨S_, .f32⟩ : BufTy).Contents (Elt F) → (⟨S400000, .f32⟩ : BufTy).Contents (Elt F)),
    nullary main_cst_26 (constant S_ .f32 0x00000000#32),
    unary main_cst_26 main_v102 (broadcastInDim S50000 ![] bcast_S_S50000 : (⟨S_, .f32⟩ : BufTy).Contents (Elt F) → (⟨S50000, .f32⟩ : BufTy).Contents (Elt F)),
    unary main_arg14 main_v103 (broadcastInDim S400000x1 ![0] bcast_S400000_S400000x1_0 : (⟨S400000, .i32⟩ : BufTy).Contents (Elt F) → (⟨S400000x1, .i32⟩ : BufTy).Contents (Elt F)),
    ternary main_v102 main_v103 main_v101 main_v104 ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)),
    nullary main_cst_27 (constant S_ .f32 0x3F800000#32),
    unary main_cst_27 main_v105 (broadcastInDim S50000 ![] bcast_S_S50000 : (⟨S_, .f32⟩ : BufTy).Contents (Elt F) → (⟨S50000, .f32⟩ : BufTy).Contents (Elt F)),
    binary main_v104 main_v105 main_v106 (maximumf : (⟨S50000, .f32⟩ : BufTy).Contents (Elt F) → (⟨S50000, .f32⟩ : BufTy).Contents (Elt F) → (⟨S50000, .f32⟩ : BufTy).Contents (Elt F)),
    unary main_v106 main_v107 (broadcastInDim S50000x1 ![0] bcast_S50000_S50000x1_0 : (⟨S50000, .f32⟩ : BufTy).Contents (Elt F) → (⟨S50000x1, .f32⟩ : BufTy).Contents (Elt F)),
    unary main_v107 main_v108 (broadcastInDim S50000x256 ![0, 1] bcast_S50000x1_S50000x256_0_1 : (⟨S50000x1, .f32⟩ : BufTy).Contents (Elt F) → (⟨S50000x256, .f32⟩ : BufTy).Contents (Elt F)),
    binary main_v100 main_v108 main_v109 (Host.divf : (⟨S50000x256, .f32⟩ : BufTy).Contents (Elt F) → (⟨S50000x256, .f32⟩ : BufTy).Contents (Elt F) → (⟨S50000x256, .f32⟩ : BufTy).Contents (Elt F)),
    binary main_v90 main_v109 main_v110 (addf : (⟨S50000x256, .f32⟩ : BufTy).Contents (Elt F) → (⟨S50000x256, .f32⟩ : BufTy).Contents (Elt F) → (⟨S50000x256, .f32⟩ : BufTy).Contents (Elt F)),
    nullary main_cst_28 (constant S_ .f32 0x40400000#32),
    unary main_cst_28 main_v111 (broadcastInDim S50000x256 ![] bcast_S_S50000x256 : (⟨S_, .f32⟩ : BufTy).Contents (Elt F) → (⟨S50000x256, .f32⟩ : BufTy).Contents (Elt F)),
    binary main_v110 main_v111 main_v112 (Host.divf : (⟨S50000x256, .f32⟩ : BufTy).Contents (Elt F) → (⟨S50000x256, .f32⟩ : BufTy).Contents (Elt F) → (⟨S50000x256, .f32⟩ : BufTy).Contents (Elt F)) ]

/-- The rectifier (maximum with zero), then the layer normalization over the last axis: the mean, the
    variance (the outlined function: mean of the squared deviations, divided by the count minus the
    correction, selected against a not-a-number when that divisor is not positive), the reciprocal square
    root of the variance plus epsilon, scale and shift. -/
abbrev opsNorm : List (HloOp τ sig (Elt F)) :=
  [ TRef.nullary main_call0.cst (constant S_ .f32 0x00000000#32),
    TRef.unary main_call0.cst main_call0.v0 (broadcastInDim S50000x256 ![] bcast_S_S50000x256),
    TRef.binary (.of main_v112 : TRef sig ⟨S50000x256, .f32⟩) main_call0.v0 main_call0.v1 maximumf,
    nullary main_cst_29 (constant S_ .f32 0x00000000#32),
    binary main_v113 main_cst_29 main_v114 ((fun x v => Host.reduceAdd x v reducesTo_S50000x256_S50000_d1 h_S_) : (⟨S50000x256, .f32⟩ : BufTy).Contents (Elt F) → (⟨S_, .f32⟩ : BufTy).Contents (Elt F) → (⟨S50000, .f32⟩ : BufTy).Contents (Elt F)),
    unary main_v114 main_v115 (broadcastInDim S50000x1 ![0] bcast_S50000_S50000x1_0 : (⟨S50000, .f32⟩ : BufTy).Contents (Elt F) → (⟨S50000x1, .f32⟩ : BufTy).Contents (Elt F)),
    nullary main_cst_30 (constant S_ .f32 0x43800000#32),
    unary main_cst_30 main_v116 (broadcastInDim S50000x1 ![] bcast_S_S50000x1 : (⟨S_, .f32⟩ : BufTy).Contents (Elt F) → (⟨S50000x1, .f32⟩ : BufTy).Contents (Elt F)),
    binary main_v115 main_v116 main_v117 (Host.divf : (⟨S50000x1, .f32⟩ : BufTy).Contents (Elt F) → (⟨S50000x1, .f32⟩ : BufTy).Contents (Elt F) → (⟨S50000x1, .f32⟩ : BufTy).Contents (Elt F)),
    nullary main_c_31 (constantI S_ 32 0#32),
    TRef.nullary main_call1.cst (constant S_ .f32 0x00000000#32),
    TRef.binary (.of main_v113 : TRef sig ⟨S50000x256, .f32⟩) main_call1.cst main_call1.v0 (fun x v => Host.reduceAdd x v reducesTo_S50000x256_S50000_d1 h_S_),
    TRef.unary main_call1.v0 main_call1.v1 (broadcastInDim S50000x1 ![0] bcast_S50000_S50000x1_0),
    TRef.nullary main_call1.cst_0 (constant S_ .f32 0x43800000#32),
    TRef.unary main_call1.cst_0 main_call1.v2 (broadcastInDim S50000x1 ![] bcast_S_S50000x1),
    TRef.binary main_call1.v1 main_call1.v2 main_call1.v3 Host.divf,
    TRef.unary main_call1.v3 main_call1.v4 (broadcastInDim S50000x256 ![0, 1] bcast_S50000x1_S50000x256_0_1),
    TRef.binary (.of main_v113 : TRef sig ⟨S50000x256, .f32⟩) main_call1.v4 main_call1.v5 subf,
    TRef.binary main_call1.v5 main_call1.v5 main_call1.v6 mulf,
    TRef.unary (.of main_c_31 : TRef sig ⟨S_, .i32⟩) main_call1.v7 (sitofp .f32),
    TRef.nullary main_call1.cst_1 (constant S_ .f32 0x43800000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S50000x256_S50000_d1 h_S_),
    TRef.unary main_call1.v9 main_call1.v10 (broadcastInDim S50000x1 ![0] bcast_S50000_S50000x1_0),
    TRef.unary main_call1.v8 main_call1.v11 (broadcastInDim S50000x1 ![] bcast_S_S50000x1),
    TRef.binary main_call1.v10 main_call1.v11 main_call1.v12 Host.divf,
    TRef.nullary main_call1.cst_3 (constant S_ .f32 0x00000000#32),
    TRef.binary main_call1.v8 main_call1.cst_3 main_call1.v13 (cmpf .ogt),
    TRef.nullary main_call1.cst_4 (constant S_ .f32 0x7FC00000#32),
    TRef.unary main_call1.cst_4 main_call1.call0.v0 id,
    TRef.unary main_call1.call0.v0 main_call1.call0.v1 (broadcastInDim S50000x1 ![] bcast_S_S50000x1),
    TRef.ternary main_call1.v13 main_call1.v12 main_call1.call0.v1 main_call1.call0.v2 (fun p a b => select (broadcastInDim S50000x1 ![] bcast_S_S50000x1 p) a b),
    unary main_v117 main_v119 (broadcastInDim S50000x256 ![0, 1] bcast_S50000x1_S50000x256_0_1 : (⟨S50000x1, .f32⟩ : BufTy).Contents (Elt F) → (⟨S50000x256, .f32⟩ : BufTy).Contents (Elt F)),
    binary main_v113 main_v119 main_v120 (subf : (⟨S50000x256, .f32⟩ : BufTy).Contents (Elt F) → (⟨S50000x256, .f32⟩ : BufTy).Contents (Elt F) → (⟨S50000x256, .f32⟩ : BufTy).Contents (Elt F)),
    nullary main_cst_32 (constant S_ .f32 0x3727C5AC#32),
    unary main_cst_32 main_v121 (broadcastInDim S50000x1 ![] bcast_S_S50000x1 : (⟨S_, .f32⟩ : BufTy).Contents (Elt F) → (⟨S50000x1, .f32⟩ : BufTy).Contents (Elt F)),
    binary main_v118 main_v121 main_v122 (addf : (⟨S50000x1, .f32⟩ : BufTy).Contents (Elt F) → (⟨S50000x1, .f32⟩ : BufTy).Contents (Elt F) → (⟨S50000x1, .f32⟩ : BufTy).Contents (Elt F)),
    unary main_v122 main_v123 (Host.rsqrt : (⟨S50000x1, .f32⟩ : BufTy).Contents (Elt F) → (⟨S50000x1, .f32⟩ : BufTy).Contents (Elt F)),
    unary main_v123 main_v124 (broadcastInDim S50000x256 ![0, 1] bcast_S50000x1_S50000x256_0_1 : (⟨S50000x1, .f32⟩ : BufTy).Contents (Elt F) → (⟨S50000x256, .f32⟩ : BufTy).Contents (Elt F)),
    binary main_v120 main_v124 main_v125 (mulf : (⟨S50000x256, .f32⟩ : BufTy).Contents (Elt F) → (⟨S50000x256, .f32⟩ : BufTy).Contents (Elt F) → (⟨S50000x256, .f32⟩ : BufTy).Contents (Elt F)),
    unary main_arg7 main_v126 (broadcastInDim S1x256 ![1] bcast_S256_S1x256_1 : (⟨S256, .f32⟩ : BufTy).Contents (Elt F) → (⟨S1x256, .f32⟩ : BufTy).Contents (Elt F)),
    unary main_v126 main_v127 (broadcastInDim S50000x256 ![0, 1] bcast_S1x256_S50000x256_0_1 : (⟨S1x256, .f32⟩ : BufTy).Contents (Elt F) → (⟨S50000x256, .f32⟩ : BufTy).Contents (Elt F)),
    binary main_v125 main_v127 main_v128 (mulf : (⟨S50000x256, .f32⟩ : BufTy).Contents (Elt F) → (⟨S50000x256, .f32⟩ : BufTy).Contents (Elt F) → (⟨S50000x256, .f32⟩ : BufTy).Contents (Elt F)),
    unary main_arg8 main_v129 (broadcastInDim S1x256 ![1] bcast_S256_S1x256_1 : (⟨S256, .f32⟩ : BufTy).Contents (Elt F) → (⟨S1x256, .f32⟩ : BufTy).Contents (Elt F)),
    unary main_v129 main_v130 (broadcastInDim S50000x256 ![0, 1] bcast_S1x256_S50000x256_0_1 : (⟨S1x256, .f32⟩ : BufTy).Contents (Elt F) → (⟨S50000x256, .f32⟩ : BufTy).Contents (Elt F)),
    binary main_v128 main_v130 main_v131 (addf : (⟨S50000x256, .f32⟩ : BufTy).Contents (Elt F) → (⟨S50000x256, .f32⟩ : BufTy).Contents (Elt F) → (⟨S50000x256, .f32⟩ : BufTy).Contents (Elt F)) ]

/-- All of the reference's operations, in order. -/
abbrev ops : List (HloOp τ sig (Elt F)) := opsWts ++ (opsMix ++ (opsAgg ++ opsNorm))

theorem opsWts_sub : (opsWts : List (HloOp τ sig (Elt F))).Forall fun op => op.bufs ⊆ tcRefs τ sig :=
  ⟨nullary_bufs_sub .., binary_bufs_sub .., nullary_bufs_sub .., binary_bufs_sub .., unary_bufs_sub .., binary_bufs_sub ..,
    unary_bufs_sub .., nullary_bufs_sub .., binary_bufs_sub .., unary_bufs_sub .., binary_bufs_sub .., nullary_bufs_sub ..,
    binary_bufs_sub .., nullary_bufs_sub .., binary_bufs_sub .., unary_bufs_sub .., binary_bufs_sub .., unary_bufs_sub ..,
    nullary_bufs_sub .., binary_bufs_sub .., unary_bufs_sub .., binary_bufs_sub .., nullary_bufs_sub .., binary_bufs_sub ..,
    nullary_bufs_sub .., binary_bufs_sub .., unary_bufs_sub .., binary_bufs_sub .., unary_bufs_sub .., nullary_bufs_sub ..,
    binary_bufs_sub .., unary_bufs_sub .., binary_bufs_sub .., nary_bufs_sub .., nullary_bufs_sub .., binary_bufs_sub ..,
    nullary_bufs_sub .., binary_bufs_sub .., unary_bufs_sub .., unary_bufs_sub .., binary_bufs_sub .., unary_bufs_sub ..,
    nullary_bufs_sub .., binary_bufs_sub .., unary_bufs_sub .., unary_bufs_sub .., binary_bufs_sub ..⟩

theorem opsMix_sub : (opsMix : List (HloOp τ sig (Elt F))).Forall fun op => op.bufs ⊆ tcRefs τ sig :=
  ⟨unary_bufs_sub .., reshape_bufs_sub .., binary_bufs_sub .., unary_bufs_sub .., binary_bufs_sub .., unary_bufs_sub ..,
    reshape_bufs_sub .., binary_bufs_sub .., unary_bufs_sub .., binary_bufs_sub .., binary_bufs_sub .., unary_bufs_sub ..,
    reshape_bufs_sub .., binary_bufs_sub .., unary_bufs_sub .., binary_bufs_sub .., binary_bufs_sub ..⟩

theorem opsAgg_sub : (opsAgg : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub .., nullary_bufs_sub .., unary_bufs_sub .., nullary_bufs_sub .., unary_bufs_sub .., unary_bufs_sub ..,
    ternary_bufs_sub .., nullary_bufs_sub .., unary_bufs_sub .., binary_bufs_sub .., unary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    unary_bufs_sub .., ternary_bufs_sub .., nullary_bufs_sub .., unary_bufs_sub .., nullary_bufs_sub .., unary_bufs_sub ..,
    unary_bufs_sub .., ternary_bufs_sub .., nullary_bufs_sub .., unary_bufs_sub .., binary_bufs_sub .., unary_bufs_sub ..,
    unary_bufs_sub .., binary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., unary_bufs_sub .., ternary_bufs_sub .., nullary_bufs_sub .., unary_bufs_sub ..,
    nullary_bufs_sub .., unary_bufs_sub .., unary_bufs_sub .., ternary_bufs_sub .., nullary_bufs_sub .., unary_bufs_sub ..,
    binary_bufs_sub .., unary_bufs_sub .., unary_bufs_sub .., binary_bufs_sub .., binary_bufs_sub .., nullary_bufs_sub ..,
    unary_bufs_sub .., binary_bufs_sub ..⟩

theorem opsNorm_sub : (opsNorm : List (HloOp τ sig (Elt F))).Forall fun op => op.bufs ⊆ tcRefs τ sig :=
  ⟨nullary_bufs_sub .., unary_bufs_sub .., binary_bufs_sub .., nullary_bufs_sub .., binary_bufs_sub .., unary_bufs_sub ..,
    nullary_bufs_sub .., unary_bufs_sub .., binary_bufs_sub .., nullary_bufs_sub .., nullary_bufs_sub .., binary_bufs_sub ..,
    unary_bufs_sub .., nullary_bufs_sub .., unary_bufs_sub .., binary_bufs_sub .., unary_bufs_sub .., binary_bufs_sub ..,
    binary_bufs_sub .., unary_bufs_sub .., nullary_bufs_sub .., binary_bufs_sub .., nullary_bufs_sub .., binary_bufs_sub ..,
    unary_bufs_sub .., unary_bufs_sub .., binary_bufs_sub .., nullary_bufs_sub .., binary_bufs_sub .., nullary_bufs_sub ..,
    unary_bufs_sub .., unary_bufs_sub .., ternary_bufs_sub .., unary_bufs_sub .., binary_bufs_sub .., nullary_bufs_sub ..,
    unary_bufs_sub .., binary_bufs_sub .., unary_bufs_sub .., unary_bufs_sub .., binary_bufs_sub .., unary_bufs_sub ..,
    unary_bufs_sub .., binary_bufs_sub .., unary_bufs_sub .., unary_bufs_sub .., binary_bufs_sub ..⟩

/-- Every operation touches only buffers of the core: stretch by stretch, then across the appends. -/
theorem ops_sub : (ops : List (HloOp τ sig (Elt F))).Forall fun op => op.bufs ⊆ tcRefs τ sig :=
  List.forall_append.2 ⟨opsWts_sub, List.forall_append.2 ⟨opsMix_sub, List.forall_append.2 ⟨opsAgg_sub, opsNorm_sub⟩⟩⟩

set_option maxRecDepth 8192 in
set_option maxHeartbeats 4000000 in
/-- The reference is that straight line: its three windows and the three outlined functions unfolded (the
    functions at their calls, their records at the fields), the appends of the four stretches computed, both
    sides are one chain of single steps once sequencing is re-associated. -/
theorem main_eq (c : Dev nD) : main (F := F) c = seq ops := by
  simp only [main, main_part0, main_part1, main_part2, fn_relu.body, fn_var.body, fn_where.body, List.cons_append, List.nil_append,
    seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- From any memory with zero counters, for any float values: every weakly fair execution of the reference
    terminates, and every final state has each buffer of the core at the operations' fold over the launch
    contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefRead.lean ====
import proofs.«125390_j86715389706549_1_alg».proof.Proof.RefRun

noncomputable section

namespace Cert.ReferenceIdeal.RefRead

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

/-! ## The four stages as functions of what they read -/

/-- The exponential of a one-element vector shifted by its maximum (the maximum taken against minus infinity). -/
def expShift1 (a : (⟨S1, .f32⟩ : BufTy).Contents (Elt F)) : (⟨S1, .f32⟩ : BufTy).Contents (Elt F) :=
  Host.exp (subf a (broadcastInDim S1 ![] bcast_S_S1
    (maximumf (constant S_ .f32 0xFF800000#32)
      (Host.reduce FloatOps.maximumf a (constant S_ .f32 0xFF800000#32) reducesTo_S1_S_d0 h_S_))))

/-- The softmax of a one-element vector: the shifted exponential over its sum. -/
def softmax1 (a : (⟨S1, .f32⟩ : BufTy).Contents (Elt F)) : (⟨S1, .f32⟩ : BufTy).Contents (Elt F) :=
  Host.divf (expShift1 a)
    (broadcastInDim S1 ![] bcast_S_S1 (Host.reduceAdd (expShift1 a) (constant S_ .f32 0x00000000#32) reducesTo_S1_S_d0 h_S_))

/-- The exponential of a three-element vector shifted by its maximum. -/
def expShift3 (c : (⟨S3, .f32⟩ : BufTy).Contents (Elt F)) : (⟨S3, .f32⟩ : BufTy).Contents (Elt F) :=
  Host.exp (subf c (broadcastInDim S3 ![0] bcast_S1_S3_0 (broadcastInDim S1 ![] bcast_S_S1
    (maximumf (constant S_ .f32 0xFF800000#32)
      (Host.reduce FloatOps.maximumf c (constant S_ .f32 0xFF800000#32) reducesTo_S3_S_d0 h_S_)))))

/-- The softmax of a three-element vector. -/
def softmax3 (c : (⟨S3, .f32⟩ : BufTy).Contents (Elt F)) : (⟨S3, .f32⟩ : BufTy).Contents (Elt F) :=
  Host.divf (expShift3 c)
    (broadcastInDim S3 ![0] bcast_S1_S3_0 (broadcastInDim S1 ![] bcast_S_S1
      (Host.reduceAdd (expShift3 c) (constant S_ .f32 0x00000000#32) reducesTo_S3_S_d0 h_S_)))

/-- The three mixing weights: the softmax of the concatenation of the three one-element softmaxes. -/
def wtsR (a0 a1 a2 : (⟨S1, .f32⟩ : BufTy).Contents (Elt F)) : (⟨S3, .f32⟩ : BufTy).Contents (Elt F) :=
  softmax3 (concatenate S3 0 [⟨S1, softmax1 a0⟩, ⟨S1, softmax1 a1⟩, ⟨S1, softmax1 a2⟩] concatenates_S1_S1_S1_S3_d0)

/-- One term of the mix: the weight at offset `off`, as a scalar broadcast to every entry, times the matrix
    product of the features with that weight's matrix. -/
def mixTerm (w : (⟨S3, .f32⟩ : BufTy).Contents (Elt F)) (feat : (⟨S50000x256, .f32⟩ : BufTy).Contents (Elt F)) (W : (⟨S256x256, .f32⟩ : BufTy).Contents (Elt F))
    (off : Fin S3.rank → Nat) (hs : S3.Slices off S1) : (⟨S50000x256, .f32⟩ : BufTy).Contents (Elt F) :=
  mulf (broadcastInDim S50000x256 ![] bcast_S_S50000x256 (shapeCast S_ (extractStridedSlice S1 off w hs) shapeCasts_S1_S_))
    (Host.dotGeneral dot_S50000x256_S256x256_S50000x256_1_0_0_1_n_n none feat W)

/-- The mix: the weighted sum of the three matrix products. -/
def mixR (w : (⟨S3, .f32⟩ : BufTy).Contents (Elt F)) (feat : (⟨S50000x256, .f32⟩ : BufTy).Contents (Elt F)) (W0 W1 W2 : (⟨S256x256, .f32⟩ : BufTy).Contents (Elt F)) : (⟨S50000x256, .f32⟩ : BufTy).Contents (Elt F) :=
  addf (addf (mixTerm w feat W0 ![0] slices_S3_S1_0) (mixTerm w feat W1 ![1] slices_S3_S1_1)) (mixTerm w feat W2 ![2] slices_S3_S1_2)

/-- One relation's segment mean: the rows of `h` at the source indices (a negative index wrapped by the row
    count), scatter-added into zeros at the destination indices, each row divided by its segment's size (ones
    scatter-added into zeros at the destination indices) clamped below by one. -/
def segMean (h : (⟨S50000x256, .f32⟩ : BufTy).Contents (Elt F)) (s d : (⟨S400000, .i32⟩ : BufTy).Contents (Elt F)) : (⟨S50000x256, .f32⟩ : BufTy).Contents (Elt F) :=
  Host.divf
    (Host.scatterAdd scatter_S50000x256_S400000x1_S400000x256_1_0_0_1
      (broadcastInDim S50000x256 ![] bcast_S_S50000x256 (constant S_ .f32 0x00000000#32))
      (broadcastInDim S400000x1 ![0] bcast_S400000_S400000x1_0 d)
      (Host.gather gather_S50000x256_S400000x1_S400000x256_1_0_n_n_0_1_1256 h
        (broadcastInDim S400000x1 ![0] bcast_S400000_S400000x1_0
          (select (cmpi .slt s (broadcastInDim S400000 ![] bcast_S_S400000 (constantI S_ 32 0#32)))
            (addi s (broadcastInDim S400000 ![] bcast_S_S400000 (constantI S_ 32 50000#32))) s))))
    (broadcastInDim S50000x256 ![0, 1] bcast_S50000x1_S50000x256_0_1
      (broadcastInDim S50000x1 ![0] bcast_S50000_S50000x1_0
        (maximumf
          (Host.scatterAdd scatter_S50000_S400000x1_S400000_n_0_0_1
            (broadcastInDim S50000 ![] bcast_S_S50000 (constant S_ .f32 0x00000000#32))
            (broadcastInDim S400000x1 ![0] bcast_S400000_S400000x1_0 d)
            (broadcastInDim S400000 ![] bcast_S_S400000 (constant S_ .f32 0x3F800000#32)))
          (broadcastInDim S50000 ![] bcast_S_S50000 (constant S_ .f32 0x3F800000#32)))))

/-- The aggregation: the three relations' segment means of the same `h`, added and divided by three. -/
def aggR (h : (⟨S50000x256, .f32⟩ : BufTy).Contents (Elt F)) (s0 d0 s1 d1 s2 d2 : (⟨S400000, .i32⟩ : BufTy).Contents (Elt F)) : (⟨S50000x256, .f32⟩ : BufTy).Contents (Elt F) :=
  Host.divf (addf (addf (segMean h s0 d0) (segMean h s1 d1)) (segMean h s2 d2))
    (broadcastInDim S50000x256 ![] bcast_S_S50000x256 (constant S_ .f32 0x40400000#32))

/-- The rectifier: the maximum with zero. -/
def reluR (x : (⟨S50000x256, .f32⟩ : BufTy).Contents (Elt F)) : (⟨S50000x256, .f32⟩ : BufTy).Contents (Elt F) :=
  maximumf x (broadcastInDim S50000x256 ![] bcast_S_S50000x256 (constant S_ .f32 0x00000000#32))

/-- The row means, as a column: the row sums over 256. -/
def meanR (r : (⟨S50000x256, .f32⟩ : BufTy).Contents (Elt F)) : (⟨S50000x1, .f32⟩ : BufTy).Contents (Elt F) :=
  Host.divf
    (broadcastInDim S50000x1 ![0] bcast_S50000_S50000x1_0
      (Host.reduceAdd r (constant S_ .f32 0x00000000#32) reducesTo_S50000x256_S50000_d1 h_S_))
    (broadcastInDim S50000x1 ![] bcast_S_S50000x1 (constant S_ .f32 0x43800000#32))

/-- The divisor of the variance: 256 minus the correction (the integer zero converted). -/
def varDenR : (⟨S_, .f32⟩ : BufTy).Contents (Elt F) :=
  subf (constant S_ .f32 0x43800000#32) (sitofp .f32 (constantI S_ 32 0#32))

/-- The squared deviations from the row mean. -/
def sqDevR (r : (⟨S50000x256, .f32⟩ : BufTy).Contents (Elt F)) : (⟨S50000x256, .f32⟩ : BufTy).Contents (Elt F) :=
  mulf (subf r (broadcastInDim S50000x256 ![0, 1] bcast_S50000x1_S50000x256_0_1 (meanR r)))
    (subf r (broadcastInDim S50000x256 ![0, 1] bcast_S50000x1_S50000x256_0_1 (meanR r)))

/-- The row variances, as a column: the row sums of the squared deviations over the divisor, where the divisor
    is positive, and the not-a-number literal elsewhere. -/
def varR (r : (⟨S50000x256, .f32⟩ : BufTy).Contents (Elt F)) : (⟨S50000x1, .f32⟩ : BufTy).Contents (Elt F) :=
  select (broadcastInDim S50000x1 ![] bcast_S_S50000x1 (cmpf .ogt (varDenR (F := F)) (constant S_ .f32 0x00000000#32)))
    (Host.divf
      (broadcastInDim S50000x1 ![0] bcast_S50000_S50000x1_0
        (Host.reduceAdd (sqDevR r) (constant S_ .f32 0x00000000#32) reducesTo_S50000x256_S50000_d1 h_S_))
      (broadcastInDim S50000x1 ![] bcast_S_S50000x1 (varDenR (F := F))))
    (broadcastInDim S50000x1 ![] bcast_S_S50000x1 (id (constant S_ .f32 0x7FC00000#32)))

/-- The layer normalization of `r` over the last axis: the deviation from the row mean, times the reciprocal
    square root of the row variance plus epsilon, times the scale, plus the shift. -/
def lnR (r : (⟨S50000x256, .f32⟩ : BufTy).Contents (Elt F)) (gamma beta : (⟨S256, .f32⟩ : BufTy).Contents (Elt F)) : (⟨S50000x256, .f32⟩ : BufTy).Contents (Elt F) :=
  addf
    (mulf
      (mulf (subf r (broadcastInDim S50000x256 ![0, 1] bcast_S50000x1_S50000x256_0_1 (meanR r)))
        (broadcastInDim S50000x256 ![0, 1] bcast_S50000x1_S50000x256_0_1
          (Host.rsqrt (addf (varR r) (broadcastInDim S50000x1 ![] bcast_S_S50000x1 (constant S_ .f32 0x3727C5AC#32))))))
      (broadcastInDim S50000x256 ![0, 1] bcast_S1x256_S50000x256_0_1 (broadcastInDim S1x256 ![1] bcast_S256_S1x256_1 gamma)))
    (broadcastInDim S50000x256 ![0, 1] bcast_S1x256_S50000x256_0_1 (broadcastInDim S1x256 ![1] bcast_S256_S1x256_1 beta))

/-- The last stage: the rectifier, then the layer normalization. -/
def normR (x : (⟨S50000x256, .f32⟩ : BufTy).Contents (Elt F)) (gamma beta : (⟨S256, .f32⟩ : BufTy).Contents (Elt F)) : (⟨S50000x256, .f32⟩ : BufTy).Contents (Elt F) :=
  lnR (reluR x) gamma beta

/-! ## Reading the fold stretch by stretch -/

/-- The fold over an append is the fold over the second list from the fold over the first. -/
theorem after_app (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

/-- The result of an operation over a literal family of three operands, each operand's contents at its own buffer. -/
theorem nary3_result {x a b y : Ref sig .tc}
    (f : ((k : Fin 3) → ((![x, a, b] : Fin 3 → Ref sig .tc) k).ty.Contents (Elt F)) → y.ty.Contents (Elt F)) (hxs hy)
    (G : Valuation τ sig (Elt F)) :
    (nary (τ := τ) ![x, a, b] y f hxs hy).result G (no_index (Proc.devRef .tc y))
      = f (Fin.cons (G (Proc.devRef .tc x)) (Fin.cons (G (Proc.devRef .tc a)) (Fin.cons (G (Proc.devRef .tc b)) (fun i => i.elim0)))) := by
  rw [nary_result]; congr 1; funext k; fin_cases k <;> rfl

/-- Each operation's result at its own buffer is its function's value, at any other buffer what was there. -/
local macro "results" : tactic =>
  `(tactic| (simp (disch := decide) only [after_cons, after_nil,
      nullary_result', unary_result', binary_result', ternary_result', reshape_result', nary3_result,
      nullary_result_ne', unary_result_ne', binary_result_ne', ternary_result_ne', reshape_result_ne', nary_result_ne']))

/-- The reference's fifteen arguments. -/
abbrev argRefs : List (Ref sig .tc) := [main_arg0, main_arg1, main_arg2, main_arg3, main_arg4, main_arg5, main_arg6, main_arg7, main_arg8, main_arg9, main_arg10, main_arg11, main_arg12, main_arg13, main_arg14]

attribute [local irreducible] Host.reduce Host.reduceAdd Host.gather Host.scatterAdd

/-! ### The stages -/

set_option maxHeartbeats 4000000 in
theorem wts_eq (V : Valuation τ sig (Elt F)) :
    after (opsWts : List (HloOp τ sig (Elt F))) V (main_v34 : DevRef τ sig)
      = wtsR (V main_arg4) (V main_arg5) (V main_arg6) := by
  results
  rfl

set_option maxHeartbeats 4000000 in
theorem mix_eq (V : Valuation τ sig (Elt F)) :
    after (opsMix : List (HloOp τ sig (Elt F))) V (main_v51 : DevRef τ sig)
      = mixR (V main_v34) (V main_arg0) (V main_arg1) (V main_arg2) (V main_arg3) := by
  results
  rfl

set_option maxHeartbeats 4000000 in
theorem agg_eq (V : Valuation τ sig (Elt F)) :
    after (opsAgg : List (HloOp τ sig (Elt F))) V (main_v112 : DevRef τ sig)
      = aggR (V main_v51) (V main_arg9) (V main_arg10) (V main_arg11) (V main_arg12) (V main_arg13) (V main_arg14) := by
  results
  rfl

set_option maxHeartbeats 4000000 in
theorem norm_eq (V : Valuation τ sig (Elt F)) :
    after (opsNorm : List (HloOp τ sig (Elt F))) V (main_v131 : DevRef τ sig)
      = normR (V main_v112) (V main_arg7) (V main_arg8) := by
  results
  rfl

/-! ### No stretch writes an argument -/

set_option maxHeartbeats 4000000 in
theorem wts_arg (V : Valuation τ sig (Elt F)) {r : Ref sig .tc} (hr : r ∈ argRefs) :
    after (opsWts : List (HloOp τ sig (Elt F))) V (r : DevRef τ sig) = V (r : DevRef τ sig) := by
  simp only [argRefs, List.mem_cons, List.not_mem_nil, or_false] at hr
  rcases hr with rfl | rfl | rfl | rfl | rfl | rfl | rfl | rfl | rfl | rfl | rfl | rfl | rfl | rfl | rfl <;> results

set_option maxHeartbeats 4000000 in
theorem mix_arg (V : Valuation τ sig (Elt F)) {r : Ref sig .tc} (hr : r ∈ argRefs) :
    after (opsMix : List (HloOp τ sig (Elt F))) V (r : DevRef τ sig) = V (r : DevRef τ sig) := by
  simp only [argRefs, List.mem_cons, List.not_mem_nil, or_false] at hr
  rcases hr with rfl | rfl | rfl | rfl | rfl | rfl | rfl | rfl | rfl | rfl | rfl | rfl | rfl | rfl | rfl <;> results

set_option maxHeartbeats 4000000 in
theorem agg_arg (V : Valuation τ sig (Elt F)) {r : Ref sig .tc} (hr : r ∈ argRefs) :
    after (opsAgg : List (HloOp τ sig (Elt F))) V (r : DevRef τ sig) = V (r : DevRef τ sig) := by
  simp only [argRefs, List.mem_cons, List.not_mem_nil, or_false] at hr
  rcases hr with rfl | rfl | rfl | rfl | rfl | rfl | rfl | rfl | rfl | rfl | rfl | rfl | rfl | rfl | rfl <;> results

set_option maxHeartbeats 4000000 in
theorem norm_arg (V : Valuation τ sig (Elt F)) {r : Ref sig .tc} (hr : r ∈ argRefs) :
    after (opsNorm : List (HloOp τ sig (Elt F))) V (r : DevRef τ sig) = V (r : DevRef τ sig) := by
  simp only [argRefs, List.mem_cons, List.not_mem_nil, or_false] at hr
  rcases hr with rfl | rfl | rfl | rfl | rfl | rfl | rfl | rfl | rfl | rfl | rfl | rfl | rfl | rfl | rfl <;> results

/-- No operation of the reference writes an argument. -/
theorem ops_arg (V : Valuation τ sig (Elt F)) {r : Ref sig .tc} (hr : r ∈ argRefs) :
    after (ops : List (HloOp τ sig (Elt F))) V (r : DevRef τ sig) = V (r : DevRef τ sig) := by
  show after (opsWts ++ (opsMix ++ (opsAgg ++ opsNorm))) V _ = _
  rw [after_app, after_app, after_app, norm_arg _ hr, agg_arg _ hr, mix_arg _ hr, wts_arg _ hr]

/-! ### The whole line -/

/-- The reference's result is the four stages composed: the last stretch reads the third's result and two
    arguments, the third the second's result and six arguments, the second the first's result and four
    arguments, the first three arguments; no stretch writes an argument. -/
theorem out_eq (V : Valuation τ sig (Elt F)) :
    after (ops : List (HloOp τ sig (Elt F))) V (main_v131 : DevRef τ sig)
      = normR (aggR (mixR (wtsR (V main_arg4) (V main_arg5) (V main_arg6)) (V main_arg0) (V main_arg1) (V main_arg2) (V main_arg3))
          (V main_arg9) (V main_arg10) (V main_arg11) (V main_arg12) (V main_arg13) (V main_arg14)) (V main_arg7) (V main_arg8) := by
  show after (opsWts ++ (opsMix ++ (opsAgg ++ opsNorm))) V _ = _
  rw [after_app, after_app, after_app, norm_eq, agg_eq, mix_eq, wts_eq,
    agg_arg _ (r := main_arg7) (by decide), agg_arg _ (r := main_arg8) (by decide),
    mix_arg _ (r := main_arg7) (by decide), mix_arg _ (r := main_arg8) (by decide),
    mix_arg _ (r := main_arg9) (by decide), mix_arg _ (r := main_arg10) (by decide), mix_arg _ (r := main_arg11) (by decide),
    mix_arg _ (r := main_arg12) (by decide), mix_arg _ (r := main_arg13) (by decide), mix_arg _ (r := main_arg14) (by decide),
    wts_arg _ (r := main_arg0) (by decide), wts_arg _ (r := main_arg1) (by decide), wts_arg _ (r := main_arg2) (by decide),
    wts_arg _ (r := main_arg3) (by decide), wts_arg _ (r := main_arg7) (by decide), wts_arg _ (r := main_arg8) (by decide),
    wts_arg _ (r := main_arg9) (by decide), wts_arg _ (r := main_arg10) (by decide), wts_arg _ (r := main_arg11) (by decide),
    wts_arg _ (r := main_arg12) (by decide), wts_arg _ (r := main_arg13) (by decide), wts_arg _ (r := main_arg14) (by decide)]

theorem arg_eq_0 (V : Valuation τ sig (Elt F)) :
    after (ops : List (HloOp τ sig (Elt F))) V (main_arg0 : DevRef τ sig) = V (main_arg0 : DevRef τ sig) := ops_arg V (by decide)
theorem arg_eq_1 (V : Valuation τ sig (Elt F)) :
    after (ops : List (HloOp τ sig (Elt F))) V (main_arg1 : DevRef τ sig) = V (main_arg1 : DevRef τ sig) := ops_arg V (by decide)
theorem arg_eq_2 (V : Valuation τ sig (Elt F)) :
    after (ops : List (HloOp τ sig (Elt F))) V (main_arg2 : DevRef τ sig) = V (main_arg2 : DevRef τ sig) := ops_arg V (by decide)
theorem arg_eq_3 (V : Valuation τ sig (Elt F)) :
    after (ops : List (HloOp τ sig (Elt F))) V (main_arg3 : DevRef τ sig) = V (main_arg3 : DevRef τ sig) := ops_arg V (by decide)
theorem arg_eq_4 (V : Valuation τ sig (Elt F)) :
    after (ops : List (HloOp τ sig (Elt F))) V (main_arg4 : DevRef τ sig) = V (main_arg4 : DevRef τ sig) := ops_arg V (by decide)
theorem arg_eq_5 (V : Valuation τ sig (Elt F)) :
    after (ops : List (HloOp τ sig (Elt F))) V (main_arg5 : DevRef τ sig) = V (main_arg5 : DevRef τ sig) := ops_arg V (by decide)
theorem arg_eq_6 (V : Valuation τ sig (Elt F)) :
    after (ops : List (HloOp τ sig (Elt F))) V (main_arg6 : DevRef τ sig) = V (main_arg6 : DevRef τ sig) := ops_arg V (by decide)
theorem arg_eq_7 (V : Valuation τ sig (Elt F)) :
    after (ops : List (HloOp τ sig (Elt F))) V (main_arg7 : DevRef τ sig) = V (main_arg7 : DevRef τ sig) := ops_arg V (by decide)
theorem arg_eq_8 (V : Valuation τ sig (Elt F)) :
    after (ops : List (HloOp τ sig (Elt F))) V (main_arg8 : DevRef τ sig) = V (main_arg8 : DevRef τ sig) := ops_arg V (by decide)
theorem arg_eq_9 (V : Valuation τ sig (Elt F)) :
    after (ops : List (HloOp τ sig (Elt F))) V (main_arg9 : DevRef τ sig) = V (main_arg9 : DevRef τ sig) := ops_arg V (by decide)
theorem arg_eq_10 (V : Valuation τ sig (Elt F)) :
    after (ops : List (HloOp τ sig (Elt F))) V (main_arg10 : DevRef τ sig) = V (main_arg10 : DevRef τ sig) := ops_arg V (by decide)
theorem arg_eq_11 (V : Valuation τ sig (Elt F)) :
    after (ops : List (HloOp τ sig (Elt F))) V (main_arg11 : DevRef τ sig) = V (main_arg11 : DevRef τ sig) := ops_arg V (by decide)
theorem arg_eq_12 (V : Valuation τ sig (Elt F)) :
    after (ops : List (HloOp τ sig (Elt F))) V (main_arg12 : DevRef τ sig) = V (main_arg12 : DevRef τ sig) := ops_arg V (by decide)
theorem arg_eq_13 (V : Valuation τ sig (Elt F)) :
    after (ops : List (HloOp τ sig (Elt F))) V (main_arg13 : DevRef τ sig) = V (main_arg13 : DevRef τ sig) := ops_arg V (by decide)
theorem arg_eq_14 (V : Valuation τ sig (Elt F)) :
    after (ops : List (HloOp τ sig (Elt F))) V (main_arg14 : DevRef τ sig) = V (main_arg14 : DevRef τ sig) := ops_arg V (by decide)

end Cert.ReferenceIdeal.RefRead

end
-- ==== Proof.RefNorm.lean ====
import proofs.«125390_j86715389706549_1_alg».proof.Proof.RefRead
import Idealize.ShloMosaic.Lib.IdealHost
import Idealize.ShloMosaic.Lib.ValueLayout

noncomputable section

namespace Cert.ReferenceIdeal.RefNorm

open Cert.ReferenceIdeal Cert.ReferenceIdeal.Gen Cert.ReferenceIdeal.RefRead Idealize.ShloMosaic Idealize.ShloMosaic.TcCoe Idealize.SL.Sem
open Idealize.ShloMosaic.ValueIdx
open scoped BigOperators

/-! ## The constants -/

/-- The pattern `0x43800000` is the real 256. -/
theorem ofBits_256 : Ideal.ofBits .f32 0x43800000#32 = ((256 : ℝ) : EReal) := by
  simp [Ideal.ofBits, Ideal.ieee, -EReal.coe_mul]; norm_num

/-- The pattern of zero is the extended real zero. -/
theorem ofBits_zero : Ideal.ofBits .f32 0x00000000#32 = 0 := Ideal.ofBits_zero_f32

/-! ## The rows as extended reals -/

/-- The rectified entry. -/
def rl (x : FVec Ideal S50000x256 .f32) (p : Fin 50000) (k : Fin 256) : EReal := max (x (ix2 p k)) 0

/-- The row mean. -/
def mu (x : FVec Ideal S50000x256 .f32) (p : Fin 50000) : EReal :=
  Ideal.div (0 + ∑ k : Fin 256, rl x p k) ((256 : ℝ) : EReal)

/-- The row variance. -/
def var (x : FVec Ideal S50000x256 .f32) (p : Fin 50000) : EReal :=
  Ideal.div (0 + ∑ k : Fin 256, (rl x p k - mu x p) * (rl x p k - mu x p)) ((256 : ℝ) : EReal)

/-! ## The broadcasts read at an index -/

/-- A column laid along every column of the rows. -/
theorem bc_col {α : Type} (v : S50000x1.Idx → α) (p : Fin 50000) (q : Fin 256) :
    broadcastInDim S50000x256 ![0, 1] bcast_S50000x1_S50000x256_0_1 v (ix2 p q) = v (ix2 p (0 : Fin 1)) := by
  unfold broadcastInDim
  exact congrArg v (funext fun a => by fin_cases a <;> rfl)

/-- A vector stood up as a column. -/
theorem bc_vec_col {α : Type} (v : S50000.Idx → α) (p : Fin 50000) (u : Fin 1) :
    broadcastInDim S50000x1 ![0] bcast_S50000_S50000x1_0 v (ix2 p u) = v (ix1 p) := by
  unfold broadcastInDim
  exact congrArg v (funext fun a => by fin_cases a; rfl)

/-- A row laid along every row. -/
theorem bc_row {α : Type} (v : S1x256.Idx → α) (p : Fin 50000) (q : Fin 256) :
    broadcastInDim S50000x256 ![0, 1] bcast_S1x256_S50000x256_0_1 v (ix2 p q) = v (ix2 (0 : Fin 1) q) := by
  unfold broadcastInDim
  exact congrArg v (funext fun a => by fin_cases a <;> rfl)

/-- A vector laid down as a row. -/
theorem bc_vec_row {α : Type} (v : S256.Idx → α) (u : Fin 1) (q : Fin 256) :
    broadcastInDim S1x256 ![1] bcast_S256_S1x256_1 v (ix2 u q) = v (ix1 q) := by
  unfold broadcastInDim
  exact congrArg v (funext fun a => by fin_cases a; rfl)

/-! ## The row sum -/

/-- A reduced row index with the column put back. -/
theorem lift_row (h : S50000x256.Reduces [1] S50000) (p : Fin 50000) (k : Fin (S50000x256.size 1)) :
    h.lift (ix1 p) k = ix2 p (⟨k.val, k.isLt⟩ : Fin 256) := by
  funext c; apply Fin.ext
  fin_cases c <;> rfl

/-- The host's sum over the last axis from zero, at a row: zero plus the sum of the row's entries. -/
theorem rowSum (f : FVec Ideal S50000x256 .f32) (p : Fin 50000) :
    Host.reduceAdd f (constant S_ .f32 0x00000000#32) reducesTo_S50000x256_S50000_d1 h_S_ (ix1 p)
      = 0 + ∑ k : Fin 256, f (ix2 p k) := by
  have hR : S50000x256.Reduces [1] S50000 := by decide
  rw [hostReduceAdd_apply, Ideal.hostReduceAdd_single _ hR]
  congr 1
  · exact Ideal.ofBits_zero_f32
  · exact Finset.sum_congr rfl fun k _ => congrArg f (lift_row hR p k)

/-! ## The stages of the normalization at an index -/

/-- The rectifier at an entry. -/
theorem reluR_apply (x : FVec Ideal S50000x256 .f32) (p : Fin 50000) (k : Fin 256) :
    reluR (F := Ideal) x (ix2 p k) = rl x p k := by
  unfold reluR rl
  rw [maximumf_apply, broadcastInDim_scalar_apply, constant_apply, Ideal.ofBits_zero_f32]

/-- The row mean of the rectified rows, at a row. -/
theorem meanR_apply (x : FVec Ideal S50000x256 .f32) (p : Fin 50000) (u : Fin 1) :
    meanR (F := Ideal) (reluR x) (ix2 p u) = mu x p := by
  unfold meanR mu
  rw [hostDivf_apply, bc_vec_col, rowSum, broadcastInDim_scalar_apply, constant_apply, ofBits_256]
  simp only [reluR_apply]

/-- The variance's divisor: 256 less the integer zero converted. -/
theorem varDenR_apply : varDenR (F := Ideal) ix0 = ((256 : ℝ) : EReal) := by
  unfold varDenR
  rw [subf_apply, constant_apply, sitofp_apply, constantI_apply, ofBits_256]
  show ((256 : ℝ) : EReal) - ((((0#32 : BitVec 32).toInt : ℤ) : ℝ) : EReal) = _
  simp

/-- The squared deviation at an entry. -/
theorem sqDevR_apply (x : FVec Ideal S50000x256 .f32) (p : Fin 50000) (k : Fin 256) :
    sqDevR (F := Ideal) (reluR x) (ix2 p k) = (rl x p k - mu x p) * (rl x p k - mu x p) := by
  unfold sqDevR
  rw [mulf_apply, subf_apply, bc_col, meanR_apply, reluR_apply]

/-- The row variance of the rectified rows, at a row: the divisor is positive, so the select takes the quotient. -/
theorem varR_apply (x : FVec Ideal S50000x256 .f32) (p : Fin 50000) (u : Fin 1) :
    varR (F := Ideal) (reluR x) (ix2 p u) = var x p := by
  have hpos : (0 : EReal) < ((256 : ℝ) : EReal) := by exact_mod_cast (by norm_num : (0 : ℝ) < 256)
  have hc : FloatOps.cmpf (F := Ideal) (φ := .f32) .ogt ((256 : ℝ) : EReal) (0 : EReal) = 1#1 := by
    show BitVec.ofBool (decide ((0 : EReal) < ((256 : ℝ) : EReal))) = 1#1
    rw [decide_eq_true hpos]; rfl
  unfold varR var
  rw [select_apply, broadcastInDim_scalar_apply, cmpf_apply, varDenR_apply, constant_apply, Ideal.ofBits_zero_f32, hc, select_one,
    hostDivf_apply, bc_vec_col, rowSum, broadcastInDim_scalar_apply, varDenR_apply]
  simp only [sqDevR_apply]

/-- The host's reciprocal square root at an index. -/
theorem hostRsqrt_apply {s : Shape} (v : FVec Ideal s .f32) (i : s.Idx) : Host.rsqrt v i = Ideal.rsqrt (v i) := rfl

/-! ## The last stage at an index -/

/-- The rectifier followed by the layer normalization, at row `p` and column `q`: the deviation of the rectified
    entry from its row mean, times the reciprocal square root of the row variance plus epsilon, times the scale, plus
    the shift. -/
theorem normR_apply (x : FVec Ideal S50000x256 .f32) (gamma beta : FVec Ideal S256 .f32) (p : Fin 50000) (q : Fin 256) :
    normR (F := Ideal) x gamma beta (ix2 p q)
      = (rl x p q - mu x p) * Ideal.rsqrt (var x p + Ideal.ofBits .f32 0x3727C5AC#32) * gamma (ix1 q) + beta (ix1 q) := by
  unfold normR lnR
  rw [addf_apply, mulf_apply, mulf_apply, subf_apply, bc_row, bc_vec_row, bc_row, bc_vec_row, bc_col, bc_col, meanR_apply, reluR_apply]
  rw [hostRsqrt_apply, addf_apply, varR_apply, broadcastInDim_scalar_apply, constant_apply]

end Cert.ReferenceIdeal.RefNorm

end
-- ==== Proof.LibWeightedMix.lean ====
import Mathlib.Data.EReal.Inv
import Mathlib.Algebra.BigOperators.Group.Finset.Basic
import Mathlib.Algebra.BigOperators.Ring.Finset
import Mathlib.Tactic.Ring

/-!
# A weighted mix under a finite sum, in the extended reals

For real families `f A B C : K → ℝ` over a finite index type and real weights `w₀ w₁ w₂`, read in the
extended reals,

  `∑ k, f k * ((w₀ * A k + w₁ * B k) + w₂ * C k) = ((w₀ * ∑ k, f k * A k) + w₁ * ∑ k, f k * B k) + w₂ * ∑ k, f k * C k`:

contracting against a weighted mix of three families is the weighted mix of the three contractions. The
extended reals are not a ring (addition and multiplication do not distribute at the infinities), so the law
is proved for real entries: the coercion `ℝ → EReal` is pushed out of every product and sum, and the
identity is then distributivity in `ℝ`.

* `coe_finset_sum`: the coercion commutes with a finite sum.
* `sum_mul_mix`: the law for families given as real functions.
* `sum_mul_mix_of_real`: the law for extended-real families each of whose entries is a real number.
* `exists_real_add`, `exists_real_mul`, `exists_real_sum`, `exists_real_sum_mul`: sums, products and finite sums
  (of products) of real numbers are real numbers.
-/

namespace LibWeightedMix

open scoped BigOperators

variable {K : Type*}

/-- The coercion of the reals into the extended reals commutes with a finite sum. -/
theorem coe_finset_sum (s : Finset K) (f : K → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The sum of two real numbers is a real number. -/
theorem exists_real_add {x y : EReal} (hx : ∃ r : ℝ, x = (r : EReal)) (hy : ∃ r : ℝ, y = (r : EReal)) :
    ∃ r : ℝ, x + y = (r : EReal) := by
  obtain ⟨a, rfl⟩ := hx; obtain ⟨b, rfl⟩ := hy
  exact ⟨a + b, (EReal.coe_add a b).symm⟩

/-- The product of two real numbers is a real number. -/
theorem exists_real_mul {x y : EReal} (hx : ∃ r : ℝ, x = (r : EReal)) (hy : ∃ r : ℝ, y = (r : EReal)) :
    ∃ r : ℝ, x * y = (r : EReal) := by
  obtain ⟨a, rfl⟩ := hx; obtain ⟨b, rfl⟩ := hy
  exact ⟨a * b, (EReal.coe_mul a b).symm⟩

/-- A finite sum of real numbers is a real number. -/
theorem exists_real_sum (s : Finset K) (g : K → EReal) (hg : ∀ k, ∃ r : ℝ, g k = (r : EReal)) :
    ∃ r : ℝ, ∑ k ∈ s, g k = (r : EReal) := by
  choose g' hg' using hg
  exact ⟨∑ k ∈ s, g' k, by simp only [hg', coe_finset_sum]⟩

/-- A finite sum of products of real numbers is a real number. -/
theorem exists_real_sum_mul (s : Finset K) (f A : K → EReal) (hf : ∀ k, ∃ r : ℝ, f k = (r : EReal))
    (hA : ∀ k, ∃ r : ℝ, A k = (r : EReal)) : ∃ r : ℝ, ∑ k ∈ s, f k * A k = (r : EReal) :=
  exists_real_sum s _ fun k => exists_real_mul (hf k) (hA k)

variable [Fintype K]

/-- Contracting against a weighted mix of three real families is the weighted mix of the three contractions. -/
theorem sum_mul_mix (f A B C : K → ℝ) (w0 w1 w2 : ℝ) :
    ∑ k, (f k : EReal) * (((w0 : EReal) * (A k : EReal) + (w1 : EReal) * (B k : EReal)) + (w2 : EReal) * (C k : EReal))
      = (((w0 : EReal) * ∑ k, (f k : EReal) * (A k : EReal)) + (w1 : EReal) * ∑ k, (f k : EReal) * (B k : EReal))
          + (w2 : EReal) * ∑ k, (f k : EReal) * (C k : EReal) := by
  simp only [← EReal.coe_mul, ← EReal.coe_add, ← coe_finset_sum]
  congr 1
  simp only [Finset.mul_sum, ← Finset.sum_add_distrib]
  exact Finset.sum_congr rfl fun k _ => by ring

/-- The same law for extended-real families and weights each of which is a real number. -/
theorem sum_mul_mix_of_real (f A B C : K → EReal) (w0 w1 w2 : EReal)
    (hf : ∀ k, ∃ r : ℝ, f k = (r : EReal)) (hA : ∀ k, ∃ r : ℝ, A k = (r : EReal))
    (hB : ∀ k, ∃ r : ℝ, B k = (r : EReal)) (hC : ∀ k, ∃ r : ℝ, C k = (r : EReal))
    (h0 : ∃ r : ℝ, w0 = (r : EReal)) (h1 : ∃ r : ℝ, w1 = (r : EReal)) (h2 : ∃ r : ℝ, w2 = (r : EReal)) :
    ∑ k, f k * ((w0 * A k + w1 * B k) + w2 * C k)
      = ((w0 * ∑ k, f k * A k) + w1 * ∑ k, f k * B k) + w2 * ∑ k, f k * C k := by
  choose f' hf' using hf
  choose A' hA' using hA
  choose B' hB' using hB
  choose C' hC' using hC
  obtain ⟨r0, rfl⟩ := h0
  obtain ⟨r1, rfl⟩ := h1
  obtain ⟨r2, rfl⟩ := h2
  simp only [hf', hA', hB', hC']
  exact sum_mul_mix f' A' B' C' r0 r1 r2

end LibWeightedMix
-- ==== Proof.Weights2.lean ====
import proofs.«125390_j86715389706549_1_alg».proof.Proof.Weights
import proofs.«125390_j86715389706549_1_alg».proof.Proof.LibWeightedMix
import Idealize.ShloMosaic.Lib.IdealHost
import Idealize.ShloMosaic.Lib.Pipeline.Value

noncomputable section

namespace Cert.KernelIdeal.Weights

open Idealize.ShloMosaic Idealize.ShloMosaic.TcCoe Idealize.SL.Sem
open Idealize.ShloMosaic.ValueIdx
open Cert.KernelIdeal.Gen
open scoped BigOperators

/-! ## The mixed matrix at an index -/

/-- Entry `K` of a three-entry array, cut out as a one-entry array, recast as a scalar and spread over a matrix,
    reads that entry everywhere. -/
theorem spread0_apply (w : (⟨S3, .f32⟩ : BufTy).Contents (Elt Ideal)) (i : S256x256.Idx) :
    spread0 (F := Ideal) w i = w (ix1 (0 : Fin 3)) := by
  unfold spread0
  rw [broadcastInDim_scalar_apply,
    shapeCast_apply _ shapeCasts_S1_S_ ix0 (ix1 (0 : Fin 1)) (by decide),
    extractStridedSlice_apply ![0] w slices_S3_S1_0 (ix1 (0 : Fin 1)) (ix1 (0 : Fin 3)) (by decide)]

theorem spread1_apply (w : (⟨S3, .f32⟩ : BufTy).Contents (Elt Ideal)) (i : S256x256.Idx) :
    spread1 (F := Ideal) w i = w (ix1 (1 : Fin 3)) := by
  unfold spread1
  rw [broadcastInDim_scalar_apply,
    shapeCast_apply _ shapeCasts_S1_S_ ix0 (ix1 (0 : Fin 1)) (by decide),
    extractStridedSlice_apply ![1] w slices_S3_S1_1 (ix1 (0 : Fin 1)) (ix1 (1 : Fin 3)) (by decide)]

theorem spread2_apply (w : (⟨S3, .f32⟩ : BufTy).Contents (Elt Ideal)) (i : S256x256.Idx) :
    spread2 (F := Ideal) w i = w (ix1 (2 : Fin 3)) := by
  unfold spread2
  rw [broadcastInDim_scalar_apply,
    shapeCast_apply _ shapeCasts_S1_S_ ix0 (ix1 (0 : Fin 1)) (by decide),
    extractStridedSlice_apply ![2] w slices_S3_S1_2 (ix1 (0 : Fin 1)) (ix1 (2 : Fin 3)) (by decide)]

/-- The mixed matrix at an entry: (w₀ · A + w₁ · B) + w₂ · C there. -/
theorem wmat_apply (w : (⟨S3, .f32⟩ : BufTy).Contents (Elt Ideal))
    (A B C : (⟨S256x256, .f32⟩ : BufTy).Contents (Elt Ideal)) (i : S256x256.Idx) :
    wmat (F := Ideal) w A B C i
      = (w (ix1 (0 : Fin 3)) * A i + w (ix1 (1 : Fin 3)) * B i) + w (ix1 (2 : Fin 3)) * C i := by
  unfold wmat
  rw [addf_apply, addf_apply, mulf_apply, mulf_apply, mulf_apply, spread0_apply, spread1_apply, spread2_apply]

/-! ## The weights are real numbers

Every stage of a softmax keeps real entries real: the maximum of real numbers joined with minus infinity is one of
them, a difference of real numbers is real, an exponential of a real number is a positive real, a sum of positive
reals started at zero is a positive real, and a real divided by a real that is not zero is real. -/

/-- Every entry is a real number. -/
def IsReal {s : Shape} (x : s.Idx → EReal) : Prop := ∀ i, ∃ r : ℝ, x i = (r : EReal)

/-- Every entry is a positive real number. -/
def IsPos {s : Shape} (x : s.Idx → EReal) : Prop := ∀ i, ∃ r : ℝ, 0 < r ∧ x i = (r : EReal)

theorem IsPos.isReal {s : Shape} {x : s.Idx → EReal} (h : IsPos x) : IsReal x :=
  fun i => let ⟨r, _, e⟩ := h i; ⟨r, e⟩

theorem isReal_broadcastInDim {s t : Shape} (dims : Fin s.rank → Fin t.rank) (h : s.BroadcastsInDim t dims)
    {x : s.Idx → EReal} (hx : IsReal x) : IsReal (broadcastInDim t dims h x) := by
  intro j; unfold broadcastInDim; exact hx _

theorem isPos_broadcastInDim {s t : Shape} (dims : Fin s.rank → Fin t.rank) (h : s.BroadcastsInDim t dims)
    {x : s.Idx → EReal} (hx : IsPos x) : IsPos (broadcastInDim t dims h x) := by
  intro j; unfold broadcastInDim; exact hx _

theorem isReal_subf {s : Shape} {x y : FVec Ideal s .f32} (hx : IsReal x) (hy : IsReal y) : IsReal (subf x y) := by
  intro i
  obtain ⟨a, ha⟩ := hx i; obtain ⟨b, hb⟩ := hy i
  exact ⟨a - b, by rw [subf_apply, ha, hb, EReal.coe_sub]⟩

/-- Joining with minus infinity changes nothing. -/
theorem isReal_max_bot {s : Shape} {y : FVec Ideal s .f32} (hy : IsReal y) :
    IsReal (maximumf (constant (F := Ideal) s .f32 0xFF800000#32) y) := by
  intro i
  obtain ⟨b, hb⟩ := hy i
  refine ⟨b, ?_⟩
  rw [maximumf_apply, constant_apply, hb]
  have h3 : Ideal.ofBits .f32 0xFF800000#32 = (⊥ : EReal) := by simp [Ideal.ofBits, Ideal.ieee]
  rw [h3]; exact max_eq_right bot_le

/-- The exponential of a real number is a positive real number. -/
theorem isPos_exp {s : Shape} {x : FVec Ideal s .f32} (hx : IsReal x) : IsPos (Host.exp x) := by
  intro i
  obtain ⟨a, ha⟩ := hx i
  exact ⟨Real.exp a, Real.exp_pos a, by
    show FloatOps.hostUnary (F := Ideal) .exp (x i) = _
    rw [Ideal.hostUnary_exp_def, ha, Ideal.exp_coe]⟩

/-- A real number divided by a positive real number is a real number. -/
theorem isReal_divf {s : Shape} {x y : FVec Ideal s .f32} (hx : IsReal x) (hy : IsPos y) : IsReal (Host.divf x y) := by
  intro i
  obtain ⟨a, ha⟩ := hx i; obtain ⟨b, hb0, hb⟩ := hy i
  refine ⟨a * (1 / b), ?_⟩
  rw [hostDivf_apply, ha, hb, Ideal.div_coe hb0.ne', EReal.coe_mul]

/-- The maximum, from minus infinity, over a finite set of real numbers is minus infinity or a real number. -/
theorem fold_maximumf_real {ι : Type} (S : Finset ι) (x : ι → Ideal .f32) (hx : ∀ i, ∃ r : ℝ, x i = (r : EReal)) :
    S.fold (FloatOps.maximumf (F := Ideal) (φ := .f32)) (⊥ : EReal) x = (⊥ : EReal)
      ∨ ∃ r : ℝ, S.fold (FloatOps.maximumf (F := Ideal) (φ := .f32)) (⊥ : EReal) x = (r : EReal) := by
  classical
  induction S using Finset.induction_on with
  | empty => left; rfl
  | insert a S ha ih =>
    right
    rw [Finset.fold_insert ha, Ideal.maximumf_def]
    obtain ⟨r, hr⟩ := hx a
    rcases ih with h | ⟨q, hq⟩
    · exact ⟨r, by rw [h, hr]; exact max_eq_left bot_le⟩
    · exact ⟨max r q, by rw [hq, hr]; exact (EReal.coe_strictMono.monotone.map_max).symm⟩

/-- The maximum of a nonempty array of real numbers over all its axes, from minus infinity, is a real number. -/
theorem isReal_maxReduce {s : Shape} {axes : List (Fin s.rank)} [Nonempty s.Idx] {x : FVec Ideal s .f32} (hx : IsReal x)
    (hr : s.ReducesTo axes ⟨0, ![]⟩) (hu : 0 < (⟨0, ![]⟩ : Shape).numel) :
    IsReal (Host.reduce (FloatOps.maximumf (F := Ideal) (φ := .f32)) x (constant (F := Ideal) ⟨0, ![]⟩ .f32 0xFF800000#32) hr hu) := by
  classical
  intro j
  haveI : Subsingleton (⟨0, ![]⟩ : Shape).Idx := ⟨fun a b => funext fun d => d.elim0⟩
  rw [Host.reduce_eq_fold FloatOps.maximumf x _ hr hu j]
  have hall : (Finset.univ.filter fun i => hr.drop i = j) = Finset.univ :=
    Finset.filter_true_of_mem fun i _ => Subsingleton.elim _ _
  have h3 : Ideal.ofBits .f32 0xFF800000#32 = (⊥ : EReal) := by simp [Ideal.ofBits, Ideal.ieee]
  rw [hall, constant_apply, h3]
  obtain ⟨i0⟩ := ‹Nonempty s.Idx›
  rw [← Finset.insert_erase (Finset.mem_univ i0), Finset.fold_insert (Finset.notMem_erase _ _), Ideal.maximumf_def]
  obtain ⟨r, hr0⟩ := hx i0
  rcases fold_maximumf_real (Finset.univ.erase i0) x hx with h | ⟨q, hq⟩
  · exact ⟨r, by rw [h, hr0]; exact max_eq_left bot_le⟩
  · exact ⟨max r q, by rw [hq, hr0]; exact (EReal.coe_strictMono.monotone.map_max).symm⟩

/-- The sum of a nonempty array of positive real numbers over all its axes, from zero, is a positive real number. -/
theorem isPos_sumReduce {s : Shape} {axes : List (Fin s.rank)} [Nonempty s.Idx] {y : FVec Ideal s .f32} (hy : IsPos y)
    (hr : s.ReducesTo axes ⟨0, ![]⟩) (hu : 0 < (⟨0, ![]⟩ : Shape).numel) :
    IsPos (Host.reduceAdd y (constant (F := Ideal) ⟨0, ![]⟩ .f32 0x00000000#32) hr hu) := by
  intro j
  rw [hostReduceAdd_apply, Ideal.hostReduceAdd_total hr (fun b => b.elim0) y _ j, constant_apply,
    Ideal.ofBits_zero_f32, zero_add]
  choose y' hy0 hy' using hy
  refine ⟨∑ i, y' i, Finset.sum_pos (fun i _ => hy0 i) Finset.univ_nonempty, ?_⟩
  simp only [hy']
  exact (LibWeightedMix.coe_finset_sum _ _).symm

/-- Every entry of a concatenation is an entry of one of its pieces. -/
theorem isReal_concatenate {t : Shape} (a : Fin t.rank) (xs : List ((s : Shape) × (s.Idx → EReal)))
    (h : Shape.Concatenates (xs.map (·.1)) t a) (hxs : ∀ p ∈ xs, IsReal p.2) : IsReal (concatenate t a xs h) := by
  intro j; unfold concatenate; exact hxs _ (List.getElem_mem _) _

instance nonempty_S1 : Nonempty S1.Idx := ⟨ix1 (0 : Fin 1)⟩
instance nonempty_S3 : Nonempty S3.Idx := ⟨ix1 (0 : Fin 3)⟩

theorem isReal_sm1 {a : FVec Ideal S1 .f32} (ha : IsReal a) : IsReal (sm1 (F := Ideal) a) := by
  unfold sm1
  have key : IsReal (subf a (broadcastInDim S1 ![] bcast_S_S1
      (maximumf (constant (F := Ideal) S_ .f32 0xFF800000#32)
        (Host.reduce FloatOps.maximumf a (constant (F := Ideal) S_ .f32 0xFF800000#32) reducesTo_S1_S_d0 h_S_)))) :=
    isReal_subf ha (isReal_broadcastInDim _ _ (isReal_max_bot (isReal_maxReduce ha _ _)))
  exact isReal_divf (isPos_exp key).isReal (isPos_broadcastInDim _ _ (isPos_sumReduce (isPos_exp key) _ _))

theorem isReal_sm3 {c : FVec Ideal S3 .f32} (hc : IsReal c) : IsReal (sm3 (F := Ideal) c) := by
  unfold sm3
  have key : IsReal (subf c (broadcastInDim S3 ![0] bcast_S1_S3_0 (broadcastInDim S1 ![] bcast_S_S1
      (maximumf (constant (F := Ideal) S_ .f32 0xFF800000#32)
        (Host.reduce FloatOps.maximumf c (constant (F := Ideal) S_ .f32 0xFF800000#32) reducesTo_S3_S_d0 h_S_))))) :=
    isReal_subf hc (isReal_broadcastInDim _ _ (isReal_broadcastInDim _ _ (isReal_max_bot (isReal_maxReduce hc _ _))))
  exact isReal_divf (isPos_exp key).isReal
    (isPos_broadcastInDim _ _ (isPos_broadcastInDim _ _ (isPos_sumReduce (isPos_exp key) _ _)))

/-- The three weights are real numbers whenever the three one-entry arguments are. -/
theorem wts_real (a0 a1 a2 : (⟨S1, .f32⟩ : BufTy).Contents (Elt Ideal))
    (h0 : ∀ i, ∃ r : ℝ, a0 i = (r : EReal)) (h1 : ∀ i, ∃ r : ℝ, a1 i = (r : EReal))
    (h2 : ∀ i, ∃ r : ℝ, a2 i = (r : EReal)) :
    ∀ j, ∃ r : ℝ, wts (F := Ideal) a0 a1 a2 j = (r : EReal) := by
  unfold wts
  refine isReal_sm3 (isReal_concatenate _ _ _ ?_)
  intro p hp
  simp only [List.mem_cons, List.not_mem_nil, or_false] at hp
  rcases hp with rfl | rfl | rfl
  · exact isReal_sm1 h0
  · exact isReal_sm1 h1
  · exact isReal_sm1 h2

end Cert.KernelIdeal.Weights
-- ==== Proof.MixEq.lean ====
/-
  The two programs' mixed products agree on real inputs.

  The reference multiplies the features by each of the three weight matrices and mixes the three products with the
  weights; the kernel mixes the three matrices first and multiplies once. At entry (p, q) the first is
      (w₀ · Σₖ f(p,k) A(k,q) + w₁ · Σₖ f(p,k) B(k,q)) + w₂ · Σₖ f(p,k) C(k,q)
  and the second is
      Σₖ f(p,k) · ((w₀ · A(k,q) + w₁ · B(k,q)) + w₂ · C(k,q)).
  The extended reals do not distribute at the infinities, so the equality is stated for real entries, where it is
  distributivity over a finite sum.
-/
import proofs.«125390_j86715389706549_1_alg».proof.Proof.RefRead
import proofs.«125390_j86715389706549_1_alg».proof.Proof.Weights2
import proofs.«125390_j86715389706549_1_alg».proof.Proof.KValue0
import proofs.«125390_j86715389706549_1_alg».proof.Proof.LibPlainDot
import proofs.«125390_j86715389706549_1_alg».proof.Proof.LibWeightedMix

noncomputable section

namespace Cert.MixEq

open Idealize.ShloMosaic Idealize.ShloMosaic.TcCoe Idealize.SL.Sem
open Idealize.ShloMosaic.ValueIdx
open scoped BigOperators

/-- One term of the reference's mix at entry (p, q): weight `K` times row p of the features against column q of
    that weight's matrix. -/
theorem mixTerm_apply (w : FVec Ideal Cert.ReferenceIdeal.S3 .f32) (feat : FVec Ideal Cert.ReferenceIdeal.S50000x256 .f32)
    (W : FVec Ideal Cert.ReferenceIdeal.S256x256 .f32) (K : Fin 3) (hs : Cert.ReferenceIdeal.S3.Slices ![K.val] Cert.ReferenceIdeal.S1)
    (p : Fin 50000) (q : Fin 256) :
    Cert.ReferenceIdeal.RefRead.mixTerm (F := Ideal) w feat W ![K.val] hs (ix2 p q)
      = w (ix1 K) * ∑ k : Fin 256, feat (ix2 p k) * W (ix2 k q) := by
  unfold Cert.ReferenceIdeal.RefRead.mixTerm
  rw [mulf_apply, broadcastInDim_scalar_apply,
    shapeCast_apply _ Cert.ReferenceIdeal.Gen.shapeCasts_S1_S_ ix0 (ix1 (0 : Fin 1)) (by decide),
    extractStridedSlice_apply ![K.val] w hs (ix1 (0 : Fin 1)) (ix1 K) (by intro a; fin_cases a; simp [ix1])]
  congr 1
  exact PlainDot.dotGeneral_apply Cert.ReferenceIdeal.dot_S50000x256_S256x256_S50000x256_1_0_0_1_n_n
    rfl rfl rfl rfl rfl rfl rfl rfl none .single feat W p q

/-- The reference's mix of three products is the product with the kernel's mixed matrix, entry by entry. -/
theorem mix_eq (w : FVec Ideal Cert.KernelIdeal.S3 .f32) (feat : FVec Ideal Cert.KernelIdeal.S50000x256 .f32)
    (W0 W1 W2 : FVec Ideal Cert.KernelIdeal.S256x256 .f32)
    (hw : ∀ j, ∃ r : ℝ, w j = (r : EReal)) (hf : ∀ i, ∃ r : ℝ, feat i = (r : EReal))
    (h0 : ∀ i, ∃ r : ℝ, W0 i = (r : EReal)) (h1 : ∀ i, ∃ r : ℝ, W1 i = (r : EReal)) (h2 : ∀ i, ∃ r : ℝ, W2 i = (r : EReal)) :
    Cert.ReferenceIdeal.RefRead.mixR (F := Ideal) w feat W0 W1 W2
      = Cert.KernelIdeal.Val0.MM feat (Cert.KernelIdeal.Weights.wmat (F := Ideal) w W0 W1 W2) := by
  funext i
  obtain ⟨p, q, rfl⟩ : ∃ (p : Fin 50000) (q : Fin 256), i = ix2 p q := ⟨i 0, i 1, eq_ix2 i⟩
  have hR : Cert.KernelIdeal.Val0.MM feat (Cert.KernelIdeal.Weights.wmat (F := Ideal) w W0 W1 W2) (ix2 p q)
      = ∑ k : Fin 256, feat (ix2 p k) * ((w (ix1 (0 : Fin 3)) * W0 (ix2 k q) + w (ix1 (1 : Fin 3)) * W1 (ix2 k q))
          + w (ix1 (2 : Fin 3)) * W2 (ix2 k q)) := by
    show (∑ k : Fin 256, feat (ix2 p k) * Cert.KernelIdeal.Weights.wmat (F := Ideal) w W0 W1 W2 (ix2 k q)) = _
    exact Finset.sum_congr rfl fun k _ => by rw [Cert.KernelIdeal.Weights.wmat_apply]
  rw [hR]
  unfold Cert.ReferenceIdeal.RefRead.mixR
  have e0 : Cert.ReferenceIdeal.RefRead.mixTerm (F := Ideal) w feat W0 ![0] Cert.ReferenceIdeal.Gen.slices_S3_S1_0 (ix2 p q)
      = w (ix1 (0 : Fin 3)) * ∑ k : Fin 256, feat (ix2 p k) * W0 (ix2 k q) := mixTerm_apply w feat W0 (0 : Fin 3) _ p q
  have e1 : Cert.ReferenceIdeal.RefRead.mixTerm (F := Ideal) w feat W1 ![1] Cert.ReferenceIdeal.Gen.slices_S3_S1_1 (ix2 p q)
      = w (ix1 (1 : Fin 3)) * ∑ k : Fin 256, feat (ix2 p k) * W1 (ix2 k q) := mixTerm_apply w feat W1 (1 : Fin 3) _ p q
  have e2 : Cert.ReferenceIdeal.RefRead.mixTerm (F := Ideal) w feat W2 ![2] Cert.ReferenceIdeal.Gen.slices_S3_S1_2 (ix2 p q)
      = w (ix1 (2 : Fin 3)) * ∑ k : Fin 256, feat (ix2 p k) * W2 (ix2 k q) := mixTerm_apply w feat W2 (2 : Fin 3) _ p q
  rw [addf_apply, addf_apply, e0, e1, e2]
  exact (LibWeightedMix.sum_mul_mix_of_real (fun k : Fin 256 => feat (ix2 p k)) (fun k => W0 (ix2 k q))
    (fun k => W1 (ix2 k q)) (fun k => W2 (ix2 k q)) (w (ix1 (0 : Fin 3))) (w (ix1 (1 : Fin 3))) (w (ix1 (2 : Fin 3)))
    (fun k => hf _) (fun k => h0 _) (fun k => h1 _) (fun k => h2 _) (hw _) (hw _) (hw _)).symm

end Cert.MixEq
-- ==== Proof.Bridge.lean ====
/-
  The two programs compute one function of their arguments when the float arguments are real numbers.
  The mixing weights are the same term in both. With real weights, features and matrices, the reference's weighted sum
  of three products is the one product with the weighted sum of the matrices (a finite sum of reals distributes).
  The segment means and their average are the same operations applied to that common array. The reference's layer
  norm, read entry by entry, is the row-wise layer norm the kernel's second call computes: its variance divides by
  256 - 0 = 256, takes the branch 256 > 0 of its select, and both sides start their row sums from 0.
-/
import proofs.«125390_j86715389706549_1_alg».proof.Proof.KOut
import proofs.«125390_j86715389706549_1_alg».proof.Proof.RefRead
import proofs.«125390_j86715389706549_1_alg».proof.Proof.RefNorm
import proofs.«125390_j86715389706549_1_alg».proof.Proof.MixEq
import proofs.«125390_j86715389706549_1_alg».proof.Proof.Weights2

set_option maxRecDepth 16384

noncomputable section

namespace Cert.Bridge

open Idealize.ShloMosaic Idealize.ShloMosaic.TcCoe Idealize.ShloMosaic.ValueIdx
open Cert.LnSpec

/-- The reference's layer norm is the row-wise layer norm with the scale and shift vectors laid out as rows. -/
theorem norm_bridge (x : FVec Ideal Cert.KernelIdeal.S50000x256 .f32) (gamma beta : FVec Ideal Cert.KernelIdeal.S256 .f32) :
    Cert.ReferenceIdeal.RefRead.normR (F := Ideal) x gamma beta
      = Cert.KernelIdeal.Val1.LN x (shapeCast Cert.KernelIdeal.S1x256 gamma Cert.KernelIdeal.Gen.shapeCasts_S256_S1x256)
          (shapeCast Cert.KernelIdeal.S1x256 beta Cert.KernelIdeal.Gen.shapeCasts_S256_S1x256) := by
  funext i
  obtain ⟨p, q, rfl⟩ : ∃ (p : Fin 50000) (q : Fin 256), i = ix2 p q := ⟨i 0, i 1, eq_ix2 i⟩
  refine (Cert.ReferenceIdeal.RefNorm.normR_apply x gamma beta p q).trans ?_
  unfold Cert.KernelIdeal.Val1.LN rowLN
  rw [shapeCast_a_1a_apply, shapeCast_a_1a_apply]
  simp only [Cert.ReferenceIdeal.RefNorm.rl, Cert.ReferenceIdeal.RefNorm.mu, Cert.ReferenceIdeal.RefNorm.var, mean, var, pos, c256, eps,
    Cert.ReferenceIdeal.RefNorm.ofBits_256, Ideal.ofBits_zero_f32, zero_add]

/-- The reference's result, as its three named stages of the arguments, is the kernel program's result. -/
theorem bridge (a0 : FVec Ideal Cert.KernelIdeal.S50000x256 .f32) (a1 a2 a3 : FVec Ideal Cert.KernelIdeal.S256x256 .f32) (a4 a5 a6 : FVec Ideal Cert.KernelIdeal.S1 .f32)
    (a7 a8 : FVec Ideal Cert.KernelIdeal.S256 .f32) (a9 a10 a11 a12 a13 a14 : IVec Cert.KernelIdeal.S400000 32)
    (h0 : ∀ i, ∃ r : ℝ, a0 i = (r : EReal)) (h1 : ∀ i, ∃ r : ℝ, a1 i = (r : EReal)) (h2 : ∀ i, ∃ r : ℝ, a2 i = (r : EReal))
    (h3 : ∀ i, ∃ r : ℝ, a3 i = (r : EReal)) (h4 : ∀ i, ∃ r : ℝ, a4 i = (r : EReal)) (h5 : ∀ i, ∃ r : ℝ, a5 i = (r : EReal))
    (h6 : ∀ i, ∃ r : ℝ, a6 i = (r : EReal)) :
    Cert.ReferenceIdeal.RefRead.normR (F := Ideal) (Cert.ReferenceIdeal.RefRead.aggR (F := Ideal)
        (Cert.ReferenceIdeal.RefRead.mixR (F := Ideal) (Cert.ReferenceIdeal.RefRead.wtsR (F := Ideal) a4 a5 a6) a0 a1 a2 a3) a9 a10 a11 a12 a13 a14) a7 a8
      = Cert.KernelIdeal.Out.outK a0 a1 a2 a3 a4 a5 a6 a7 a8 a9 a10 a11 a12 a13 a14 := by
  have hw : Cert.ReferenceIdeal.RefRead.wtsR (F := Ideal) a4 a5 a6 = Cert.KernelIdeal.Weights.wts (F := Ideal) a4 a5 a6 := rfl
  have hmix := Cert.MixEq.mix_eq (Cert.KernelIdeal.Weights.wts (F := Ideal) a4 a5 a6) a0 a1 a2 a3
    (Cert.KernelIdeal.Weights.wts_real a4 a5 a6 h4 h5 h6) h0 h1 h2 h3
  rw [hw, hmix, norm_bridge]
  rfl

end Cert.Bridge

end
-- ==== Proof.FiniteInputs.lean ====
import proofs.«125390_j86715389706549_1_alg».proof.Defs
import proofs.«125390_j86715389706549_1_alg».proof.Proof.Gen.Pre_finite_inputs
import Idealize.ShloMosaic.Lib.ReduceAll
import Idealize.ShloMosaic.Lib.ValueIdx

noncomputable section

namespace Cert.KernelIdeal.FiniteInputs

open Idealize.ShloMosaic Idealize.ShloMosaic.TcCoe Idealize.SL.Sem

/-- The scalar shape has one index. -/
instance subsingleton_scalar_idx : Subsingleton (⟨0, ![]⟩ : Shape).Idx := ⟨fun a b => funext fun d => d.elim0⟩

/-- An extended real whose absolute value, the larger of itself and its negation, lies strictly below plus
    infinity is a real number: it is neither infinity. -/
theorem real_of_abs_lt_top (x : EReal) (h : max x (-x) < ⊤) : ∃ r : ℝ, x = (r : EReal) := by
  induction x using EReal.rec with
  | bot => simp at h
  | coe r => exact ⟨r, rfl⟩
  | top => simp at h

/-- An array that passes the finiteness check — every entry's absolute value compared strictly below plus
    infinity, the comparisons conjoined over all axes into one bit that is one — has real entries. -/
theorem real_of_check {s : Shape} {axes : List (Fin s.rank)} (x : FVec Ideal s .f32)
    (hb : (⟨0, ![]⟩ : Shape).BroadcastsInDim s (![] : Fin 0 → Fin s.rank)) (hr : s.ReducesTo axes ⟨0, ![]⟩)
    (hu : 0 < (⟨0, ![]⟩ : Shape).numel) (j : (⟨0, ![]⟩ : Shape).Idx)
    (e : Host.reduce IntOp.andi
          (cmpf .olt (Host.absf x) (broadcastInDim s ![] hb (constant (F := Ideal) ⟨0, ![]⟩ .f32 0x7F800000#32)))
          (constantI ⟨0, ![]⟩ 1 1#1) hr hu j = 1#1) :
    ∀ i, ∃ r : ℝ, x i = (r : EReal) := by
  intro i
  have h1 := Host.reduce_andi_all _ _ hr hu j e i
  refine real_of_abs_lt_top (x i) ?_
  have h2 : Ideal.cmp .olt (max (x i) (-(x i))) (Ideal.ofBits .f32 0x7F800000#32) = 1#1 := h1
  have h3 : Ideal.ofBits .f32 0x7F800000#32 = (⊤ : EReal) := by simp [Ideal.ofBits, Ideal.ieee]
  rw [h3] at h2
  by_contra hn
  simp [Ideal.cmp, hn] at h2

/-- A conjunction of two bits, read at an index, is the conjunction of the bits there. -/
theorem andi_apply {s : Shape} {w : Nat} (x y : IVec s w) (i : s.Idx) : andi x y i = IntOp.andi (x i) (y i) := rfl

/-- Under the precondition every entry of the nine float arguments is a real number: the precondition is the
    conjunction, over the nine arrays, of the finiteness check, each conjunct read back entry by entry. -/
theorem real_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
      ∧ (∀ i, ∃ r : ℝ, m ((c.tc : Thread Cert.KernelIdeal.nD Cert.KernelIdeal.τ).loc Cert.KernelIdeal.main_arg1) i = (r : EReal))
      ∧ (∀ i, ∃ r : ℝ, m ((c.tc : Thread Cert.KernelIdeal.nD Cert.KernelIdeal.τ).loc Cert.KernelIdeal.main_arg2) i = (r : EReal))
      ∧ (∀ i, ∃ r : ℝ, m ((c.tc : Thread Cert.KernelIdeal.nD Cert.KernelIdeal.τ).loc Cert.KernelIdeal.main_arg3) i = (r : EReal))
      ∧ (∀ i, ∃ r : ℝ, m ((c.tc : Thread Cert.KernelIdeal.nD Cert.KernelIdeal.τ).loc Cert.KernelIdeal.main_arg4) i = (r : EReal))
      ∧ (∀ i, ∃ r : ℝ, m ((c.tc : Thread Cert.KernelIdeal.nD Cert.KernelIdeal.τ).loc Cert.KernelIdeal.main_arg5) i = (r : EReal))
      ∧ (∀ i, ∃ r : ℝ, m ((c.tc : Thread Cert.KernelIdeal.nD Cert.KernelIdeal.τ).loc Cert.KernelIdeal.main_arg6) i = (r : EReal))
      ∧ (∀ i, ∃ r : ℝ, m ((c.tc : Thread Cert.KernelIdeal.nD Cert.KernelIdeal.τ).loc Cert.KernelIdeal.main_arg7) i = (r : EReal))
      ∧ (∀ i, ∃ r : ℝ, m ((c.tc : Thread Cert.KernelIdeal.nD Cert.KernelIdeal.τ).loc Cert.KernelIdeal.main_arg8) i = (r : EReal)) := by
  have h0 := congrFun (h c) ValueIdx.ix0
  dsimp only [Cert.Pre_finite_inputs.fn, Cert.Pre_finite_inputs.fn_part1, Cert.Pre_finite_inputs.fn_part2] at h0
  simp only [andi_apply, IntOp.andi_eq_one] at h0
  obtain ⟨⟨⟨⟨⟨⟨⟨⟨e0, e1⟩, e2⟩, e3⟩, e4⟩, e5⟩, e6⟩, e7⟩, e8⟩ := h0
  exact ⟨real_of_check _ _ _ _ _ e0, real_of_check _ _ _ _ _ e1, real_of_check _ _ _ _ _ e2,
    real_of_check _ _ _ _ _ e3, real_of_check _ _ _ _ _ e4, real_of_check _ _ _ _ _ e5,
    real_of_check _ _ _ _ _ e6, real_of_check _ _ _ _ _ e7, real_of_check _ _ _ _ _ e8⟩

end Cert.KernelIdeal.FiniteInputs
-- ==== Proof.lean ====
/-
  The certificate of the attention-weighted three-relation graph layer: a Pallas program (host operations, a tiled
  matrix product, host gather / scatter-add segment means, a tiled ReLU + layer norm) against its plain reference.

  Frames. The kernel program, at the bit-exact and at the ideal instance, is run stretch by stretch: its two pallas
  calls through the pipeline launch theorem with each body run symbolically, its two host stretches as straight
  lines of operations; no stretch writes an argument. The reference is one straight line of host operations.

  Values, on the extended reals. The kernel's matrix product of the features with the weighted sum of the three weight
  matrices equals the reference's weighted sum of three products because the mixing weights (a softmax of softmaxes,
  real whenever the logits are) and all float inputs are real, so a finite sum distributes; the gather / scatter-add
  means and their average are the same operations on both sides; the second call's row-wise layer norm of the positive
  parts is the reference's, entry by entry. The idealisation rewrote nothing, so the preservation claim is empty.
-/
import proofs.«125390_j86715389706549_1_alg».proof.Defs
import proofs.«125390_j86715389706549_1_alg».proof.Proof.Gen.Kernel
import proofs.«125390_j86715389706549_1_alg».proof.Proof.Gen.KernelIdeal
import proofs.«125390_j86715389706549_1_alg».proof.Proof.Gen.ReferenceIdeal
import proofs.«125390_j86715389706549_1_alg».proof.Proof.Gen.Pre_finite_inputs
import proofs.«125390_j86715389706549_1_alg».proof.Proof.BRun
import proofs.«125390_j86715389706549_1_alg».proof.Proof.KRun
import proofs.«125390_j86715389706549_1_alg».proof.Proof.KOut
import proofs.«125390_j86715389706549_1_alg».proof.Proof.RefRun
import proofs.«125390_j86715389706549_1_alg».proof.Proof.RefRead
import proofs.«125390_j86715389706549_1_alg».proof.Proof.Bridge
import proofs.«125390_j86715389706549_1_alg».proof.Proof.FiniteInputs
import Idealize.ShloMosaic.Adequacy
import Idealize.ShloMosaic.Init

set_option maxRecDepth 16384

noncomputable section

namespace Cert.Proof

open Idealize.ShloMosaic Idealize.ShloMosaic.TcCoe Idealize.SL.Sem

section
variable [hKernel : Cert.Kernel.Facts] [hKernelIdeal : Cert.KernelIdeal.Facts] [hReferenceIdeal : Cert.ReferenceIdeal.Facts]
  [hPre_finite_inputs : Cert.Pre_finite_inputs.Facts]

/-- The bit-exact kernel program runs to the end and keeps its arguments. -/
theorem frame_k : Cert.frame_Kernel := fun m ρ _ => Cert.Kernel.Run.frame (F := Bits) m ρ

/-- The idealised kernel program runs to the end and keeps its arguments. -/
theorem frame_ki : Cert.frame_KernelIdeal := fun m ρ _ => Cert.KernelIdeal.Run.frame (F := Ideal) m ρ

/-- The reference, a straight line of host operations none of which writes an argument. -/
theorem frame_ri : Cert.frame_ReferenceIdeal := fun m ρ _ =>
  (θ_run Cert.ReferenceIdeal.defs _ _).mono (fun r h c =>
    ⟨(h c Cert.ReferenceIdeal.main_arg0).trans (Cert.ReferenceIdeal.RefRead.arg_eq_0 _),
     (h c Cert.ReferenceIdeal.main_arg1).trans (Cert.ReferenceIdeal.RefRead.arg_eq_1 _),
     (h c Cert.ReferenceIdeal.main_arg2).trans (Cert.ReferenceIdeal.RefRead.arg_eq_2 _),
     (h c Cert.ReferenceIdeal.main_arg3).trans (Cert.ReferenceIdeal.RefRead.arg_eq_3 _),
     (h c Cert.ReferenceIdeal.main_arg4).trans (Cert.ReferenceIdeal.RefRead.arg_eq_4 _),
     (h c Cert.ReferenceIdeal.main_arg5).trans (Cert.ReferenceIdeal.RefRead.arg_eq_5 _),
     (h c Cert.ReferenceIdeal.main_arg6).trans (Cert.ReferenceIdeal.RefRead.arg_eq_6 _),
     (h c Cert.ReferenceIdeal.main_arg7).trans (Cert.ReferenceIdeal.RefRead.arg_eq_7 _),
     (h c Cert.ReferenceIdeal.main_arg8).trans (Cert.ReferenceIdeal.RefRead.arg_eq_8 _),
     (h c Cert.ReferenceIdeal.main_arg9).trans (Cert.ReferenceIdeal.RefRead.arg_eq_9 _),
     (h c Cert.ReferenceIdeal.main_arg10).trans (Cert.ReferenceIdeal.RefRead.arg_eq_10 _),
     (h c Cert.ReferenceIdeal.main_arg11).trans (Cert.ReferenceIdeal.RefRead.arg_eq_11 _),
     (h c Cert.ReferenceIdeal.main_arg12).trans (Cert.ReferenceIdeal.RefRead.arg_eq_12 _),
     (h c Cert.ReferenceIdeal.main_arg13).trans (Cert.ReferenceIdeal.RefRead.arg_eq_13 _),
     (h c Cert.ReferenceIdeal.main_arg14).trans (Cert.ReferenceIdeal.RefRead.arg_eq_14 _)⟩)
    (Cert.ReferenceIdeal.RefRun.run_main (F := Ideal) m ρ)

/-- From memories agreeing on the arguments, both idealised programs end with the same result array. -/
theorem algebraic : Cert.algebraic_KernelIdeal_ReferenceIdeal := by
  intro m ρ m' ρ' hpre hagree
  refine ⟨fun c => Cert.KernelIdeal.Out.outK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · exact (θ_run Cert.KernelIdeal.defs _ _).mono (fun r h c =>
      ⟨(h c _ (Cert.KernelIdeal.Run.mem_uc Cert.KernelIdeal.main_v113 (by decide))).trans (Cert.KernelIdeal.Out.out_eq m ρ c),
       (h c _ (Cert.KernelIdeal.Run.mem_uc Cert.KernelIdeal.main_arg0 (by decide))).trans (Cert.KernelIdeal.Run.W4_main_arg0 m ρ c),
       (h c _ (Cert.KernelIdeal.Run.mem_uc Cert.KernelIdeal.main_arg1 (by decide))).trans (Cert.KernelIdeal.Run.W4_main_arg1 m ρ c),
       (h c _ (Cert.KernelIdeal.Run.mem_uc Cert.KernelIdeal.main_arg2 (by decide))).trans (Cert.KernelIdeal.Run.W4_main_arg2 m ρ c),
       (h c _ (Cert.KernelIdeal.Run.mem_uc Cert.KernelIdeal.main_arg3 (by decide))).trans (Cert.KernelIdeal.Run.W4_main_arg3 m ρ c),
       (h c _ (Cert.KernelIdeal.Run.mem_uc Cert.KernelIdeal.main_arg4 (by decide))).trans (Cert.KernelIdeal.Run.W4_main_arg4 m ρ c),
       (h c _ (Cert.KernelIdeal.Run.mem_uc Cert.KernelIdeal.main_arg5 (by decide))).trans (Cert.KernelIdeal.Run.W4_main_arg5 m ρ c),
       (h c _ (Cert.KernelIdeal.Run.mem_uc Cert.KernelIdeal.main_arg6 (by decide))).trans (Cert.KernelIdeal.Run.W4_main_arg6 m ρ c),
       (h c _ (Cert.KernelIdeal.Run.mem_uc Cert.KernelIdeal.main_arg7 (by decide))).trans (Cert.KernelIdeal.Run.W4_main_arg7 m ρ c),
       (h c _ (Cert.KernelIdeal.Run.mem_uc Cert.KernelIdeal.main_arg8 (by decide))).trans (Cert.KernelIdeal.Run.W4_main_arg8 m ρ c),
       (h c _ (Cert.KernelIdeal.Run.mem_uc Cert.KernelIdeal.main_arg9 (by decide))).trans (Cert.KernelIdeal.Run.W4_main_arg9 m ρ c),
       (h c _ (Cert.KernelIdeal.Run.mem_uc Cert.KernelIdeal.main_arg10 (by decide))).trans (Cert.KernelIdeal.Run.W4_main_arg10 m ρ c),
       (h c _ (Cert.KernelIdeal.Run.mem_uc Cert.KernelIdeal.main_arg11 (by decide))).trans (Cert.KernelIdeal.Run.W4_main_arg11 m ρ c),
       (h c _ (Cert.KernelIdeal.Run.mem_uc Cert.KernelIdeal.main_arg12 (by decide))).trans (Cert.KernelIdeal.Run.W4_main_arg12 m ρ c),
       (h c _ (Cert.KernelIdeal.Run.mem_uc Cert.KernelIdeal.main_arg13 (by decide))).trans (Cert.KernelIdeal.Run.W4_main_arg13 m ρ c),
       (h c _ (Cert.KernelIdeal.Run.mem_uc Cert.KernelIdeal.main_arg14 (by decide))).trans (Cert.KernelIdeal.Run.W4_main_arg14 m ρ c)⟩)
      (Cert.KernelIdeal.Run.run (F := Ideal) m ρ)
  · refine (θ_run Cert.ReferenceIdeal.defs _ _).mono (fun r h c =>
      ⟨?_, (h c Cert.ReferenceIdeal.main_arg0).trans (Cert.ReferenceIdeal.RefRead.arg_eq_0 _),
       (h c Cert.ReferenceIdeal.main_arg1).trans (Cert.ReferenceIdeal.RefRead.arg_eq_1 _),
       (h c Cert.ReferenceIdeal.main_arg2).trans (Cert.ReferenceIdeal.RefRead.arg_eq_2 _),
       (h c Cert.ReferenceIdeal.main_arg3).trans (Cert.ReferenceIdeal.RefRead.arg_eq_3 _),
       (h c Cert.ReferenceIdeal.main_arg4).trans (Cert.ReferenceIdeal.RefRead.arg_eq_4 _),
       (h c Cert.ReferenceIdeal.main_arg5).trans (Cert.ReferenceIdeal.RefRead.arg_eq_5 _),
       (h c Cert.ReferenceIdeal.main_arg6).trans (Cert.ReferenceIdeal.RefRead.arg_eq_6 _),
       (h c Cert.ReferenceIdeal.main_arg7).trans (Cert.ReferenceIdeal.RefRead.arg_eq_7 _),
       (h c Cert.ReferenceIdeal.main_arg8).trans (Cert.ReferenceIdeal.RefRead.arg_eq_8 _),
       (h c Cert.ReferenceIdeal.main_arg9).trans (Cert.ReferenceIdeal.RefRead.arg_eq_9 _),
       (h c Cert.ReferenceIdeal.main_arg10).trans (Cert.ReferenceIdeal.RefRead.arg_eq_10 _),
       (h c Cert.ReferenceIdeal.main_arg11).trans (Cert.ReferenceIdeal.RefRead.arg_eq_11 _),
       (h c Cert.ReferenceIdeal.main_arg12).trans (Cert.ReferenceIdeal.RefRead.arg_eq_12 _),
       (h c Cert.ReferenceIdeal.main_arg13).trans (Cert.ReferenceIdeal.RefRead.arg_eq_13 _),
       (h c Cert.ReferenceIdeal.main_arg14).trans (Cert.ReferenceIdeal.RefRead.arg_eq_14 _)⟩)
      (Cert.ReferenceIdeal.RefRun.run_main (F := Ideal) m' ρ')
    obtain ⟨g0, g1, g2, g3, g4, g5, g6, g7, g8, g9, g10, g11, g12, g13, g14⟩ := hagree c
    obtain ⟨r0, r1, r2, r3, r4, r5, r6, r7, r8⟩ := Cert.KernelIdeal.FiniteInputs.real_of_pre m hpre c
    refine (h c Cert.ReferenceIdeal.main_v131).trans ((Cert.ReferenceIdeal.RefRead.out_eq _).trans ?_)
    show Cert.ReferenceIdeal.RefRead.normR (F := Ideal) (Cert.ReferenceIdeal.RefRead.aggR (F := Ideal)
        (Cert.ReferenceIdeal.RefRead.mixR (F := Ideal) (Cert.ReferenceIdeal.RefRead.wtsR (F := Ideal)
          (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)))
          (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)))
        (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)))
        (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) = _
    rw [g0, g1, g2, g3, g4, g5, g6, g7, g8, g9, g10, g11, g12, g13, g14]
    exact Cert.Bridge.bridge _ _ _ _ _ _ _ _ _ _ _ _ _ _ _ r0 r1 r2 r3 r4 r5 r6

end

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
